-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8064x2 : Shape := ⟨2, ![8064, 2]⟩
abbrev S4096x128 : Shape := ⟨2, ![4096, 128]⟩
abbrev S2x128x128 : Shape := ⟨3, ![2, 128, 128]⟩
abbrev S2x128 : Shape := ⟨2, ![2, 128]⟩
abbrev S256x256 : Shape := ⟨2, ![256, 256]⟩
abbrev S256 : Shape := ⟨1, ![256]⟩
abbrev S4x256 : Shape := ⟨2, ![4, 256]⟩
abbrev S4 : Shape := ⟨1, ![4]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  main_v103

def fn_part5 {F : FTy → Type} [FloatOps F] (main_arg19 : FVec F S256 .f32) (main_arg20 : FVec F S4x256 .f32) (main_arg21 : FVec F S4 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S4x256 .f32 := Host.absf main_arg20
  let main_cst_36 : FVec F S_ .f32 := constant S_ .f32 0x7F800000#32
  let main_v95 : FVec F S4x256 .f32 := broadcastInDim S4x256 ![] bcast_S_S4x256 main_cst_36
  let main_v96 : IVec S4x256 1 := cmpf .olt main_v94 main_v95
  let main_c_37 : IVec S_ 1 := constantI S_ 1 1#1
  let main_v97 : IVec S_ 1 := (fun x v => Host.reduce IntOp.andi x v reducesTo_S4x256_S_d0_1 h_S_) main_v96 main_c_37
  let main_v98 : IVec S_ 1 := andi main_v93 main_v97
  let main_v99 : FVec F S4 .f32 := Host.absf main_arg21
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_v98 main_v101 main_c_39

def fn_part4 {F : FTy → Type} [FloatOps F] (main_arg15 : FVec F S256 .f32) (main_arg16 : FVec F S256x256 .f32) (main_arg17 : FVec F S256 .f32) (main_arg18 : FVec F S256x256 .f32) (main_arg19 : FVec F S256 .f32) (main_arg20 : FVec F S4x256 .f32) (main_arg21 : FVec F S4 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg16
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S4x256 .f32) (main_arg21 : FVec F S4 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S2x128x128 .f32) (main_arg9 : FVec F S2x128 .f32) (main_arg10 : FVec F S2x128 .f32) (main_arg11 : FVec F S2x128 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S4x256 .f32) (main_arg21 : FVec F S4 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S2x128 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S4x256 .f32) (main_arg21 : FVec F S4 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S8064x2 32) (main_arg1 : FVec F S4096x128 .f32) (main_arg2 : FVec F S2x128x128 .f32) (main_arg3 : FVec F S2x128 .f32) (main_arg4 : FVec F S2x128x128 .f32) (main_arg5 : FVec F S2x128 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S4x256 .f32) (main_arg21 : FVec F S4 .f32) : IVec S_ 1 :=
  let main_v0 : FVec F S4096x128 .f32 := Host.absf main_arg1
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8064x2 : Shape := ⟨2, ![8064, 2]⟩
abbrev S4096x128 : Shape := ⟨2, ![4096, 128]⟩
abbrev S2x128x128 : Shape := ⟨3, ![2, 128, 128]⟩
abbrev S2x128 : Shape := ⟨2, ![2, 128]⟩
abbrev S256x256 : Shape := ⟨2, ![256, 256]⟩
abbrev S256 : Shape := ⟨1, ![256]⟩
abbrev S4x256 : Shape := ⟨2, ![4, 256]⟩
abbrev S4 : Shape := ⟨1, ![4]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x4096 : Shape := ⟨2, ![128, 4096]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S8064x1 : Shape := ⟨2, ![8064, 1]⟩
abbrev S8064 : Shape := ⟨1, ![8064]⟩
abbrev S_ : Shape := ⟨0, ![]⟩
abbrev S8064x128 : Shape := ⟨2, ![8064, 128]⟩
abbrev S8064x256 : Shape := ⟨2, ![8064, 256]⟩
abbrev S256x4 : Shape := ⟨2, ![256, 4]⟩
abbrev S1x256 : Shape := ⟨2, ![1, 256]⟩
abbrev S1x4 : Shape := ⟨2, ![1, 4]⟩
abbrev S8064x4 : Shape := ⟨2, ![8064, 4]⟩
abbrev S1008x256 : Shape := ⟨2, ![1008, 256]⟩
abbrev S1008x4 : Shape := ⟨2, ![1008, 4]⟩
abbrev S8064x2x2 : Shape := ⟨3, ![8064, 2, 2]⟩
abbrev S8064x1x2 : Shape := ⟨3, ![8064, 1, 2]⟩
abbrev S8064x2x1 : Shape := ⟨3, ![8064, 2, 1]⟩
abbrev S16128 : Shape := ⟨1, ![16128]⟩
abbrev S4096 : Shape := ⟨1, ![4096]⟩
abbrev S16128x1 : Shape := ⟨2, ![16128, 1]⟩

abbrev nBuf : Space → Nat
  | .hbm => 158
  | .vmem => 52
  | .smem => 0
  | _ => 0

abbrev hbmTy0_0 (i : Nat) : BufTy := match i % 128 with
  | 0 => ⟨S8064x2, .i32⟩
  | 1 => ⟨S4096x128, .f32⟩
  | 2 => ⟨S2x128x128, .f32⟩
  | 3 => ⟨S2x128, .f32⟩
  | 4 => ⟨S2x128x128, .f32⟩
  | 5 => ⟨S2x128, .f32⟩
  | 6 => ⟨S2x128x128, .f32⟩
  | 7 => ⟨S2x128, .f32⟩
  | 8 => ⟨S2x128x128, .f32⟩
  | 9 => ⟨S2x128, .f32⟩
  | 10 => ⟨S2x128, .f32⟩
  | 11 => ⟨S2x128, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S4x256, .f32⟩
  | 21 => ⟨S4, .f32⟩
  | 22 => ⟨S1x128x128, .f32⟩
  | 23 => ⟨S128x128, .f32⟩
  | 24 => ⟨S128x128, .f32⟩
  | 25 => ⟨S1x128x128, .f32⟩
  | 26 => ⟨S128x128, .f32⟩
  | 27 => ⟨S128x128, .f32⟩
  | 28 => ⟨S1x128x128, .f32⟩
  | 29 => ⟨S128x128, .f32⟩
  | 30 => ⟨S128x128, .f32⟩
  | 31 => ⟨S1x128x128, .f32⟩
  | 32 => ⟨S128x128, .f32⟩
  | 33 => ⟨S128x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S128x4096, .bf16⟩
  | 53 => ⟨S4096x128, .bf16⟩
  | 54 => ⟨S4096x128, .f32⟩
  | 55 => ⟨S1x128x128, .f32⟩
  | 56 => ⟨S128x128, .f32⟩
  | 57 => ⟨S128x128, .f32⟩
  | 58 => ⟨S1x128x128, .f32⟩
  | 59 => ⟨S128x128, .f32⟩
  | 60 => ⟨S128x128, .f32⟩
  | 61 => ⟨S1x128x128, .f32⟩
  | 62 => ⟨S128x128, .f32⟩
  | 63 => ⟨S128x128, .f32⟩
  | 64 => ⟨S1x128x128, .f32⟩
  | 65 => ⟨S128x128, .f32⟩
  | 66 => ⟨S128x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S128x4096, .bf16⟩
  | 86 => ⟨S4096x128, .bf16⟩
  | 87 => ⟨S4096x128, .f32⟩
  | 88 => ⟨S8064x1, .i32⟩
  | 89 => ⟨S8064, .i32⟩
  | 90 => ⟨S8064x1, .i32⟩
  | 91 => ⟨S8064, .i32⟩
  | 92 => ⟨S_, .i32⟩
  | 93 => ⟨S8064, .i32⟩
  | 94 => ⟨S8064, .i1⟩
  | 95 => ⟨S_, .i32⟩
  | 96 => ⟨S8064, .i32⟩
  | 97 => ⟨S8064, .i32⟩
  | 98 => ⟨S8064, .i32⟩
  | 99 => ⟨S8064x1, .i32⟩
  | 100 => ⟨S8064x128, .f32⟩
  | 101 => ⟨S_, .i32⟩
  | 102 => ⟨S8064, .i32⟩
  | 103 => ⟨S8064, .i1⟩
  | 104 => ⟨S_, .i32⟩
  | 105 => ⟨S8064, .i32⟩
  | 106 => ⟨S8064, .i32⟩
  | 107 => ⟨S8064, .i32⟩
  | 108 => ⟨S8064x1, .i32⟩
  | 109 => ⟨S8064x128, .f32⟩
  | 110 => ⟨S8064x256, .f32⟩
  | 111 => ⟨S256x256, .f32⟩
  | 112 => ⟨S256x256, .f32⟩
  | 113 => ⟨S256x256, .f32⟩
  | 114 => ⟨S256x256, .f32⟩
  | 115 => ⟨S256x4, .f32⟩
  | 116 => ⟨S1x256, .f32⟩
  | 117 => ⟨S1x256, .f32⟩
  | 118 => ⟨S1x256, .f32⟩
  | 119 => ⟨S1x256, .f32⟩
  | 120 => ⟨S1x4, .f32⟩
  | 121 => ⟨S8064x4, .f32⟩
  | 122 => ⟨S_, .f32⟩
  | 123 => ⟨S8064, .f32⟩
  | 124 => ⟨S_, .f32⟩
  | 125 => ⟨S8064, .f32⟩
  | 126 => ⟨S8064, .f32⟩
  | 127 => ⟨S8064x1, .f32⟩
  | _ => ⟨S8064x2, .i32⟩

abbrev hbmTy0_1 (i : Nat) : BufTy := match i % 128 with
  | 0 => ⟨S8064x4, .f32⟩
  | 1 => ⟨S8064x4, .f32⟩
  | 2 => ⟨S8064x4, .f32⟩
  | 3 => ⟨S_, .f32⟩
  | 4 => ⟨S8064, .f32⟩
  | 5 => ⟨S8064x1, .f32⟩
  | 6 => ⟨S8064x4, .f32⟩
  | 7 => ⟨S8064x4, .f32⟩
  | 8 => ⟨S8064x2x2, .f32⟩
  | 9 => ⟨S8064x1x2, .f32⟩
  | 10 => ⟨S8064x2, .f32⟩
  | 11 => ⟨S_, .f32⟩
  | 12 => ⟨S8064, .f32⟩
  | 13 => ⟨S8064x2x1, .f32⟩
  | 14 => ⟨S8064x2, .f32⟩
  | 15 => ⟨S_, .f32⟩
  | 16 => ⟨S8064, .f32⟩
  | 17 => ⟨S16128, .i32⟩
  | 18 => ⟨S16128, .f32⟩
  | 19 => ⟨S_, .f32⟩
  | 20 => ⟨S4096, .f32⟩
  | 21 => ⟨S16128x1, .i32⟩
  | 22 => ⟨S4096, .f32⟩
  | 23 => ⟨S_, .f32⟩
  | 24 => ⟨S16128, .f32⟩
  | 25 => ⟨S_, .f32⟩
  | 26 => ⟨S4096, .f32⟩
  | 27 => ⟨S16128x1, .i32⟩
  | 28 => ⟨S4096, .f32⟩
  | 29 => ⟨S4096, .f32⟩
  | _ => ⟨S8064x2, .i32⟩

abbrev hbmTy (i : Nat) : BufTy := match i / 128 with
  | 0 => hbmTy0_0 i
  | 1 => hbmTy0_1 i
  | _ => ⟨S8064x2, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x4096, .bf16⟩
  | .local _ .vmem, ⟨6, _⟩ => ⟨S4096x128, .bf16⟩
  | .local _ .vmem, ⟨7, _⟩ => ⟨S512x128, .f32⟩
  | .local _ .vmem, ⟨8, _⟩ => ⟨S512x128, .f32⟩
  | .local _ .vmem, ⟨9, _⟩ => ⟨S128x4096, .bf16⟩
  | .local _ .vmem, ⟨10, _⟩ => ⟨S4096x128, .bf16⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S4096x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x4096, .bf16⟩
  | .local _ .vmem, ⟨25, _⟩ => ⟨S4096x128, .bf16⟩
  | .local _ .vmem, ⟨26, _⟩ => ⟨S512x128, .f32⟩
  | .local _ .vmem, ⟨27, _⟩ => ⟨S512x128, .f32⟩
  | .local _ .vmem, ⟨28, _⟩ => ⟨S128x4096, .bf16⟩
  | .local _ .vmem, ⟨29, _⟩ => ⟨S4096x128, .bf16⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S512x128, .f32⟩
  | .local _ .vmem, ⟨37, _⟩ => ⟨S512x128, .f32⟩
  | .local _ .vmem, ⟨38, _⟩ => ⟨S1008x256, .f32⟩
  | .local _ .vmem, ⟨39, _⟩ => ⟨S1008x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S1x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S1x256, .f32⟩
  | .local _ .vmem, ⟨48, _⟩ => ⟨S256x4, .f32⟩
  | .local _ .vmem, ⟨49, _⟩ => ⟨S1x4, .f32⟩
  | .local _ .vmem, ⟨50, _⟩ => ⟨S1008x4, .f32⟩
  | .local _ .vmem, ⟨51, _⟩ => ⟨S1008x4, .f32⟩
  | _, _ => ⟨S8064x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c : Ref sig .tc := ⟨.hbm, 92, rfl⟩
abbrev main_v68 : Ref sig .tc := ⟨.hbm, 93, rfl⟩
abbrev main_v69 : Ref sig .tc := ⟨.hbm, 94, rfl⟩
abbrev main_c_0 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_1 : Ref sig .tc := ⟨.hbm, 101, rfl⟩
abbrev main_v75 : Ref sig .tc := ⟨.hbm, 102, rfl⟩
abbrev main_v76 : Ref sig .tc := ⟨.hbm, 103, rfl⟩
abbrev main_c_2 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst : Ref sig .tc := ⟨.hbm, 122, rfl⟩
abbrev main_v94 : Ref sig .tc := ⟨.hbm, 123, rfl⟩
abbrev main_cst_3 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_4 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_5 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_6 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_7 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_8 : Ref sig .tc := ⟨.hbm, 151, rfl⟩
abbrev main_v117 : Ref sig .tc := ⟨.hbm, 152, rfl⟩
abbrev main_cst_9 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg10_0 : Ref sig .tc := ⟨.vmem, 49, rfl⟩
abbrev cc4_stg11_0 : Ref sig .tc := ⟨.vmem, 50, rfl⟩
abbrev cc4_stg11_1 : Ref sig .tc := ⟨.vmem, 51, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem10_0 : DmaSem sig := 49
abbrev cc4_sem11_0 : DmaSem sig := 50
abbrev cc4_sem11_1 : DmaSem sig := 51

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x4096 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4096x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1008x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x4 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x4 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1008x4 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  transposes_S4096x128_p1_0_S128x4096 : S4096x128.Transposes [1, 0] S128x4096
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  packedbf16_S4096x128_S4096x128_0_0 : (Rect.unit (s := S4096x128) ![0, 0] S4096x128.size inb_S4096x128_S4096x128_0_0).PackedRows (EltTy.packing .bf16)
  inb_S512x128_S512x128_0_0 : ∀ a, (![0, 0] : Fin 2 → Nat) a + S512x128.size a ≤ S512x128.size a
  h_S512x128 : 0 < S512x128.numel
  broadcasts_S1x128_S512x128 : S1x128.Broadcasts S512x128
  shapeCasts_S128x4096_S128x4096 : S128x4096.ShapeCasts S128x4096
  reduces_S512x4096_S512 : S512x4096.Reduces [1] S512
  shapeCasts_S512_S512x1 : S512.ShapeCasts S512x1
  broadcasts_S512x1_S512x4096 : S512x1.Broadcasts S512x4096
  shapeCasts_S4096x128_S4096x128 : S4096x128.ShapeCasts S4096x128
  reduces_S512x128_S512 : S512x128.Reduces [1] S512
  broadcasts_S512x1_S512x128 : S512x1.Broadcasts S512x128
  slices_S2x128x128_S1x128x128_1_0_0 : S2x128x128.Slices ![1, 0, 0] S1x128x128
  slices_S2x128_S1x128_1_0 : S2x128.Slices ![1, 0] S1x128
  shapeCasts_S512x128_S512x128 : S512x128.ShapeCasts S512x128
  slices_S8064x2_S8064x1_0_0 : S8064x2.Slices ![0, 0] S8064x1
  shapeCasts_S8064x1_S8064 : S8064x1.ShapeCasts S8064
  slices_S8064x2_S8064x1_0_1 : S8064x2.Slices ![0, 1] S8064x1
  bcast_S_S8064 : S_.BroadcastsInDim S8064 (![] : Fin 0 → Fin S8064.rank)
  bcast_S8064_S8064x1_0 : S8064.BroadcastsInDim S8064x1 (![0] : Fin 1 → Fin S8064x1.rank)
  concatenates_S8064x128_S8064x128_S8064x256_d1 : Shape.Concatenates [S8064x128, S8064x128] S8064x256 1
  transposes_S256x256_S256x256_1_0 : S256x256.Transposes [1, 0] S256x256
  transposes_S4x256_S256x4_1_0 : S4x256.Transposes [1, 0] S256x4
  shapeCasts_S256_S1x256 : S256.ShapeCasts S1x256
  shapeCasts_S4_S1x4 : S4.ShapeCasts S1x4
  inb_S1008x256_S1008x256_0_0 : ∀ a, (![0, 0] : Fin 2 → Nat) a + S1008x256.size a ≤ S1008x256.size a
  h_S1008x256 : 0 < S1008x256.numel
  shapeCasts_S1008x256_S1008x256 : S1008x256.ShapeCasts S1008x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1008x256 : S1x256.Broadcasts S1008x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1008x4 : S1x4.Broadcasts S1008x4
  inb_S1008x4_S1008x4_0_0 : ∀ a, (![0, 0] : Fin 2 → Nat) a + S1008x4.size a ≤ S1008x4.size a
  h_S1008x4 : 0 < S1008x4.numel
  reducesTo_S8064x4_S8064_d1 : S8064x4.ReducesTo [1] S8064
  h_S_ : 0 < S_.numel
  bcast_S8064x1_S8064x4_0_1 : S8064x1.BroadcastsInDim S8064x4 (![0, 1] : Fin 2 → Fin S8064x4.rank)
  shapeCasts_S8064x4_S8064x2x2 : S8064x4.ShapeCasts S8064x2x2
  slices_S8064x2x2_S8064x1x2_0_1_0 : S8064x2x2.Slices ![0, 1, 0] S8064x1x2
  shapeCasts_S8064x1x2_S8064x2 : S8064x1x2.ShapeCasts S8064x2
  reducesTo_S8064x2_S8064_d1 : S8064x2.ReducesTo [1] S8064
  slices_S8064x2x2_S8064x2x1_0_0_1 : S8064x2x2.Slices ![0, 0, 1] S8064x2x1
  shapeCasts_S8064x2x1_S8064x2 : S8064x2x1.ShapeCasts S8064x2
  concatenates_S8064_S8064_S16128_d0 : Shape.Concatenates [S8064, S8064] S16128 0
  bcast_S_S4096 : S_.BroadcastsInDim S4096 (![] : Fin 0 → Fin S4096.rank)
  bcast_S16128_S16128x1_0 : S16128.BroadcastsInDim S16128x1 (![0] : Fin 1 → Fin S16128x1.rank)
  bcast_S_S16128 : S_.BroadcastsInDim S16128 (![] : Fin 0 → Fin S16128.rank)
  dot_S4096x128_S128x128_S4096x128_1_0_0_1_n_n_wf : DotDims.WF S4096x128 S128x128 S4096x128 [1] [0] [0] [1] [] []
  dot_S512x128_S128x128_S512x128_1_0_0_1_n_n_wf : DotDims.WF S512x128 S128x128 S512x128 [1] [0] [0] [1] [] []
  dot_S512x128_S128x4096_S512x4096_1_0_0_1_n_n_wf : DotDims.WF S512x128 S128x4096 S512x4096 [1] [0] [0] [1] [] []
  dot_S512x4096_S4096x128_S512x128_1_0_0_1_n_n_wf : DotDims.WF S512x4096 S4096x128 S512x128 [1] [0] [0] [1] [] []
  gather_S4096x128_S8064x1_S8064x128_1_0_n_n_0_1_1128_wf : GatherDims.WF S4096x128 S8064x1 S8064x128 [1] [0] [] [0] [] 1 ![1, 128]
  dot_S1008x256_S256x256_S1008x256_1_0_0_1_n_n_wf : DotDims.WF S1008x256 S256x256 S1008x256 [1] [0] [0] [1] [] []
  dot_S1008x256_S256x4_S1008x4_1_0_0_1_n_n_wf : DotDims.WF S1008x256 S256x4 S1008x4 [1] [0] [0] [1] [] []
  scatter_S4096_S16128x1_S16128_n_0_0_1_wf : ScatterDims.WF S4096 S16128x1 S16128 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x4096.size a
  hwx0_5 : ∀ i : grid0.Coords, EltTy.bits .bf16 = 32 ∨ (Rect.block (s := S128x4096) S128x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S4096x128.size a
  hwx0_6 : ∀ i : grid0.Coords, EltTy.bits .bf16 = 32 ∨ (Rect.block (s := S4096x128) S4096x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S128x4096.size a
  hwx1_1 : ∀ i : grid1.Coords, EltTy.bits .bf16 = 32 ∨ (Rect.block (s := S128x4096) S128x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .bf16 = 32 ∨ (Rect.block (s := S4096x128) S4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S4096x128.size a
  hwx1_9 : ∀ i : grid1.Coords, EltTy.bits .f32 = 32 ∨ (Rect.block (s := S4096x128) S512x128.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x4096.size a ≤ S128x4096.size a
  hwx2_5 : ∀ i : grid2.Coords, EltTy.bits .bf16 = 32 ∨ (Rect.block (s := S128x4096) S128x4096.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4096x128.size a ≤ S4096x128.size a
  hwx2_6 : ∀ i : grid2.Coords, EltTy.bits .bf16 = 32 ∨ (Rect.block (s := S4096x128) S4096x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S4096x128.size a
  hwx3_0 : ∀ i : grid3.Coords, EltTy.bits .f32 = 32 ∨ (Rect.block (s := S4096x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S128x4096.size a
  hwx3_1 : ∀ i : grid3.Coords, EltTy.bits .bf16 = 32 ∨ (Rect.block (s := S128x4096) S128x4096.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S4096x128.size a
  hwx3_2 : ∀ i : grid3.Coords, EltTy.bits .bf16 = 32 ∨ (Rect.block (s := S4096x128) S4096x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x128.size a ≤ S4096x128.size a
  hwx3_9 : ∀ i : grid3.Coords, EltTy.bits .f32 = 32 ∨ (Rect.block (s := S4096x128) S512x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1008x256.size a ≤ S8064x256.size a
  hwx4_0 : ∀ i : grid4.Coords, EltTy.bits .f32 = 32 ∨ (Rect.block (s := S8064x256) S1008x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x256.size a ≤ S256x256.size a
  hwx4_7 : ∀ i : grid4.Coords, EltTy.bits .f32 = 32 ∨ (Rect.block (s := S256x256) S256x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x256.size a ≤ S1x256.size a
  hwx4_8 : ∀ i : grid4.Coords, EltTy.bits .f32 = 32 ∨ (Rect.block (s := S1x256) S1x256.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256x4.size a ≤ S256x4.size a
  hwx4_9 : ∀ i : grid4.Coords, EltTy.bits .f32 = 32 ∨ (Rect.block (s := S256x4) S256x4.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x4.size a ≤ S1x4.size a
  hwx4_10 : ∀ i : grid4.Coords, EltTy.bits .f32 = 32 ∨ (Rect.block (s := S1x4) S1x4.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1008x4.size a ≤ S8064x4.size a
  hwx4_11 : ∀ i : grid4.Coords, EltTy.bits .f32 = 32 ∨ (Rect.block (s := S8064x4) S1008x4.size (cc4_transform_11 i) (hinb4_11 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def gather_S4096x128_S8064x1_S8064x128_1_0_n_n_0_1_1128 : GatherDims S4096x128 S8064x1 S8064x128 where
  offsetDims := [1]
  collapsedSliceDims := [0]
  operandBatchingDims := []
  startIndicesBatchingDims := []
  startIndexMap := [0]
  indexVectorDim := 1
  sliceSizes := ![1, 128]
  wf := gather_S4096x128_S8064x1_S8064x128_1_0_n_n_0_1_1128_wf
def dot_S1008x256_S256x256_S1008x256_1_0_0_1_n_n : DotDims S1008x256 S256x256 S1008x256 where
  lhsContracting := [1]
  rhsContracting := [0]
  lhsNonContracting := [0]
  rhsNonContracting := [1]
  lhsBatch := []
  rhsBatch := []
  wf := dot_S1008x256_S256x256_S1008x256_1_0_0_1_n_n_wf
def dot_S1008x256_S256x4_S1008x4_1_0_0_1_n_n : DotDims S1008x256 S256x4 S1008x4 where
  lhsContracting := [1]
  rhsContracting := [0]
  lhsNonContracting := [0]
  rhsNonContracting := [1]
  lhsBatch := []
  rhsBatch := []
  wf := dot_S1008x256_S256x4_S1008x4_1_0_0_1_n_n_wf
def scatter_S4096_S16128x1_S16128_n_0_0_1 : ScatterDims S4096 S16128x1 S16128 where
  updateWindowDims := []
  insertedWindowDims := [0]
  scatterDimsToOperandDims := [0]
  indexVectorDim := 1
  wf := scatter_S4096_S16128x1_S16128_n_0_0_1_wf

abbrev win0_0 : Pipeline.Window sig grid0 :=
  Pipeline.Window.ofSpec (Memref.whole main_arg1) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S128x4096.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S4096x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_0) S128x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30_1) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S512x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v31) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v37) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S128x4096.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S4096x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v31) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62_0) S128x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62_1) S4096x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v57) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v63) S512x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v82) S1008x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86) S256x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v91) S1x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v87) S256x4.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v92) S1x4.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v93) S1008x4.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S8064x2 : Shape := ⟨2, ![8064, 2]⟩
abbrev S4096x128 : Shape := ⟨2, ![4096, 128]⟩
abbrev S2x128x128 : Shape := ⟨3, ![2, 128, 128]⟩
abbrev S2x128 : Shape := ⟨2, ![2, 128]⟩
abbrev S256x256 : Shape := ⟨2, ![256, 256]⟩
abbrev S256 : Shape := ⟨1, ![256]⟩
abbrev S4x256 : Shape := ⟨2, ![4, 256]⟩
abbrev S4 : Shape := ⟨1, ![4]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x4096 : Shape := ⟨2, ![128, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8064x1 : Shape := ⟨2, ![8064, 1]⟩
abbrev S8064 : Shape := ⟨1, ![8064]⟩
abbrev S8064x128 : Shape := ⟨2, ![8064, 128]⟩
abbrev S8064x256 : Shape := ⟨2, ![8064, 256]⟩
abbrev S1x256 : Shape := ⟨2, ![1, 256]⟩
abbrev S256x4 : Shape := ⟨2, ![256, 4]⟩
abbrev S8064x4 : Shape := ⟨2, ![8064, 4]⟩
abbrev S1x4 : Shape := ⟨2, ![1, 4]⟩
abbrev S8064x2x2 : Shape := ⟨3, ![8064, 2, 2]⟩
abbrev S8064x1x2 : Shape := ⟨3, ![8064, 1, 2]⟩
abbrev S8064x2x1 : Shape := ⟨3, ![8064, 2, 1]⟩
abbrev S16128 : Shape := ⟨1, ![16128]⟩
abbrev S16128x1 : Shape := ⟨2, ![16128, 1]⟩

abbrev nBuf : Space → Nat
  | .hbm => 294
  | .vmem => 0
  | .smem => 0
  | _ => 0

abbrev hbmTy0_0 (i : Nat) : BufTy := match i % 128 with
  | 0 => ⟨S8064x2, .i32⟩
  | 1 => ⟨S4096x128, .f32⟩
  | 2 => ⟨S2x128x128, .f32⟩
  | 3 => ⟨S2x128, .f32⟩
  | 4 => ⟨S2x128x128, .f32⟩
  | 5 => ⟨S2x128, .f32⟩
  | 6 => ⟨S2x128x128, .f32⟩
  | 7 => ⟨S2x128, .f32⟩
  | 8 => ⟨S2x128x128, .f32⟩
  | 9 => ⟨S2x128, .f32⟩
  | 10 => ⟨S2x128, .f32⟩
  | 11 => ⟨S2x128, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S4x256, .f32⟩
  | 21 => ⟨S4, .f32⟩
  | 22 => ⟨S1x128x128, .f32⟩
  | 23 => ⟨S128x128, .f32⟩
  | 24 => ⟨S1x128, .f32⟩
  | 25 => ⟨S128, .f32⟩
  | 26 => ⟨S128x128, .f32⟩
  | 27 => ⟨S4096x128, .f32⟩
  | 28 => ⟨S1x128, .f32⟩
  | 29 => ⟨S4096x128, .f32⟩
  | 30 => ⟨S4096x128, .f32⟩
  | 31 => ⟨S1x128x128, .f32⟩
  | 32 => ⟨S128x128, .f32⟩
  | 33 => ⟨S1x128, .f32⟩
  | 34 => ⟨S128, .f32⟩
  | 35 => ⟨S128x128, .f32⟩
  | 36 => ⟨S4096x128, .f32⟩
  | 37 => ⟨S1x128, .f32⟩
  | 38 => ⟨S4096x128, .f32⟩
  | 39 => ⟨S4096x128, .f32⟩
  | 40 => ⟨S1x128x128, .f32⟩
  | 41 => ⟨S128x128, .f32⟩
  | 42 => ⟨S1x128, .f32⟩
  | 43 => ⟨S128, .f32⟩
  | 44 => ⟨S128x128, .f32⟩
  | 45 => ⟨S4096x128, .f32⟩
  | 46 => ⟨S1x128, .f32⟩
  | 47 => ⟨S4096x128, .f32⟩
  | 48 => ⟨S4096x128, .f32⟩
  | 49 => ⟨S128x4096, .f32⟩
  | 50 => ⟨S4096x4096, .f32⟩
  | 51 => ⟨S_, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096x4096, .f32⟩
  | 58 => ⟨S4096x4096, .f32⟩
  | 59 => ⟨S4096x4096, .f32⟩
  | 60 => ⟨S_, .f32⟩
  | 61 => ⟨S4096, .f32⟩
  | 62 => ⟨S4096x1, .f32⟩
  | 63 => ⟨S4096x4096, .f32⟩
  | 64 => ⟨S4096x4096, .f32⟩
  | 65 => ⟨S4096x128, .f32⟩
  | 66 => ⟨S1x128x128, .f32⟩
  | 67 => ⟨S128x128, .f32⟩
  | 68 => ⟨S1x128, .f32⟩
  | 69 => ⟨S128, .f32⟩
  | 70 => ⟨S128x128, .f32⟩
  | 71 => ⟨S4096x128, .f32⟩
  | 72 => ⟨S1x128, .f32⟩
  | 73 => ⟨S4096x128, .f32⟩
  | 74 => ⟨S4096x128, .f32⟩
  | 75 => ⟨S4096x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S4096x128, .f32⟩
  | 87 => ⟨S4096x128, .f32⟩
  | 88 => ⟨S4096x128, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S4096x128, .f32⟩
  | 96 => ⟨S4096x128, .f32⟩
  | 97 => ⟨S_, .f32⟩
  | 98 => ⟨S4096x1, .f32⟩
  | 99 => ⟨S4096x1, .f32⟩
  | 100 => ⟨S4096x1, .f32⟩
  | 101 => ⟨S4096x128, .f32⟩
  | 102 => ⟨S4096x128, .f32⟩
  | 103 => ⟨S1x128, .f32⟩
  | 104 => ⟨S4096x128, .f32⟩
  | 105 => ⟨S4096x128, .f32⟩
  | 106 => ⟨S1x128, .f32⟩
  | 107 => ⟨S4096x128, .f32⟩
  | 108 => ⟨S4096x128, .f32⟩
  | 109 => ⟨S1x128x128, .f32⟩
  | 110 => ⟨S128x128, .f32⟩
  | 111 => ⟨S1x128, .f32⟩
  | 112 => ⟨S128, .f32⟩
  | 113 => ⟨S128x128, .f32⟩
  | 114 => ⟨S4096x128, .f32⟩
  | 115 => ⟨S1x128, .f32⟩
  | 116 => ⟨S4096x128, .f32⟩
  | 117 => ⟨S4096x128, .f32⟩
  | 118 => ⟨S1x128x128, .f32⟩
  | 119 => ⟨S128x128, .f32⟩
  | 120 => ⟨S1x128, .f32⟩
  | 121 => ⟨S128, .f32⟩
  | 122 => ⟨S128x128, .f32⟩
  | 123 => ⟨S4096x128, .f32⟩
  | 124 => ⟨S1x128, .f32⟩
  | 125 => ⟨S4096x128, .f32⟩
  | 126 => ⟨S4096x128, .f32⟩
  | 127 => ⟨S1x128x128, .f32⟩
  | _ => ⟨S8064x2, .i32⟩

abbrev hbmTy0_1 (i : Nat) : BufTy := match i % 128 with
  | 0 => ⟨S128x128, .f32⟩
  | 1 => ⟨S1x128, .f32⟩
  | 2 => ⟨S128, .f32⟩
  | 3 => ⟨S128x128, .f32⟩
  | 4 => ⟨S4096x128, .f32⟩
  | 5 => ⟨S1x128, .f32⟩
  | 6 => ⟨S4096x128, .f32⟩
  | 7 => ⟨S4096x128, .f32⟩
  | 8 => ⟨S128x4096, .f32⟩
  | 9 => ⟨S4096x4096, .f32⟩
  | 10 => ⟨S_, .f32⟩
  | 11 => ⟨S4096, .f32⟩
  | 12 => ⟨S_, .f32⟩
  | 13 => ⟨S4096, .f32⟩
  | 14 => ⟨S4096, .f32⟩
  | 15 => ⟨S4096x1, .f32⟩
  | 16 => ⟨S4096x4096, .f32⟩
  | 17 => ⟨S4096x4096, .f32⟩
  | 18 => ⟨S4096x4096, .f32⟩
  | 19 => ⟨S_, .f32⟩
  | 20 => ⟨S4096, .f32⟩
  | 21 => ⟨S4096x1, .f32⟩
  | 22 => ⟨S4096x4096, .f32⟩
  | 23 => ⟨S4096x4096, .f32⟩
  | 24 => ⟨S4096x128, .f32⟩
  | 25 => ⟨S1x128x128, .f32⟩
  | 26 => ⟨S128x128, .f32⟩
  | 27 => ⟨S1x128, .f32⟩
  | 28 => ⟨S128, .f32⟩
  | 29 => ⟨S128x128, .f32⟩
  | 30 => ⟨S4096x128, .f32⟩
  | 31 => ⟨S1x128, .f32⟩
  | 32 => ⟨S4096x128, .f32⟩
  | 33 => ⟨S4096x128, .f32⟩
  | 34 => ⟨S4096x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S4096x128, .f32⟩
  | 46 => ⟨S4096x128, .f32⟩
  | 47 => ⟨S4096x128, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S4096x128, .f32⟩
  | 55 => ⟨S4096x128, .f32⟩
  | 56 => ⟨S_, .f32⟩
  | 57 => ⟨S4096x1, .f32⟩
  | 58 => ⟨S4096x1, .f32⟩
  | 59 => ⟨S4096x1, .f32⟩
  | 60 => ⟨S4096x128, .f32⟩
  | 61 => ⟨S4096x128, .f32⟩
  | 62 => ⟨S1x128, .f32⟩
  | 63 => ⟨S4096x128, .f32⟩
  | 64 => ⟨S4096x128, .f32⟩
  | 65 => ⟨S1x128, .f32⟩
  | 66 => ⟨S4096x128, .f32⟩
  | 67 => ⟨S4096x128, .f32⟩
  | 68 => ⟨S8064x1, .i32⟩
  | 69 => ⟨S8064, .i32⟩
  | 70 => ⟨S8064x1, .i32⟩
  | 71 => ⟨S8064, .i32⟩
  | 72 => ⟨S_, .i32⟩
  | 73 => ⟨S8064, .i32⟩
  | 74 => ⟨S8064, .i1⟩
  | 75 => ⟨S_, .i32⟩
  | 76 => ⟨S8064, .i32⟩
  | 77 => ⟨S8064, .i32⟩
  | 78 => ⟨S8064, .i32⟩
  | 79 => ⟨S8064x1, .i32⟩
  | 80 => ⟨S8064x128, .f32⟩
  | 81 => ⟨S_, .i32⟩
  | 82 => ⟨S8064, .i32⟩
  | 83 => ⟨S8064, .i1⟩
  | 84 => ⟨S_, .i32⟩
  | 85 => ⟨S8064, .i32⟩
  | 86 => ⟨S8064, .i32⟩
  | 87 => ⟨S8064, .i32⟩
  | 88 => ⟨S8064x1, .i32⟩
  | 89 => ⟨S8064x128, .f32⟩
  | 90 => ⟨S8064x256, .f32⟩
  | 91 => ⟨S256x256, .f32⟩
  | 92 => ⟨S8064x256, .f32⟩
  | 93 => ⟨S1x256, .f32⟩
  | 94 => ⟨S8064x256, .f32⟩
  | 95 => ⟨S8064x256, .f32⟩
  | 96 => ⟨S_, .f32⟩
  | 97 => ⟨S8064x256, .f32⟩
  | 98 => ⟨S8064x256, .f32⟩
  | 99 => ⟨S256x256, .f32⟩
  | 100 => ⟨S8064x256, .f32⟩
  | 101 => ⟨S1x256, .f32⟩
  | 102 => ⟨S8064x256, .f32⟩
  | 103 => ⟨S8064x256, .f32⟩
  | 104 => ⟨S_, .f32⟩
  | 105 => ⟨S8064x256, .f32⟩
  | 106 => ⟨S8064x256, .f32⟩
  | 107 => ⟨S8064x256, .f32⟩
  | 108 => ⟨S256x256, .f32⟩
  | 109 => ⟨S8064x256, .f32⟩
  | 110 => ⟨S1x256, .f32⟩
  | 111 => ⟨S8064x256, .f32⟩
  | 112 => ⟨S8064x256, .f32⟩
  | 113 => ⟨S_, .f32⟩
  | 114 => ⟨S8064x256, .f32⟩
  | 115 => ⟨S8064x256, .f32⟩
  | 116 => ⟨S256x256, .f32⟩
  | 117 => ⟨S8064x256, .f32⟩
  | 118 => ⟨S1x256, .f32⟩
  | 119 => ⟨S8064x256, .f32⟩
  | 120 => ⟨S8064x256, .f32⟩
  | 121 => ⟨S_, .f32⟩
  | 122 => ⟨S8064x256, .f32⟩
  | 123 => ⟨S8064x256, .f32⟩
  | 124 => ⟨S8064x256, .f32⟩
  | 125 => ⟨S256x4, .f32⟩
  | 126 => ⟨S8064x4, .f32⟩
  | 127 => ⟨S1x4, .f32⟩
  | _ => ⟨S8064x2, .i32⟩

abbrev hbmTy0_2 (i : Nat) : BufTy := match i % 128 with
  | 0 => ⟨S8064x4, .f32⟩
  | 1 => ⟨S8064x4, .f32⟩
  | 2 => ⟨S_, .f32⟩
  | 3 => ⟨S8064, .f32⟩
  | 4 => ⟨S_, .f32⟩
  | 5 => ⟨S8064, .f32⟩
  | 6 => ⟨S8064, .f32⟩
  | 7 => ⟨S8064x1, .f32⟩
  | 8 => ⟨S8064x4, .f32⟩
  | 9 => ⟨S8064x4, .f32⟩
  | 10 => ⟨S8064x4, .f32⟩
  | 11 => ⟨S_, .f32⟩
  | 12 => ⟨S8064, .f32⟩
  | 13 => ⟨S8064x1, .f32⟩
  | 14 => ⟨S8064x4, .f32⟩
  | 15 => ⟨S8064x4, .f32⟩
  | 16 => ⟨S8064x2x2, .f32⟩
  | 17 => ⟨S8064x1x2, .f32⟩
  | 18 => ⟨S8064x2, .f32⟩
  | 19 => ⟨S_, .f32⟩
  | 20 => ⟨S8064, .f32⟩
  | 21 => ⟨S8064x2x1, .f32⟩
  | 22 => ⟨S8064x2, .f32⟩
  | 23 => ⟨S_, .f32⟩
  | 24 => ⟨S8064, .f32⟩
  | 25 => ⟨S16128, .i32⟩
  | 26 => ⟨S16128, .f32⟩
  | 27 => ⟨S_, .f32⟩
  | 28 => ⟨S4096, .f32⟩
  | 29 => ⟨S16128x1, .i32⟩
  | 30 => ⟨S4096, .f32⟩
  | 31 => ⟨S_, .f32⟩
  | 32 => ⟨S16128, .f32⟩
  | 33 => ⟨S_, .f32⟩
  | 34 => ⟨S4096, .f32⟩
  | 35 => ⟨S16128x1, .i32⟩
  | 36 => ⟨S4096, .f32⟩
  | 37 => ⟨S4096, .f32⟩
  | _ => ⟨S8064x2, .i32⟩

abbrev hbmTy (i : Nat) : BufTy := match i / 128 with
  | 0 => hbmTy0_0 i
  | 1 => hbmTy0_1 i
  | 2 => hbmTy0_2 i
  | _ => ⟨S8064x2, .i32⟩

abbrev bufTy : (tb : Table) → Fin (tcTables nBuf tb) → BufTy
  | .hbm, ⟨i, _⟩ => hbmTy i
  | _, _ => ⟨S8064x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_cst_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_2 : Ref sig .tc := ⟨.hbm, 80, rfl⟩
abbrev main_v55 : Ref sig .tc := ⟨.hbm, 81, rfl⟩
abbrev main_v56 : Ref sig .tc := ⟨.hbm, 82, rfl⟩
abbrev main_cst_3 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_4 : Ref sig .tc := ⟨.hbm, 89, rfl⟩
abbrev main_v62 : Ref sig .tc := ⟨.hbm, 90, rfl⟩
abbrev main_v63 : Ref sig .tc := ⟨.hbm, 91, rfl⟩
abbrev main_cst_5 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_6 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_7 : Ref sig .tc := ⟨.hbm, 138, rfl⟩
abbrev main_v108 : Ref sig .tc := ⟨.hbm, 139, rfl⟩
abbrev main_cst_8 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_9 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_10 : Ref sig .tc := ⟨.hbm, 167, rfl⟩
abbrev main_v134 : Ref sig .tc := ⟨.hbm, 168, rfl⟩
abbrev main_v135 : Ref sig .tc := ⟨.hbm, 169, rfl⟩
abbrev main_cst_11 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_12 : Ref sig .tc := ⟨.hbm, 176, rfl⟩
abbrev main_v141 : Ref sig .tc := ⟨.hbm, 177, rfl⟩
abbrev main_v142 : Ref sig .tc := ⟨.hbm, 178, rfl⟩
abbrev main_cst_13 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_14 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_c : Ref sig .tc := ⟨.hbm, 200, rfl⟩
abbrev main_v162 : Ref sig .tc := ⟨.hbm, 201, rfl⟩
abbrev main_v163 : Ref sig .tc := ⟨.hbm, 202, rfl⟩
abbrev main_c_15 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_c_16 : Ref sig .tc := ⟨.hbm, 209, rfl⟩
abbrev main_v169 : Ref sig .tc := ⟨.hbm, 210, rfl⟩
abbrev main_v170 : Ref sig .tc := ⟨.hbm, 211, rfl⟩
abbrev main_c_17 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_call0_cst : Ref sig .tc := ⟨.hbm, 224, rfl⟩
abbrev main_call0_v0 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_call1_cst : Ref sig .tc := ⟨.hbm, 232, rfl⟩
abbrev main_call1_v0 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_call2_cst : Ref sig .tc := ⟨.hbm, 241, rfl⟩
abbrev main_call2_v0 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_call3_cst : Ref sig .tc := ⟨.hbm, 249, rfl⟩
abbrev main_call3_v0 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_18 : Ref sig .tc := ⟨.hbm, 258, rfl⟩
abbrev main_v208 : Ref sig .tc := ⟨.hbm, 259, rfl⟩
abbrev main_cst_19 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_cst_20 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_cst_21 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_cst_22 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_cst_23 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_24 : Ref sig .tc := ⟨.hbm, 287, rfl⟩
abbrev main_v231 : Ref sig .tc := ⟨.hbm, 288, rfl⟩
abbrev main_cst_25 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S4096x128_S128x4096_1_0 : S4096x128.Transposes [1, 0] S128x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x128_S4096_d1 : S4096x128.ReducesTo [1] S4096
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  slices_S2x128x128_S1x128x128_1_0_0 : S2x128x128.Slices ![1, 0, 0] S1x128x128
  slices_S2x128_S1x128_1_0 : S2x128.Slices ![1, 0] S1x128
  slices_S8064x2_S8064x1_0_0 : S8064x2.Slices ![0, 0] S8064x1
  shapeCasts_S8064x1_S8064 : S8064x1.ShapeCasts S8064
  slices_S8064x2_S8064x1_0_1 : S8064x2.Slices ![0, 1] S8064x1
  bcast_S_S8064 : S_.BroadcastsInDim S8064 (![] : Fin 0 → Fin S8064.rank)
  bcast_S8064_S8064x1_0 : S8064.BroadcastsInDim S8064x1 (![0] : Fin 1 → Fin S8064x1.rank)
  concatenates_S8064x128_S8064x128_S8064x256_d1 : Shape.Concatenates [S8064x128, S8064x128] S8064x256 1
  transposes_S256x256_S256x256_1_0 : S256x256.Transposes [1, 0] S256x256
  bcast_S256_S1x256_1 : S256.BroadcastsInDim S1x256 (![1] : Fin 1 → Fin S1x256.rank)
  bcast_S1x256_S8064x256_0_1 : S1x256.BroadcastsInDim S8064x256 (![0, 1] : Fin 2 → Fin S8064x256.rank)
  bcast_S_S8064x256 : S_.BroadcastsInDim S8064x256 (![] : Fin 0 → Fin S8064x256.rank)
  transposes_S4x256_S256x4_1_0 : S4x256.Transposes [1, 0] S256x4
  bcast_S4_S1x4_1 : S4.BroadcastsInDim S1x4 (![1] : Fin 1 → Fin S1x4.rank)
  bcast_S1x4_S8064x4_0_1 : S1x4.BroadcastsInDim S8064x4 (![0, 1] : Fin 2 → Fin S8064x4.rank)
  reducesTo_S8064x4_S8064_d1 : S8064x4.ReducesTo [1] S8064
  bcast_S8064x1_S8064x4_0_1 : S8064x1.BroadcastsInDim S8064x4 (![0, 1] : Fin 2 → Fin S8064x4.rank)
  shapeCasts_S8064x4_S8064x2x2 : S8064x4.ShapeCasts S8064x2x2
  slices_S8064x2x2_S8064x1x2_0_1_0 : S8064x2x2.Slices ![0, 1, 0] S8064x1x2
  shapeCasts_S8064x1x2_S8064x2 : S8064x1x2.ShapeCasts S8064x2
  reducesTo_S8064x2_S8064_d1 : S8064x2.ReducesTo [1] S8064
  slices_S8064x2x2_S8064x2x1_0_0_1 : S8064x2x2.Slices ![0, 0, 1] S8064x2x1
  shapeCasts_S8064x2x1_S8064x2 : S8064x2x1.ShapeCasts S8064x2
  concatenates_S8064_S8064_S16128_d0 : Shape.Concatenates [S8064, S8064] S16128 0
  bcast_S16128_S16128x1_0 : S16128.BroadcastsInDim S16128x1 (![0] : Fin 1 → Fin S16128x1.rank)
  bcast_S_S16128 : S_.BroadcastsInDim S16128 (![] : Fin 0 → Fin S16128.rank)
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []
  gather_S4096x128_S8064x1_S8064x128_1_0_n_n_0_1_1128_wf : GatherDims.WF S4096x128 S8064x1 S8064x128 [1] [0] [] [0] [] 1 ![1, 128]
  dot_S8064x256_S256x256_S8064x256_1_0_0_1_n_n_wf : DotDims.WF S8064x256 S256x256 S8064x256 [1] [0] [0] [1] [] []
  dot_S8064x256_S256x4_S8064x4_1_0_0_1_n_n_wf : DotDims.WF S8064x256 S256x4 S8064x4 [1] [0] [0] [1] [] []
  scatter_S4096_S16128x1_S16128_n_0_0_1_wf : ScatterDims.WF S4096 S16128x1 S16128 [] [0] [0] 1

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def gather_S4096x128_S8064x1_S8064x128_1_0_n_n_0_1_1128 : GatherDims S4096x128 S8064x1 S8064x128 where
  offsetDims := [1]
  collapsedSliceDims := [0]
  operandBatchingDims := []
  startIndicesBatchingDims := []
  startIndexMap := [0]
  indexVectorDim := 1
  sliceSizes := ![1, 128]
  wf := gather_S4096x128_S8064x1_S8064x128_1_0_n_n_0_1_1128_wf
def dot_S8064x256_S256x256_S8064x256_1_0_0_1_n_n : DotDims S8064x256 S256x256 S8064x256 where
  lhsContracting := [1]
  rhsContracting := [0]
  lhsNonContracting := [0]
  rhsNonContracting := [1]
  lhsBatch := []
  rhsBatch := []
  wf := dot_S8064x256_S256x256_S8064x256_1_0_0_1_n_n_wf
def dot_S8064x256_S256x4_S8064x4_1_0_0_1_n_n : DotDims S8064x256 S256x4 S8064x4 where
  lhsContracting := [1]
  rhsContracting := [0]
  lhsNonContracting := [0]
  rhsNonContracting := [1]
  lhsBatch := []
  rhsBatch := []
  wf := dot_S8064x256_S256x4_S8064x4_1_0_0_1_n_n_wf
def scatter_S4096_S16128x1_S16128_n_0_0_1 : ScatterDims S4096 S16128x1 S16128 where
  updateWindowDims := []
  insertedWindowDims := [0]
  scatterDimsToOperandDims := [0]
  indexVectorDim := 1
  wf := scatter_S4096_S16128x1_S16128_n_0_0_1_wf

class Facts : Prop extends Facts₀ where

variable [Facts]
-- ==== Proof.KernelRun.lean ====
/-
  The idealized program's run, with its two results named.

  From any memory with zero counters, every weakly fair execution of the program on the TensorCores terminates, nothing
  faulting. In every final state the two results hold what the last stretch of host operations leaves — the last value
  of the fold of the segments' contents from the launch memory — and every argument array is as launched.
-/
import proofs.«173113_j3470333575730_2_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN: every weakly fair execution of the program terminates, and in every final state the two results are at
    the contents after the last host stretch (`W9`), the arguments as launched. -/
theorem run : θ_run defs (onTc (τ := τ) (main (F := F))) ⟨m, fun _ => 0, ρ⟩ (fun r => ∀ c : Dev nD,
      r.2.mem ((c.tc : Thread nD τ).loc main_v121) = W9 m ρ c (Proc.devRef .tc main_v121)
      ∧ r.2.mem ((c.tc : Thread nD τ).loc main_v105) = W9 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v121 (by decide)),
       h c _ (mem_uc main_v105 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c)⟩)

end Cert.KernelRun

end
-- ==== Proof.RefBridge.lean ====
/-
  The reference program's run, with its two results at the stage functions.

  The run leaves every buffer at the fold of the program's operations over the launch contents. The list is the append of
  eight stretches — the first attention layer, the second, the gathers of the edge rows, the edge network, the softmax
  over the four classes, the two marginal sums, the joined index columns, the scatter back to the nodes — each for an
  arbitrary valuation: what a stretch leaves at its last arrays is the stage function of the arrays it reads, and an
  array a stretch does not write keeps its contents. An array read several times is carried between stretches as one
  folded term, so no term grows with the number of its readers; a concatenation is the first operation of its stretch,
  so its operands are read from the stretch's own valuation.
-/
import proofs.«173113_j3470333575730_2_alg».proof.Proof.RefRun
import proofs.«173113_j3470333575730_2_alg».proof.Proof.RefRead

noncomputable section

namespace Cert.RefBridge

open Cert.ReferenceIdeal Cert.ReferenceIdeal.Gen Idealize.ShloMosaic Idealize.ShloMosaic.TcCoe Idealize.SL.Sem
  Idealize.ShloMosaic.StableHlo

variable {F : FTy → Type} [FloatOps F]

/-- The fold over a concatenation is the fold over the second list from the fold over the first. -/
theorem after_append (A B : List (HloOp τ sig (Elt F))) (V : Valuation τ sig (Elt F)) :
    after (A ++ B) V = after B (after A V) := by
  induction A generalizing V with
  | nil => rfl
  | cons op A ih => exact ih (op.result V)

/-! ## What each stretch leaves -/

/-- The first layer's rows, from the arguments. -/
theorem A_v78 (V : Valuation τ sig (Elt F)) :
    after ValueP.opsA V (Proc.devRef .tc main_v78) = ReadP.val_main_v78 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp
  rfl

/-! The arguments, and any array a stretch does not write, keep their contents. -/

theorem A_arg0 (V : Valuation τ sig (Elt F)) : after ValueP.opsA V (Proc.devRef .tc main_arg0) = V (Proc.devRef .tc main_arg0) := by
  after_results_simp

theorem A_arg2 (V : Valuation τ sig (Elt F)) : after ValueP.opsA V (Proc.devRef .tc main_arg2) = V (Proc.devRef .tc main_arg2) := by
  after_results_simp

theorem A_arg3 (V : Valuation τ sig (Elt F)) : after ValueP.opsA V (Proc.devRef .tc main_arg3) = V (Proc.devRef .tc main_arg3) := by
  after_results_simp

theorem A_arg4 (V : Valuation τ sig (Elt F)) : after ValueP.opsA V (Proc.devRef .tc main_arg4) = V (Proc.devRef .tc main_arg4) := by
  after_results_simp

theorem A_arg5 (V : Valuation τ sig (Elt F)) : after ValueP.opsA V (Proc.devRef .tc main_arg5) = V (Proc.devRef .tc main_arg5) := by
  after_results_simp

theorem A_arg6 (V : Valuation τ sig (Elt F)) : after ValueP.opsA V (Proc.devRef .tc main_arg6) = V (Proc.devRef .tc main_arg6) := by
  after_results_simp

theorem A_arg7 (V : Valuation τ sig (Elt F)) : after ValueP.opsA V (Proc.devRef .tc main_arg7) = V (Proc.devRef .tc main_arg7) := by
  after_results_simp

theorem A_arg8 (V : Valuation τ sig (Elt F)) : after ValueP.opsA V (Proc.devRef .tc main_arg8) = V (Proc.devRef .tc main_arg8) := by
  after_results_simp

theorem A_arg9 (V : Valuation τ sig (Elt F)) : after ValueP.opsA V (Proc.devRef .tc main_arg9) = V (Proc.devRef .tc main_arg9) := by
  after_results_simp

theorem A_arg10 (V : Valuation τ sig (Elt F)) : after ValueP.opsA V (Proc.devRef .tc main_arg10) = V (Proc.devRef .tc main_arg10) := by
  after_results_simp

theorem A_arg11 (V : Valuation τ sig (Elt F)) : after ValueP.opsA V (Proc.devRef .tc main_arg11) = V (Proc.devRef .tc main_arg11) := by
  after_results_simp

theorem A_arg12 (V : Valuation τ sig (Elt F)) : after ValueP.opsA V (Proc.devRef .tc main_arg12) = V (Proc.devRef .tc main_arg12) := by
  after_results_simp

theorem A_arg13 (V : Valuation τ sig (Elt F)) : after ValueP.opsA V (Proc.devRef .tc main_arg13) = V (Proc.devRef .tc main_arg13) := by
  after_results_simp

theorem A_arg14 (V : Valuation τ sig (Elt F)) : after ValueP.opsA V (Proc.devRef .tc main_arg14) = V (Proc.devRef .tc main_arg14) := by
  after_results_simp

theorem A_arg15 (V : Valuation τ sig (Elt F)) : after ValueP.opsA V (Proc.devRef .tc main_arg15) = V (Proc.devRef .tc main_arg15) := by
  after_results_simp

theorem A_arg16 (V : Valuation τ sig (Elt F)) : after ValueP.opsA V (Proc.devRef .tc main_arg16) = V (Proc.devRef .tc main_arg16) := by
  after_results_simp

theorem A_arg17 (V : Valuation τ sig (Elt F)) : after ValueP.opsA V (Proc.devRef .tc main_arg17) = V (Proc.devRef .tc main_arg17) := by
  after_results_simp

theorem A_arg18 (V : Valuation τ sig (Elt F)) : after ValueP.opsA V (Proc.devRef .tc main_arg18) = V (Proc.devRef .tc main_arg18) := by
  after_results_simp

theorem A_arg19 (V : Valuation τ sig (Elt F)) : after ValueP.opsA V (Proc.devRef .tc main_arg19) = V (Proc.devRef .tc main_arg19) := by
  after_results_simp

theorem A_arg20 (V : Valuation τ sig (Elt F)) : after ValueP.opsA V (Proc.devRef .tc main_arg20) = V (Proc.devRef .tc main_arg20) := by
  after_results_simp

theorem A_arg21 (V : Valuation τ sig (Elt F)) : after ValueP.opsA V (Proc.devRef .tc main_arg21) = V (Proc.devRef .tc main_arg21) := by
  after_results_simp

/-- The second layer's rows, from the first layer's and the arguments. -/
theorem B_v157 (V : Valuation τ sig (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F))
    (h78 : V (Proc.devRef .tc main_v78) = ReadP.val_main_v78 (F := F) x1 x2 x3 x4 x5 x6 x7 x8 x9 x10 x11) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) :
    after ValueP.opsB V (Proc.devRef .tc main_v157) = ReadP.val_main_v157 (F := F) x1 x2 x3 x4 x5 x6 x7 x8 x9 x10 x11 := by
  after_results_simp
  rw [h78, h2, h3, h4, h5, h6, h7, h8, h9, h10, h11]
  rfl

theorem B_arg0 (V : Valuation τ sig (Elt F)) : after ValueP.opsB V (Proc.devRef .tc main_arg0) = V (Proc.devRef .tc main_arg0) := by
  after_results_simp

theorem B_arg12 (V : Valuation τ sig (Elt F)) : after ValueP.opsB V (Proc.devRef .tc main_arg12) = V (Proc.devRef .tc main_arg12) := by
  after_results_simp

theorem B_arg13 (V : Valuation τ sig (Elt F)) : after ValueP.opsB V (Proc.devRef .tc main_arg13) = V (Proc.devRef .tc main_arg13) := by
  after_results_simp

theorem B_arg14 (V : Valuation τ sig (Elt F)) : after ValueP.opsB V (Proc.devRef .tc main_arg14) = V (Proc.devRef .tc main_arg14) := by
  after_results_simp

theorem B_arg15 (V : Valuation τ sig (Elt F)) : after ValueP.opsB V (Proc.devRef .tc main_arg15) = V (Proc.devRef .tc main_arg15) := by
  after_results_simp

theorem B_arg16 (V : Valuation τ sig (Elt F)) : after ValueP.opsB V (Proc.devRef .tc main_arg16) = V (Proc.devRef .tc main_arg16) := by
  after_results_simp

theorem B_arg17 (V : Valuation τ sig (Elt F)) : after ValueP.opsB V (Proc.devRef .tc main_arg17) = V (Proc.devRef .tc main_arg17) := by
  after_results_simp

theorem B_arg18 (V : Valuation τ sig (Elt F)) : after ValueP.opsB V (Proc.devRef .tc main_arg18) = V (Proc.devRef .tc main_arg18) := by
  after_results_simp

theorem B_arg19 (V : Valuation τ sig (Elt F)) : after ValueP.opsB V (Proc.devRef .tc main_arg19) = V (Proc.devRef .tc main_arg19) := by
  after_results_simp

theorem B_arg20 (V : Valuation τ sig (Elt F)) : after ValueP.opsB V (Proc.devRef .tc main_arg20) = V (Proc.devRef .tc main_arg20) := by
  after_results_simp

theorem B_arg21 (V : Valuation τ sig (Elt F)) : after ValueP.opsB V (Proc.devRef .tc main_arg21) = V (Proc.devRef .tc main_arg21) := by
  after_results_simp

/-- The rows gathered at the first index column. -/
theorem C_v168 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F))
    (h157 : V (Proc.devRef .tc main_v157) = ReadP.val_main_v157 (F := F) x1 x2 x3 x4 x5 x6 x7 x8 x9 x10 x11) (h0 : V (Proc.devRef .tc main_arg0) = x0) :
    after ValueP.opsC V (Proc.devRef .tc main_v168) = ReadP.val_main_v168 (F := F) x0 x1 x2 x3 x4 x5 x6 x7 x8 x9 x10 x11 := by
  after_results_simp
  rw [h157, h0]
  rfl

/-- The rows gathered at the second index column. -/
theorem C_v175 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F))
    (h157 : V (Proc.devRef .tc main_v157) = ReadP.val_main_v157 (F := F) x1 x2 x3 x4 x5 x6 x7 x8 x9 x10 x11) (h0 : V (Proc.devRef .tc main_arg0) = x0) :
    after ValueP.opsC V (Proc.devRef .tc main_v175) = ReadP.val_main_v175 (F := F) x0 x1 x2 x3 x4 x5 x6 x7 x8 x9 x10 x11 := by
  after_results_simp
  rw [h157, h0]
  rfl

/-- The first index column. -/
theorem C_v159 (V : Valuation τ sig (Elt F)) (x0 : (⟨S8064x2, .i32⟩ : BufTy).Contents (Elt F))
    (h0 : V (Proc.devRef .tc main_arg0) = x0) :
    after ValueP.opsC V (Proc.devRef .tc main_v159) = ReadP.val_main_v159 (F := F) x0 := by
  after_results_simp
  rw [h0]
  rfl

/-- The second index column. -/
theorem C_v161 (V : Valuation τ sig (Elt F)) (x0 : (⟨S8064x2, .i32⟩ : BufTy).Contents (Elt F))
    (h0 : V (Proc.devRef .tc main_arg0) = x0) :
    after ValueP.opsC V (Proc.devRef .tc main_v161) = ReadP.val_main_v161 (F := F) x0 := by
  after_results_simp
  rw [h0]
  rfl

theorem C_arg12 (V : Valuation τ sig (Elt F)) : after ValueP.opsC V (Proc.devRef .tc main_arg12) = V (Proc.devRef .tc main_arg12) := by
  after_results_simp

theorem C_arg13 (V : Valuation τ sig (Elt F)) : after ValueP.opsC V (Proc.devRef .tc main_arg13) = V (Proc.devRef .tc main_arg13) := by
  after_results_simp

theorem C_arg14 (V : Valuation τ sig (Elt F)) : after ValueP.opsC V (Proc.devRef .tc main_arg14) = V (Proc.devRef .tc main_arg14) := by
  after_results_simp

theorem C_arg15 (V : Valuation τ sig (Elt F)) : after ValueP.opsC V (Proc.devRef .tc main_arg15) = V (Proc.devRef .tc main_arg15) := by
  after_results_simp

theorem C_arg16 (V : Valuation τ sig (Elt F)) : after ValueP.opsC V (Proc.devRef .tc main_arg16) = V (Proc.devRef .tc main_arg16) := by
  after_results_simp

theorem C_arg17 (V : Valuation τ sig (Elt F)) : after ValueP.opsC V (Proc.devRef .tc main_arg17) = V (Proc.devRef .tc main_arg17) := by
  after_results_simp

theorem C_arg18 (V : Valuation τ sig (Elt F)) : after ValueP.opsC V (Proc.devRef .tc main_arg18) = V (Proc.devRef .tc main_arg18) := by
  after_results_simp

theorem C_arg19 (V : Valuation τ sig (Elt F)) : after ValueP.opsC V (Proc.devRef .tc main_arg19) = V (Proc.devRef .tc main_arg19) := by
  after_results_simp

theorem C_arg20 (V : Valuation τ sig (Elt F)) : after ValueP.opsC V (Proc.devRef .tc main_arg20) = V (Proc.devRef .tc main_arg20) := by
  after_results_simp

theorem C_arg21 (V : Valuation τ sig (Elt F)) : after ValueP.opsC V (Proc.devRef .tc main_arg21) = V (Proc.devRef .tc main_arg21) := by
  after_results_simp

/-- The edge network's output, from the two gathers and the weights. -/
theorem D_v207 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S256x256, .f32⟩ : BufTy).Contents (Elt F)) (x13 : (⟨S256, .f32⟩ : BufTy).Contents (Elt F)) (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) (x20 : (⟨S4x256, .f32⟩ : BufTy).Contents (Elt F)) (x21 : (⟨S4, .f32⟩ : BufTy).Contents (Elt F))
    (h168 : V (Proc.devRef .tc main_v168) = ReadP.val_main_v168 (F := F) x0 x1 x2 x3 x4 x5 x6 x7 x8 x9 x10 x11) (h175 : V (Proc.devRef .tc main_v175) = ReadP.val_main_v175 (F := F) x0 x1 x2 x3 x4 x5 x6 x7 x8 x9 x10 x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) (h18 : V (Proc.devRef .tc main_arg18) = x18) (h19 : V (Proc.devRef .tc main_arg19) = x19) (h20 : V (Proc.devRef .tc main_arg20) = x20) (h21 : V (Proc.devRef .tc main_arg21) = x21) :
    after ValueP.opsD V (Proc.devRef .tc main_v207) = ReadP.val_main_v207 (F := F) x0 x1 x2 x3 x4 x5 x6 x7 x8 x9 x10 x11 x12 x13 x14 x15 x16 x17 x18 x19 x20 x21 := by
  after_results_simp
  rw [h168, h175, h12, h13, h14, h15, h16, h17, h18, h19, h20, h21]
  rfl

theorem D_v159 (V : Valuation τ sig (Elt F)) : after ValueP.opsD V (Proc.devRef .tc main_v159) = V (Proc.devRef .tc main_v159) := by
  after_results_simp

theorem D_v161 (V : Valuation τ sig (Elt F)) : after ValueP.opsD V (Proc.devRef .tc main_v161) = V (Proc.devRef .tc main_v161) := by
  after_results_simp

/-- The class probabilities, from the edge network's output. -/
theorem E1_v219 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S256x256, .f32⟩ : BufTy).Contents (Elt F)) (x13 : (⟨S256, .f32⟩ : BufTy).Contents (Elt F)) (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) (x20 : (⟨S4x256, .f32⟩ : BufTy).Contents (Elt F)) (x21 : (⟨S4, .f32⟩ : BufTy).Contents (Elt F))
    (h207 : V (Proc.devRef .tc main_v207) = ReadP.val_main_v207 (F := F) x0 x1 x2 x3 x4 x5 x6 x7 x8 x9 x10 x11 x12 x13 x14 x15 x16 x17 x18 x19 x20 x21) :
    after ValueP.opsE1 V (Proc.devRef .tc main_v219) = ReadP.val_main_v219 (F := F) x0 x1 x2 x3 x4 x5 x6 x7 x8 x9 x10 x11 x12 x13 x14 x15 x16 x17 x18 x19 x20 x21 := by
  after_results_simp
  rw [h207]
  rfl

theorem E1_v159 (V : Valuation τ sig (Elt F)) : after ValueP.opsE1 V (Proc.devRef .tc main_v159) = V (Proc.devRef .tc main_v159) := by
  after_results_simp

theorem E1_v161 (V : Valuation τ sig (Elt F)) : after ValueP.opsE1 V (Proc.devRef .tc main_v161) = V (Proc.devRef .tc main_v161) := by
  after_results_simp

/-- The first marginal sum. -/
theorem E2a_v222 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S256x256, .f32⟩ : BufTy).Contents (Elt F)) (x13 : (⟨S256, .f32⟩ : BufTy).Contents (Elt F)) (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) (x20 : (⟨S4x256, .f32⟩ : BufTy).Contents (Elt F)) (x21 : (⟨S4, .f32⟩ : BufTy).Contents (Elt F))
    (h219 : V (Proc.devRef .tc main_v219) = ReadP.val_main_v219 (F := F) x0 x1 x2 x3 x4 x5 x6 x7 x8 x9 x10 x11 x12 x13 x14 x15 x16 x17 x18 x19 x20 x21) :
    after ValueP.opsE2a V (Proc.devRef .tc main_v222) = ReadP.val_main_v222 (F := F) x0 x1 x2 x3 x4 x5 x6 x7 x8 x9 x10 x11 x12 x13 x14 x15 x16 x17 x18 x19 x20 x21 := by
  after_results_simp
  rw [h219]
  rfl

/-- The second marginal sum. -/
theorem E2a_v225 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S256x256, .f32⟩ : BufTy).Contents (Elt F)) (x13 : (⟨S256, .f32⟩ : BufTy).Contents (Elt F)) (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) (x20 : (⟨S4x256, .f32⟩ : BufTy).Contents (Elt F)) (x21 : (⟨S4, .f32⟩ : BufTy).Contents (Elt F))
    (h219 : V (Proc.devRef .tc main_v219) = ReadP.val_main_v219 (F := F) x0 x1 x2 x3 x4 x5 x6 x7 x8 x9 x10 x11 x12 x13 x14 x15 x16 x17 x18 x19 x20 x21) :
    after ValueP.opsE2a V (Proc.devRef .tc main_v225) = ReadP.val_main_v225 (F := F) x0 x1 x2 x3 x4 x5 x6 x7 x8 x9 x10 x11 x12 x13 x14 x15 x16 x17 x18 x19 x20 x21 := by
  after_results_simp
  rw [h219]
  rfl

theorem E2a_v159 (V : Valuation τ sig (Elt F)) : after ValueP.opsE2a V (Proc.devRef .tc main_v159) = V (Proc.devRef .tc main_v159) := by
  after_results_simp

theorem E2a_v161 (V : Valuation τ sig (Elt F)) : after ValueP.opsE2a V (Proc.devRef .tc main_v161) = V (Proc.devRef .tc main_v161) := by
  after_results_simp

theorem E2a_v219 (V : Valuation τ sig (Elt F)) : after ValueP.opsE2a V (Proc.devRef .tc main_v219) = V (Proc.devRef .tc main_v219) := by
  after_results_simp

/-- The joined index columns. -/
theorem E2b_v226 (V : Valuation τ sig (Elt F)) (x0 : (⟨S8064x2, .i32⟩ : BufTy).Contents (Elt F))
    (h159 : V (Proc.devRef .tc main_v159) = ReadP.val_main_v159 (F := F) x0) (h161 : V (Proc.devRef .tc main_v161) = ReadP.val_main_v161 (F := F) x0) :
    after ValueP.opsE2b V (Proc.devRef .tc main_v226) = ReadP.val_main_v226 (F := F) x0 := by
  after_results_simp
  rw [h159, h161]
  rfl

theorem E2b_v222 (V : Valuation τ sig (Elt F)) : after ValueP.opsE2b V (Proc.devRef .tc main_v222) = V (Proc.devRef .tc main_v222) := by
  after_results_simp

theorem E2b_v225 (V : Valuation τ sig (Elt F)) : after ValueP.opsE2b V (Proc.devRef .tc main_v225) = V (Proc.devRef .tc main_v225) := by
  after_results_simp

theorem E2b_v219 (V : Valuation τ sig (Elt F)) : after ValueP.opsE2b V (Proc.devRef .tc main_v219) = V (Proc.devRef .tc main_v219) := by
  after_results_simp

/-- The node marginals, from the two sums and the joined index columns. -/
theorem E2c_v235 (V : Valuation τ sig (Elt F)) (x0 : (⟨S8064x2, .i32⟩ : BufTy).Contents (Elt F)) (x1 : (⟨S4096x128, .f32⟩ : BufTy).Contents (Elt F)) (x2 : (⟨S2x128x128, .f32⟩ : BufTy).Contents (Elt F)) (x3 : (⟨S2x128, .f32⟩ : BufTy).Contents (Elt F)) (x4 : (⟨S2x128x128, .f32⟩ : BufTy).Contents (Elt F)) (x5 : (⟨S2x128, .f32⟩ : BufTy).Contents (Elt F)) (x6 : (⟨S2x128x128, .f32⟩ : BufTy).Contents (Elt F)) (x7 : (⟨S2x128, .f32⟩ : BufTy).Contents (Elt F)) (x8 : (⟨S2x128x128, .f32⟩ : BufTy).Contents (Elt F)) (x9 : (⟨S2x128, .f32⟩ : BufTy).Contents (Elt F)) (x10 : (⟨S2x128, .f32⟩ : BufTy).Contents (Elt F)) (x11 : (⟨S2x128, .f32⟩ : BufTy).Contents (Elt F)) (x12 : (⟨S256x256, .f32⟩ : BufTy).Contents (Elt F)) (x13 : (⟨S256, .f32⟩ : BufTy).Contents (Elt F)) (x14 : (⟨S256x256, .f32⟩ : BufTy).Contents (Elt F)) (x15 : (⟨S256, .f32⟩ : BufTy).Contents (Elt F)) (x16 : (⟨S256x256, .f32⟩ : BufTy).Contents (Elt F)) (x17 : (⟨S256, .f32⟩ : BufTy).Contents (Elt F)) (x18 : (⟨S256x256, .f32⟩ : BufTy).Contents (Elt F)) (x19 : (⟨S256, .f32⟩ : BufTy).Contents (Elt F)) (x20 : (⟨S4x256, .f32⟩ : BufTy).Contents (Elt F)) (x21 : (⟨S4, .f32⟩ : BufTy).Contents (Elt F))
    (h222 : V (Proc.devRef .tc main_v222) = ReadP.val_main_v222 (F := F) x0 x1 x2 x3 x4 x5 x6 x7 x8 x9 x10 x11 x12 x13 x14 x15 x16 x17 x18 x19 x20 x21) (h225 : V (Proc.devRef .tc main_v225) = ReadP.val_main_v225 (F := F) x0 x1 x2 x3 x4 x5 x6 x7 x8 x9 x10 x11 x12 x13 x14 x15 x16 x17 x18 x19 x20 x21) (h226 : V (Proc.devRef .tc main_v226) = ReadP.val_main_v226 (F := F) x0) :
    after ValueP.opsE2c V (Proc.devRef .tc main_v235) = ReadP.val_main_v235 (F := F) x0 x1 x2 x3 x4 x5 x6 x7 x8 x9 x10 x11 x12 x13 x14 x15 x16 x17 x18 x19 x20 x21 := by
  after_results_simp
  rw [h222, h225, h226]
  rfl

theorem E2c_v219 (V : Valuation τ sig (Elt F)) : after ValueP.opsE2c V (Proc.devRef .tc main_v219) = V (Proc.devRef .tc main_v219) := by
  after_results_simp

/-! ## The whole list -/

/-- The operation list is, by definition, the stretches in order. -/
theorem ops_eq : (ValueP.ops : List (HloOp τ sig (Elt F)))
    = ValueP.opsA ++ (ValueP.opsB ++ (ValueP.opsC ++ (ValueP.opsD ++ (ValueP.opsE1 ++ (ValueP.opsE2a ++ (ValueP.opsE2b ++ ValueP.opsE2c)))))) := rfl

/-- The fold over the operation list is the folds over the stretches, in order. -/
theorem after_ops (V : Valuation τ sig (Elt F)) :
    after (ValueP.ops : List (HloOp τ sig (Elt F))) V = after ValueP.opsE2c (after ValueP.opsE2b (after ValueP.opsE2a (after ValueP.opsE1 (after ValueP.opsD (after ValueP.opsC (after ValueP.opsB (after ValueP.opsA V))))))) := by
  rw [ops_eq, after_append, after_append, after_append, after_append, after_append, after_append, after_append]

/-- The fold of the whole list at the two results: the stage functions of the arguments. -/
theorem bridge (V : Valuation τ sig (Elt F)) :
    after ValueP.ops V (Proc.devRef .tc main_v235) = ReadP.val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21))
      ∧ after ValueP.ops V (Proc.devRef .tc main_v219) = ReadP.val_main_v219 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops]
  have hA := A_v78 V
  have hB := B_v157 (after ValueP.opsA V) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) hA (A_arg2 V) (A_arg3 V) (A_arg4 V) (A_arg5 V) (A_arg6 V) (A_arg7 V) (A_arg8 V) (A_arg9 V) (A_arg10 V) (A_arg11 V)
  have h0 : (after ValueP.opsB (after ValueP.opsA V)) (Proc.devRef .tc main_arg0) = V (Proc.devRef .tc main_arg0) := (B_arg0 _).trans (A_arg0 V)
  have hC168 := C_v168 (after ValueP.opsB (after ValueP.opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) hB h0
  have hC175 := C_v175 (after ValueP.opsB (after ValueP.opsA V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) hB h0
  have hC159 := C_v159 (after ValueP.opsB (after ValueP.opsA V)) (V (Proc.devRef .tc main_arg0)) h0
  have hC161 := C_v161 (after ValueP.opsB (after ValueP.opsA V)) (V (Proc.devRef .tc main_arg0)) h0
  have hD := D_v207 (after ValueP.opsC (after ValueP.opsB (after ValueP.opsA V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) hC168 hC175
    ((C_arg12 _).trans ((B_arg12 _).trans (A_arg12 V)))
    ((C_arg13 _).trans ((B_arg13 _).trans (A_arg13 V)))
    ((C_arg14 _).trans ((B_arg14 _).trans (A_arg14 V)))
    ((C_arg15 _).trans ((B_arg15 _).trans (A_arg15 V)))
    ((C_arg16 _).trans ((B_arg16 _).trans (A_arg16 V)))
    ((C_arg17 _).trans ((B_arg17 _).trans (A_arg17 V)))
    ((C_arg18 _).trans ((B_arg18 _).trans (A_arg18 V)))
    ((C_arg19 _).trans ((B_arg19 _).trans (A_arg19 V)))
    ((C_arg20 _).trans ((B_arg20 _).trans (A_arg20 V)))
    ((C_arg21 _).trans ((B_arg21 _).trans (A_arg21 V)))
  have hD159 := (D_v159 (after ValueP.opsC (after ValueP.opsB (after ValueP.opsA V)))).trans hC159
  have hD161 := (D_v161 (after ValueP.opsC (after ValueP.opsB (after ValueP.opsA V)))).trans hC161
  have hE1 := E1_v219 (after ValueP.opsD (after ValueP.opsC (after ValueP.opsB (after ValueP.opsA V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) hD
  have hE159 := (E1_v159 (after ValueP.opsD (after ValueP.opsC (after ValueP.opsB (after ValueP.opsA V))))).trans hD159
  have hE161 := (E1_v161 (after ValueP.opsD (after ValueP.opsC (after ValueP.opsB (after ValueP.opsA V))))).trans hD161
  have hEa222 := E2a_v222 (after ValueP.opsE1 (after ValueP.opsD (after ValueP.opsC (after ValueP.opsB (after ValueP.opsA V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) hE1
  have hEa225 := E2a_v225 (after ValueP.opsE1 (after ValueP.opsD (after ValueP.opsC (after ValueP.opsB (after ValueP.opsA V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) hE1
  have hEa159 := (E2a_v159 (after ValueP.opsE1 (after ValueP.opsD (after ValueP.opsC (after ValueP.opsB (after ValueP.opsA V)))))).trans hE159
  have hEa161 := (E2a_v161 (after ValueP.opsE1 (after ValueP.opsD (after ValueP.opsC (after ValueP.opsB (after ValueP.opsA V)))))).trans hE161
  have hEa219 := (E2a_v219 (after ValueP.opsE1 (after ValueP.opsD (after ValueP.opsC (after ValueP.opsB (after ValueP.opsA V)))))).trans hE1
  have hEb226 := E2b_v226 (after ValueP.opsE2a (after ValueP.opsE1 (after ValueP.opsD (after ValueP.opsC (after ValueP.opsB (after ValueP.opsA V)))))) (V (Proc.devRef .tc main_arg0)) hEa159 hEa161
  have hEb222 := (E2b_v222 (after ValueP.opsE2a (after ValueP.opsE1 (after ValueP.opsD (after ValueP.opsC (after ValueP.opsB (after ValueP.opsA V))))))).trans hEa222
  have hEb225 := (E2b_v225 (after ValueP.opsE2a (after ValueP.opsE1 (after ValueP.opsD (after ValueP.opsC (after ValueP.opsB (after ValueP.opsA V))))))).trans hEa225
  have hEb219 := (E2b_v219 (after ValueP.opsE2a (after ValueP.opsE1 (after ValueP.opsD (after ValueP.opsC (after ValueP.opsB (after ValueP.opsA V))))))).trans hEa219
  exact ⟨E2c_v235 (after ValueP.opsE2b (after ValueP.opsE2a (after ValueP.opsE1 (after ValueP.opsD (after ValueP.opsC (after ValueP.opsB (after ValueP.opsA V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) hEb222 hEb225 hEb226, (E2c_v219 (after ValueP.opsE2b (after ValueP.opsE2a (after ValueP.opsE1 (after ValueP.opsD (after ValueP.opsC (after ValueP.opsB (after ValueP.opsA V)))))))).trans hEb219⟩

/-! The arguments keep their contents through the whole list. -/

theorem keep_arg0 (V : Valuation τ sig (Elt F)) : after ValueP.ops V (Proc.devRef .tc main_arg0) = V (Proc.devRef .tc main_arg0) := by
  rw [after_ops]
  after_results_simp

theorem keep_arg1 (V : Valuation τ sig (Elt F)) : after ValueP.ops V (Proc.devRef .tc main_arg1) = V (Proc.devRef .tc main_arg1) := by
  rw [after_ops]
  after_results_simp

theorem keep_arg2 (V : Valuation τ sig (Elt F)) : after ValueP.ops V (Proc.devRef .tc main_arg2) = V (Proc.devRef .tc main_arg2) := by
  rw [after_ops]
  after_results_simp

theorem keep_arg3 (V : Valuation τ sig (Elt F)) : after ValueP.ops V (Proc.devRef .tc main_arg3) = V (Proc.devRef .tc main_arg3) := by
  rw [after_ops]
  after_results_simp

theorem keep_arg4 (V : Valuation τ sig (Elt F)) : after ValueP.ops V (Proc.devRef .tc main_arg4) = V (Proc.devRef .tc main_arg4) := by
  rw [after_ops]
  after_results_simp

theorem keep_arg5 (V : Valuation τ sig (Elt F)) : after ValueP.ops V (Proc.devRef .tc main_arg5) = V (Proc.devRef .tc main_arg5) := by
  rw [after_ops]
  after_results_simp

theorem keep_arg6 (V : Valuation τ sig (Elt F)) : after ValueP.ops V (Proc.devRef .tc main_arg6) = V (Proc.devRef .tc main_arg6) := by
  rw [after_ops]
  after_results_simp

theorem keep_arg7 (V : Valuation τ sig (Elt F)) : after ValueP.ops V (Proc.devRef .tc main_arg7) = V (Proc.devRef .tc main_arg7) := by
  rw [after_ops]
  after_results_simp

theorem keep_arg8 (V : Valuation τ sig (Elt F)) : after ValueP.ops V (Proc.devRef .tc main_arg8) = V (Proc.devRef .tc main_arg8) := by
  rw [after_ops]
  after_results_simp

theorem keep_arg9 (V : Valuation τ sig (Elt F)) : after ValueP.ops V (Proc.devRef .tc main_arg9) = V (Proc.devRef .tc main_arg9) := by
  rw [after_ops]
  after_results_simp

theorem keep_arg10 (V : Valuation τ sig (Elt F)) : after ValueP.ops V (Proc.devRef .tc main_arg10) = V (Proc.devRef .tc main_arg10) := by
  rw [after_ops]
  after_results_simp

theorem keep_arg11 (V : Valuation τ sig (Elt F)) : after ValueP.ops V (Proc.devRef .tc main_arg11) = V (Proc.devRef .tc main_arg11) := by
  rw [after_ops]
  after_results_simp

theorem keep_arg12 (V : Valuation τ sig (Elt F)) : after ValueP.ops V (Proc.devRef .tc main_arg12) = V (Proc.devRef .tc main_arg12) := by
  rw [after_ops]
  after_results_simp

theorem keep_arg13 (V : Valuation τ sig (Elt F)) : after ValueP.ops V (Proc.devRef .tc main_arg13) = V (Proc.devRef .tc main_arg13) := by
  rw [after_ops]
  after_results_simp

theorem keep_arg14 (V : Valuation τ sig (Elt F)) : after ValueP.ops V (Proc.devRef .tc main_arg14) = V (Proc.devRef .tc main_arg14) := by
  rw [after_ops]
  after_results_simp

theorem keep_arg15 (V : Valuation τ sig (Elt F)) : after ValueP.ops V (Proc.devRef .tc main_arg15) = V (Proc.devRef .tc main_arg15) := by
  rw [after_ops]
  after_results_simp

theorem keep_arg16 (V : Valuation τ sig (Elt F)) : after ValueP.ops V (Proc.devRef .tc main_arg16) = V (Proc.devRef .tc main_arg16) := by
  rw [after_ops]
  after_results_simp

theorem keep_arg17 (V : Valuation τ sig (Elt F)) : after ValueP.ops V (Proc.devRef .tc main_arg17) = V (Proc.devRef .tc main_arg17) := by
  rw [after_ops]
  after_results_simp

theorem keep_arg18 (V : Valuation τ sig (Elt F)) : after ValueP.ops V (Proc.devRef .tc main_arg18) = V (Proc.devRef .tc main_arg18) := by
  rw [after_ops]
  after_results_simp

theorem keep_arg19 (V : Valuation τ sig (Elt F)) : after ValueP.ops V (Proc.devRef .tc main_arg19) = V (Proc.devRef .tc main_arg19) := by
  rw [after_ops]
  after_results_simp

theorem keep_arg20 (V : Valuation τ sig (Elt F)) : after ValueP.ops V (Proc.devRef .tc main_arg20) = V (Proc.devRef .tc main_arg20) := by
  rw [after_ops]
  after_results_simp

theorem keep_arg21 (V : Valuation τ sig (Elt F)) : after ValueP.ops V (Proc.devRef .tc main_arg21) = V (Proc.devRef .tc main_arg21) := by
  rw [after_ops]
  after_results_simp

/-- On every device, from any memory with zero counters, the reference program terminates with its two results at the
    stage functions of its arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v235) = ReadP.val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_v219) = ReadP.val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c main_v235).trans (bridge (launchContents m c)).1,
      (h c main_v219).trans (bridge (launchContents m c)).2,
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c)),
      (h c main_arg14).trans (keep_arg14 (launchContents m c)),
      (h c main_arg15).trans (keep_arg15 (launchContents m c)),
      (h c main_arg16).trans (keep_arg16 (launchContents m c)),
      (h c main_arg17).trans (keep_arg17 (launchContents m c)),
      (h c main_arg18).trans (keep_arg18 (launchContents m c)),
      (h c main_arg19).trans (keep_arg19 (launchContents m c)),
      (h c main_arg20).trans (keep_arg20 (launchContents m c)),
      (h c main_arg21).trans (keep_arg21 (launchContents m c))⟩)
    (ValueP.run (F := Ideal) m ρ)

end Cert.RefBridge

end
-- ==== Proof.Net.lean ====
/-
  The network's mathematics, row by row, on the extended reals.

  A linear layer is `x Wᵀ + b`; attention over a set of key rows is the row-wise softmax of the scores `q kᵀ`
  (each row shifted by its maximum before the exponential) mixing the value rows; a residual block adds its input
  back; the normalization centres a row, divides by the root of its variance plus a positive constant, then scales
  and shifts.  Every function here acts on ONE row `r` of its first argument, so restricting the rows to a block and
  then applying a function is the function applied to the whole array, read on that block's rows.

  The normalization is written twice: with the reciprocal root as a factor (`normMul`) and with a division by the
  root (`normDiv`).  On the extended reals the two agree whenever the divisor constant and the added constant are
  positive: the variance is a quotient of a sum of squares, hence nonnegative, so the radicand is positive, and for a
  positive radicand `a · y^(-1/2) = a / y^(1/2)` — at `y = ⊤` both sides are `0`.
-/
import Idealize.ShloMosaic.PureOps.Ideal
import Idealize.ShloMosaic.PureOps.Ideal.Laws

noncomputable section

namespace Cert.Net

open Idealize.ShloMosaic

variable {ρ κ ο γ : Type} [Fintype κ] [Fintype γ]

/-- A linear layer `x Wᵀ + b`: entry `(r, o)` is `∑ k, x r k · w o k`, plus `b o`. -/
def affine (x : ρ → κ → EReal) (w : ο → κ → EReal) (b : ο → EReal) (r : ρ) (o : ο) : EReal :=
  (∑ k, x r k * w o k) + b o

/-- The scores `q kᵀ` of query row `r` against key row `c`. -/
def scores (q : ρ → κ → EReal) (k : γ → κ → EReal) (r : ρ) (c : γ) : EReal :=
  ∑ j, q r j * k c j

/-- A row's maximum, as the fold of `max` from `⊥`. -/
def rowMax (s : ρ → γ → EReal) (r : ρ) : EReal :=
  (Finset.univ : Finset γ).fold max ⊥ (s r)

/-- The exponential of a row shifted by its maximum. -/
def expShift (s : ρ → γ → EReal) (r : ρ) (c : γ) : EReal :=
  Ideal.exp (s r c - rowMax s r)

/-- The row-wise softmax. -/
def softmax (s : ρ → γ → EReal) (r : ρ) (c : γ) : EReal :=
  Ideal.div (expShift s r c) (∑ c', expShift s r c')

/-- The weights `p` mixing the value rows: `p v`. -/
def mix (p : ρ → γ → EReal) (v : γ → κ → EReal) (r : ρ) (j : κ) : EReal :=
  ∑ c, p r c * v c j

/-- Attention of the query rows `xq` over the key rows `K` and value rows `V`, projected out and added back to
    the queries: the row before normalization. -/
def preNorm (xq : ρ → κ → EReal) (K V : γ → κ → EReal) (wq wd : κ → κ → EReal) (bq bd : κ → EReal)
    (r : ρ) (j : κ) : EReal :=
  affine (mix (softmax (scores (affine xq wq bq) K)) V) wd bd r j + xq r j

/-- A row's mean, the sum divided by the constant `n`. -/
def mean (n : EReal) (y : ρ → κ → EReal) (r : ρ) : EReal := Ideal.div (∑ j, y r j) n

/-- The centred row. -/
def centered (n : EReal) (y : ρ → κ → EReal) (r : ρ) (j : κ) : EReal := y r j - mean n y r

/-- A row's variance: the sum of the centred squares divided by `n`. -/
def variance (n : EReal) (y : ρ → κ → EReal) (r : ρ) : EReal :=
  Ideal.div (∑ j, centered n y r j * centered n y r j) n

/-- The normalization with the reciprocal root as a factor. -/
def normMul (n e : EReal) (y : ρ → κ → EReal) (g b : κ → EReal) (r : ρ) (j : κ) : EReal :=
  centered n y r j * Ideal.rsqrt (variance n y r + e) * g j + b j

/-- The normalization with a division by the root. -/
def normDiv (n e : EReal) (y : ρ → κ → EReal) (g b : κ → EReal) (r : ρ) (j : κ) : EReal :=
  Ideal.div (centered n y r j) (Ideal.sqrt (variance n y r + e)) * g j + b j

/-- The rectifier `max y 0`. -/
def relu (y : ρ → κ → EReal) (r : ρ) (j : κ) : EReal := max (y r j) 0

/-- A residual block: two rectified linear layers, plus the input. -/
def resBlock (f : ρ → κ → EReal) (w1 w2 : κ → κ → EReal) (b1 b2 : κ → EReal) (r : ρ) (j : κ) : EReal :=
  relu (affine (relu (affine f w1 b1)) w2 b2) r j + f r j

/-- Two residual blocks and the final linear layer. -/
def edgeMlp (f : ρ → κ → EReal) (w11 w12 w21 w22 : κ → κ → EReal) (b11 b12 b21 b22 : κ → EReal)
    (wf : ο → κ → EReal) (bf : ο → EReal) : ρ → ο → EReal :=
  affine (resBlock (resBlock f w11 w12 b11 b12) w21 w22 b21 b22) wf bf

/-! ## The two normalizations agree -/

theorem mul_self_nonneg' (x : EReal) : 0 ≤ x * x := by
  rcases le_total 0 x with h | h
  · exact mul_nonneg h h
  · have h' : 0 ≤ -x := by simpa using EReal.neg_le_neg_iff.mpr h
    have := mul_nonneg h' h'
    rwa [neg_mul_neg] at this

theorem div_nonneg' {s n : EReal} (hs : 0 ≤ s) (hn : 0 < n) : 0 ≤ Ideal.div s n := by
  unfold Ideal.div
  rw [if_neg hn.ne']
  exact mul_nonneg hs (EReal.inv_nonneg_of_nonneg hn.le)

theorem variance_nonneg {n : EReal} (hn : 0 < n) (y : ρ → κ → EReal) (r : ρ) : 0 ≤ variance n y r :=
  div_nonneg' (Finset.sum_nonneg fun j _ => mul_self_nonneg' _) hn

/-- For a positive radicand, multiplying by the reciprocal root is dividing by the root. -/
theorem mul_rsqrt_eq_div_sqrt (a y : EReal) (hy : 0 < y) : a * Ideal.rsqrt y = Ideal.div a (Ideal.sqrt y) := by
  induction y using EReal.rec with
  | bot => exact absurd hy (by simp)
  | top =>
    have h1 : Ideal.rsqrt ⊤ = 0 := rfl
    have h2 : Ideal.sqrt ⊤ = ⊤ := rfl
    have h0 : (⊤ : EReal) ≠ 0 := by simp
    rw [h1, h2]
    unfold Ideal.div
    rw [if_neg h0, EReal.inv_top, mul_zero]
  | coe t =>
    have ht : 0 < t := by exact_mod_cast hy
    have hs : 0 < Real.sqrt t := Real.sqrt_pos.mpr ht
    have hne : ((Real.sqrt t : ℝ) : EReal) ≠ 0 := by exact_mod_cast hs.ne'
    have h1 : Ideal.rsqrt (t : EReal)
        = if t < 0 then ⊥ else if t = 0 then ⊤ else (((Real.sqrt t)⁻¹ : ℝ) : EReal) := rfl
    have h2 : Ideal.sqrt (t : EReal) = if t < 0 then ⊥ else ((Real.sqrt t : ℝ) : EReal) := rfl
    simp only [h1, h2, if_neg (not_lt.mpr ht.le), if_neg ht.ne']
    unfold Ideal.div
    rw [if_neg hne, EReal.coe_inv]

theorem normMul_eq_normDiv {n e : EReal} (hn : 0 < n) (he : 0 < e) (y : ρ → κ → EReal) (g b : κ → EReal) :
    normMul n e y g b = normDiv n e y g b := by
  funext r j
  unfold normMul normDiv
  rw [mul_rsqrt_eq_div_sqrt _ _ (he.trans_le (le_add_of_nonneg_left (variance_nonneg hn y r)))]

end Cert.Net

end
-- ==== Proof.Reads.lean ====
/-
  Reading a block's operations at an index, on the extended reals.

  A column `[a]` seen as `[a, 1]` and a column `[a, 1]` broadcast along the rows of `[a, b]` read the column's entry of
  the row; a sum or a maximum along the second axis of an `[a, b]` block, read at row `p`, is the sum, or the fold of
  `max` from the accumulator's value, over the row's entries; a matrix product into a zero accumulator, read at `(p, q)`,
  is `∑ j, x (p, j) · w (j, q)` — the contraction index of a product with one contracted axis is that axis's coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Reads

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pattern of `-∞` is the bottom of the extended reals. -/
theorem ofBits_neg_inf : Ideal.ofBits .f32 0xFF800000#32 = ⊥ := by
  simp [Ideal.ofBits, Ideal.ieee]

/-- The pattern of `128.0` is the real `128`, … -/
theorem ofBits_128 : Ideal.ofBits .f32 0x43000000#32 = ((128 : ℝ) : EReal) := by
  simp [Ideal.ofBits, Ideal.ieee, -EReal.coe_mul]; norm_num

/-- … hence positive. -/
theorem ofBits_128_pos : (0 : EReal) < Ideal.ofBits .f32 0x43000000#32 := by
  rw [ofBits_128]; exact_mod_cast (by norm_num : (0 : ℝ) < 128)

/-- The pattern nearest `1e-5` denotes a positive real. -/
theorem ofBits_eps_pos : (0 : EReal) < Ideal.ofBits .f32 0x3727C5AC#32 := by
  simp [Ideal.ofBits, Ideal.ieee, -EReal.coe_mul]

/-- A sum along the second axis, read at row `p`. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ c : Fin b, src (ix2 p c) := by
  rw [Ideal.multiReduction_add_single]
  refine Finset.sum_congr rfl fun c _ => congrArg src (funext fun ax => Fin.ext ?_)
  match ax with
  | ⟨0, _⟩ => rfl
  | ⟨1, _⟩ => rfl

/-- A maximum along the second axis from the `-∞` pattern, read at row `p`: the fold of `max` from `⊥`. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun c => src (ix2 p c)) := by
  rw [Ideal.multiReduction_maximumf_single]
  show (Finset.univ : Finset (Fin b)).fold max (Ideal.ofBits .f32 0xFF800000#32) _ = _
  rw [ofBits_neg_inf]
  have e : (src ∘ h.lift (ix1 p)) = fun c => src (ix2 p c) :=
    funext fun c => congrArg src (funext fun ax => Fin.ext (by
      match ax with
      | ⟨0, _⟩ => rfl
      | ⟨1, _⟩ => rfl))
  rw [e]

/-- A matrix product into a zero accumulator, read at `(p, q)`: `∑ j, x (p, j) · w (j, q)`. The four hypotheses say
    which coordinates the product's operand indices take (rows from the result's row, columns from its column, the
    contracted coordinate from the contraction index). -/
theorem matmul_zero_apply {a k o : ℕ} {φ₁ φ₂ : FTy}
    (d : DotDims ⟨2, ![a, k]⟩ ⟨2, ![k, o]⟩ ⟨2, ![a, o]⟩)
    (hr : d.contr.rank = 1) (hs : d.contr.size ⟨0, by omega⟩ = k)
    (hl0 : ∀ i q, (d.lhsIdx i q ⟨0, Nat.zero_lt_two⟩).val = (i ⟨0, Nat.zero_lt_two⟩).val)
    (hl1 : ∀ i q, (d.lhsIdx i q ⟨1, Nat.one_lt_two⟩).val = (q ⟨0, by omega⟩).val)
    (hr0 : ∀ i q, (d.rhsIdx i q ⟨0, Nat.zero_lt_two⟩).val = (q ⟨0, by omega⟩).val)
    (hr1 : ∀ i q, (d.rhsIdx i q ⟨1, Nat.one_lt_two⟩).val = (i ⟨1, Nat.one_lt_two⟩).val)
    (prec : Option ContractPrecision)
    (x : FVec Ideal ⟨2, ![a, k]⟩ φ₁) (w : FVec Ideal ⟨2, ![k, o]⟩ φ₂) (p : Fin a) (q : Fin o) :
    matmul d prec x w (constant ⟨2, ![a, o]⟩ .f32 0x00000000#32) (ix2 p q) = ∑ j : Fin k, x (ix2 p j) * w (ix2 j q) := by
  simp only [matmul]
  rw [Ideal.matmul_constant_zero_apply, ← Equiv.sum_comp (contrEquiv1 d k hr hs).symm]
  refine Finset.sum_congr rfl fun j _ => ?_
  have hk := contrEquiv1_symm_val d k hr hs j
  have el : d.lhsIdx (ix2 p q) ((contrEquiv1 d k hr hs).symm j) = ix2 p j := funext fun ax => Fin.ext (by
    match ax with
    | ⟨0, _⟩ => exact hl0 _ _
    | ⟨1, _⟩ => exact (hl1 _ _).trans hk)
  have er : d.rhsIdx (ix2 p q) ((contrEquiv1 d k hr hs).symm j) = ix2 j q := funext fun ax => Fin.ext (by
    match ax with
    | ⟨0, _⟩ => exact (hr0 _ _).trans hk
    | ⟨1, _⟩ => exact hr1 _ _)
  rw [el, er]

end Cert.Reads

end
-- ==== Proof.KvBody0.lean ====
/-
  The key and value projections of every row, read at an index.

  All rows pass through two linear layers.  The keys are stored transposed, so the stored entry `(j, c)` is key row
  `c` at feature `j`; the values are stored as they are.  Narrowing to a shorter float format is the identity on
  the extended reals.
-/
import proofs.«173113_j3470333575730_2_alg».proof.Proof.Gen.KernelIdeal.Skeleton
import proofs.«173113_j3470333575730_2_alg».proof.Proof.Net
import proofs.«173113_j3470333575730_2_alg».proof.Proof.Reads

noncomputable section

namespace Cert.KvBody0

open Idealize.ShloMosaic Idealize.ShloMosaic.ValueIdx Cert.KernelIdeal Cert.KernelIdeal.Gen Cert.Reads

theorem rows_apply {φ₁ φ₂ : FTy} (x : FVec Ideal S4096x128 φ₁) (w : FVec Ideal S128x128 φ₂) (p : Fin 4096) (q : Fin 128) :
    matmul dot_S4096x128_S128x128_S4096x128_1_0_0_1_n_n none x w (constant S4096x128 .f32 0x00000000#32) (ix2 p q) = ∑ j : Fin 128, x (ix2 p j) * w (ix2 j q) :=
  matmul_zero_apply dot_S4096x128_S128x128_S4096x128_1_0_0_1_n_n rfl rfl
    (fun i q => by
      unfold DotDims.lhsIdx
      rw [dif_neg (show ¬(⟨0, Nat.zero_lt_two⟩ : Fin S4096x128.rank) ∈ dot_S4096x128_S128x128_S4096x128_1_0_0_1_n_n.lhsBatch by decide), dif_pos (show (⟨0, Nat.zero_lt_two⟩ : Fin S4096x128.rank) ∈ dot_S4096x128_S128x128_S4096x128_1_0_0_1_n_n.lhsNonContracting by decide)]
      rfl)
    (fun i q => dot_S4096x128_S128x128_S4096x128_1_0_0_1_n_n.lhsIdx_val_of_single rfl i q)
    (fun i q => dot_S4096x128_S128x128_S4096x128_1_0_0_1_n_n.rhsIdx_val_of_single rfl i q)
    (fun i q => by
      unfold DotDims.rhsIdx
      rw [dif_neg (show ¬(⟨1, Nat.one_lt_two⟩ : Fin S128x128.rank) ∈ dot_S4096x128_S128x128_S4096x128_1_0_0_1_n_n.rhsBatch by decide), dif_pos (show (⟨1, Nat.one_lt_two⟩ : Fin S128x128.rank) ∈ dot_S4096x128_S128x128_S4096x128_1_0_0_1_n_n.rhsNonContracting by decide)]
      rfl)
    none x w p q

variable (x : FVec Ideal S4096x128 .f32) (w : FVec Ideal S128x128 .f32) (b : FVec Ideal S1x128 .f32)

/-- All rows, the transposed weight read as `w o k`, the bias row. -/
def X : Fin 4096 → Fin 128 → EReal := fun c k => x (ix2 c k)
def W : Fin 128 → Fin 128 → EReal := fun o k => w (ix2 k o)
def Bi : Fin 128 → EReal := fun o => b (ix2 (0 : Fin 1) o)

/-- One linear layer over all rows. -/
def linB : FVec Ideal S4096x128 .f32 :=
  addf (matmul dot_S4096x128_S128x128_S4096x128_1_0_0_1_n_n none (truncf .bf16 x bitsLt_bf16_f32) (truncf .bf16 w bitsLt_bf16_f32)
    (constant (F := Ideal) S4096x128 .f32 0x00000000#32)) (broadcastTo S4096x128 b broadcasts_S1x128_S4096x128)

theorem linB_apply (c : Fin 4096) (o : Fin 128) : linB x w b (ix2 c o) = Net.affine (X x) (W w) (Bi b) c o := by
  unfold linB
  show matmul (F := Ideal) _ none _ _ _ (ix2 c o) + broadcastTo S4096x128 b broadcasts_S1x128_S4096x128 (ix2 c o) = _
  rw [rows_apply, broadcastTo_1b_ab_apply]
  rfl

/-- The stored keys are the layer's result transposed. -/
theorem keys_eq : k0_pay2 (F := Ideal) x w b
    = truncf .bf16 (transpose S128x4096 [1, 0] (linB x w b) transposes_S4096x128_p1_0_S128x4096) bitsLt_bf16_f32 := by
  unfold k0_pay2 k0_pay1 linB
  simp only [shapeCast_self]

/-- The stored values are the layer's result. -/
theorem values_eq : k0_pay3 (F := Ideal) x w b = truncf .bf16 (linB x w b) bitsLt_bf16_f32 := by
  unfold k0_pay3 k0_pay1 linB
  simp only [shapeCast_self]

/-- THE STORED KEYS at `(j, c)`: key row `c` at feature `j`. -/
theorem keys_apply (j : Fin 128) (c : Fin 4096) :
    k0_pay2 (F := Ideal) x w b (ix2 j c) = Net.affine (X x) (W w) (Bi b) c j := by
  rw [keys_eq]
  show transpose S128x4096 [1, 0] (linB x w b) transposes_S4096x128_p1_0_S128x4096 (ix2 j c) = _
  rw [transpose_ix2_apply, linB_apply]

/-- THE STORED VALUES at `(c, j)`. -/
theorem values_apply (c : Fin 4096) (j : Fin 128) :
    k0_pay3 (F := Ideal) x w b (ix2 c j) = Net.affine (X x) (W w) (Bi b) c j := by
  rw [values_eq]
  show linB x w b (ix2 c j) = _
  rw [linB_apply]

end Cert.KvBody0

end
-- ==== Proof.KvArray0.lean ====
/-
  The key and value arrays of a layer.

  One grid point reads the layer's input and the two transposed weights and bias rows whole, and writes the keys
  (transposed: entry `(j, c)` is key row `c` at feature `j`) and the values whole; so each array ends holding its
  linear layer of the input, index by index.
-/
import proofs.«173113_j3470333575730_2_alg».proof.Proof.Gen.KernelIdeal.Frame
import proofs.«173113_j3470333575730_2_alg».proof.Proof.KvBody0
import Idealize.ShloMosaic.Lib.Pipeline.Value

set_option maxRecDepth 16384

noncomputable section

namespace Cert.KvArray0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The keys, transposed. -/
def keys (c : Dev nD) : S128x4096.Idx → EReal := fun i =>
  Net.affine (KvBody0.X (V c main_arg1)) (KvBody0.W (V c main_v5)) (KvBody0.Bi (V c main_v28)) (i 1) (i 0)
/-- The values. -/
def values (c : Dev nD) : S4096x128.Idx → EReal := fun i =>
  Net.affine (KvBody0.X (V c main_arg1)) (KvBody0.W (V c main_v8)) (KvBody0.Bi (V c main_v29)) (i 0) (i 1)

/-! ## The printed index maps, decided over the grid -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! ## Each window's block -/

/-- Window 0's block is its whole array. -/
theorem blk0 (c : Dev nD) (t : Fin cfg0.N) : (iblk0 V c 0 t : S4096x128.Idx → EReal) = V c main_arg1 := by
  obtain ⟨e0, e1⟩ := idx0 t
  funext j
  unfold iblk0
  rw [View.read_apply]
  show V c main_arg1 (((cfg0.win 0).blk t).view.emb j) = V c main_arg1 j
  refine congrArg (V c main_arg1) (funext fun a => Fin.ext ?_)
  match a with
  | ⟨0, _⟩ => show win0_0.index t (0 : Fin 2) * 4096 + 1 * (j 0).val = (j 0).val; rw [e0]; omega
  | ⟨1, _⟩ => show win0_0.index t (1 : Fin 2) * 128 + 1 * (j 1).val = (j 1).val; rw [e1]; omega
/-- Window 1's block is its whole array. -/
theorem blk1 (c : Dev nD) (t : Fin cfg0.N) : (iblk0 V c 1 t : S128x128.Idx → EReal) = V c main_v5 := by
  obtain ⟨e0, e1⟩ := idx1 t
  funext j
  unfold iblk0
  rw [View.read_apply]
  show V c main_v5 (((cfg0.win 1).blk t).view.emb j) = V c main_v5 j
  refine congrArg (V c main_v5) (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega
/-- Window 2's block is its whole array. -/
theorem blk2 (c : Dev nD) (t : Fin cfg0.N) : (iblk0 V c 2 t : S1x128.Idx → EReal) = V c main_v28 := by
  obtain ⟨e0, e1⟩ := idx2 t
  funext j
  unfold iblk0
  rw [View.read_apply]
  show V c main_v28 (((cfg0.win 2).blk t).view.emb j) = V c main_v28 j
  refine congrArg (V c main_v28) (funext fun a => Fin.ext ?_)
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega
/-- Window 3's block is its whole array. -/
theorem blk3 (c : Dev nD) (t : Fin cfg0.N) : (iblk0 V c 3 t : S128x128.Idx → EReal) = V c main_v8 := by
  obtain ⟨e0, e1⟩ := idx3 t
  funext j
  unfold iblk0
  rw [View.read_apply]
  show V c main_v8 (((cfg0.win 3).blk t).view.emb j) = V c main_v8 j
  refine congrArg (V c main_v8) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega
/-- Window 4's block is its whole array. -/
theorem blk4 (c : Dev nD) (t : Fin cfg0.N) : (iblk0 V c 4 t : S1x128.Idx → EReal) = V c main_v29 := by
  obtain ⟨e0, e1⟩ := idx4 t
  funext j
  unfold iblk0
  rw [View.read_apply]
  show V c main_v29 (((cfg0.win 4).blk t).view.emb j) = V c main_v29 j
  refine congrArg (V c main_v29) (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-! ## The two outputs -/

/-- WHAT THE POINT WRITES BACK to window 5 is `keys`, whole. -/
theorem flushed5_eq (c : Dev nD) (t : Fin cfg0.N) :
    (dat0 V c).flushed 5 t = ((cfg0.win 5).blk t).view.read (Elt Ideal) (keys V c) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x128) hz, View.ld_unit_zero (S := S1x128) hz]
  obtain ⟨e0, e1⟩ := idx5 t
  funext j
  obtain ⟨p, q, rfl⟩ : ∃ (p : Fin 128) (q : Fin 4096), j = ix2 p q := ⟨j 0, j 1, eq_ix2 j⟩
  have he : ((cfg0.win 5).blk t).view.emb (ix2 p q) = ix2 p q := funext fun a => Fin.ext (by
    match a with
    | ⟨0, _⟩ => show win0_5.index t (0 : Fin 2) * 128 + 1 * p.val = p.val; rw [e0]; omega
    | ⟨1, _⟩ => show win0_5.index t (1 : Fin 2) * 4096 + 1 * q.val = q.val; rw [e1]; omega)
  rw [View.read_apply, he]
  refine (KvBody0.keys_apply (iblk0 V c 0 t) (iblk0 V c 1 t) (iblk0 V c 2 t) p q).trans ?_
  rw [blk0 V c t, blk1 V c t, blk2 V c t]
  rfl

theorem cover5 (i : S128x4096.Idx) : ∃ t : Fin cfg0.N, (cfg0.win 5).flush t = true ∧ i ∈ ((cfg0.win 5).blk t).view.set := by
  have hi0 : (i 0).val < 128 := (i 0).isLt
  have hi1 : (i 1).val < 4096 := (i 1).isLt
  refine ⟨⟨0, Nat.one_pos⟩, flush0_5 _, ?_⟩
  obtain ⟨e0, e1⟩ := idx5 ⟨0, Nat.one_pos⟩
  show i ∈ ((View.whole main_v30_0).slice (win0_5.rect ⟨0, Nat.one_pos⟩)).set
  rw [View.set_slice_whole, Rect.mem_set_unit]
  intro a
  match a with
  | ⟨0, _⟩ =>
    show win0_5.index ⟨0, Nat.one_pos⟩ (0 : Fin 2) * 128 ≤ (i 0).val ∧ (i 0).val < win0_5.index ⟨0, Nat.one_pos⟩ (0 : Fin 2) * 128 + 128
    rw [e0]; omega
  | ⟨1, _⟩ =>
    show win0_5.index ⟨0, Nat.one_pos⟩ (1 : Fin 2) * 4096 ≤ (i 1).val ∧ (i 1).val < win0_5.index ⟨0, Nat.one_pos⟩ (1 : Fin 2) * 4096 + 4096
    rw [e1]; omega

/-- THE ARRAY after the region. -/
theorem final5 (c : Dev nD) : (dat0 V c).arrAt 5 cfg0.N = keys V c :=
  (dat0 V c).arrAt_eq_of_cover 5 (keys V c) (fun t _ => flushed5_eq V c t) (cover5)

/-- WHAT THE POINT WRITES BACK to window 6 is `values`, whole. -/
theorem flushed6_eq (c : Dev nD) (t : Fin cfg0.N) :
    (dat0 V c).flushed 6 t = ((cfg0.win 6).blk t).view.read (Elt Ideal) (values V c) := by
  show (cfg0.win 6).cut (grid0.coords t) ((dat0 V c).after 6 t) = _
  rw [after0_6]
  unfold out0_6
  rw [View.canon_unit_zero hz]
  simp only [View.ld_unit_zero (S := S4096x128) hz, View.ld_unit_zero (S := S128x128) hz, View.ld_unit_zero (S := S1x128) hz]
  obtain ⟨e0, e1⟩ := idx6 t
  funext j
  obtain ⟨p, q, rfl⟩ : ∃ (p : Fin 4096) (q : Fin 128), j = ix2 p q := ⟨j 0, j 1, eq_ix2 j⟩
  have he : ((cfg0.win 6).blk t).view.emb (ix2 p q) = ix2 p q := funext fun a => Fin.ext (by
    match a with
    | ⟨0, _⟩ => show win0_6.index t (0 : Fin 2) * 4096 + 1 * p.val = p.val; rw [e0]; omega
    | ⟨1, _⟩ => show win0_6.index t (1 : Fin 2) * 128 + 1 * q.val = q.val; rw [e1]; omega)
  rw [View.read_apply, he]
  refine (KvBody0.values_apply (iblk0 V c 0 t) (iblk0 V c 3 t) (iblk0 V c 4 t) p q).trans ?_
  rw [blk0 V c t, blk3 V c t, blk4 V c t]
  rfl

theorem cover6 (i : S4096x128.Idx) : ∃ t : Fin cfg0.N, (cfg0.win 6).flush t = true ∧ i ∈ ((cfg0.win 6).blk t).view.set := by
  have hi0 : (i 0).val < 4096 := (i 0).isLt
  have hi1 : (i 1).val < 128 := (i 1).isLt
  refine ⟨⟨0, Nat.one_pos⟩, flush0_6 _, ?_⟩
  obtain ⟨e0, e1⟩ := idx6 ⟨0, Nat.one_pos⟩
  show i ∈ ((View.whole main_v30_1).slice (win0_6.rect ⟨0, Nat.one_pos⟩)).set
  rw [View.set_slice_whole, Rect.mem_set_unit]
  intro a
  match a with
  | ⟨0, _⟩ =>
    show win0_6.index ⟨0, Nat.one_pos⟩ (0 : Fin 2) * 4096 ≤ (i 0).val ∧ (i 0).val < win0_6.index ⟨0, Nat.one_pos⟩ (0 : Fin 2) * 4096 + 4096
    rw [e0]; omega
  | ⟨1, _⟩ =>
    show win0_6.index ⟨0, Nat.one_pos⟩ (1 : Fin 2) * 128 ≤ (i 1).val ∧ (i 1).val < win0_6.index ⟨0, Nat.one_pos⟩ (1 : Fin 2) * 128 + 128
    rw [e1]; omega

/-- THE ARRAY after the region. -/
theorem final6 (c : Dev nD) : (dat0 V c).arrAt 6 cfg0.N = values V c :=
  (dat0 V c).arrAt_eq_of_cover 6 (values V c) (fun t _ => flushed6_eq V c t) (cover6)

end Cert.KvArray0

end
-- ==== Proof.AttnBody1.lean ====
/-
  One block of query rows through an attention layer, read at an index.

  The block's rows are projected to queries, scored against every key row (the keys arrive transposed), each row of
  scores is shifted by its maximum, exponentiated and divided by its sum, the weights mix the value rows, the result
  is projected out and added to the block's rows; then each row is centred, scaled by the reciprocal root of its
  variance plus a constant, and scaled and shifted by the two parameter rows.  Stage by stage the block-level
  operations, read at `(p, j)`, are the row-wise functions of `Cert.Net` of the block's rows: narrowing a float format
  is the identity on the extended reals, a product into a zero accumulator is a plain sum, and a broadcast of a row
  or column reads that row's or column's entry.
-/
import proofs.«173113_j3470333575730_2_alg».proof.Proof.Gen.KernelIdeal.Skeleton
import proofs.«173113_j3470333575730_2_alg».proof.Proof.Net
import proofs.«173113_j3470333575730_2_alg».proof.Proof.Reads

noncomputable section

namespace Cert.AttnBody1

open Idealize.ShloMosaic Idealize.ShloMosaic.ValueIdx Cert.KernelIdeal Cert.KernelIdeal.Gen Cert.Reads

/-- The normalization's divisor, the pattern of `128.0`. -/
abbrev n128 : EReal := Ideal.ofBits .f32 0x43000000#32
/-- The constant added to the variance, the pattern nearest `1e-5`. -/
abbrev eps : EReal := Ideal.ofBits .f32 0x3727C5AC#32

theorem proj_apply {φ₁ φ₂ : FTy} (x : FVec Ideal S512x128 φ₁) (w : FVec Ideal S128x128 φ₂) (p : Fin 512) (q : Fin 128) :
    matmul dot_S512x128_S128x128_S512x128_1_0_0_1_n_n none x w (constant S512x128 .f32 0x00000000#32) (ix2 p q) = ∑ j : Fin 128, x (ix2 p j) * w (ix2 j q) :=
  matmul_zero_apply dot_S512x128_S128x128_S512x128_1_0_0_1_n_n rfl rfl
    (fun i q => by
      unfold DotDims.lhsIdx
      rw [dif_neg (show ¬(⟨0, Nat.zero_lt_two⟩ : Fin S512x128.rank) ∈ dot_S512x128_S128x128_S512x128_1_0_0_1_n_n.lhsBatch by decide), dif_pos (show (⟨0, Nat.zero_lt_two⟩ : Fin S512x128.rank) ∈ dot_S512x128_S128x128_S512x128_1_0_0_1_n_n.lhsNonContracting by decide)]
      rfl)
    (fun i q => dot_S512x128_S128x128_S512x128_1_0_0_1_n_n.lhsIdx_val_of_single rfl i q)
    (fun i q => dot_S512x128_S128x128_S512x128_1_0_0_1_n_n.rhsIdx_val_of_single rfl i q)
    (fun i q => by
      unfold DotDims.rhsIdx
      rw [dif_neg (show ¬(⟨1, Nat.one_lt_two⟩ : Fin S128x128.rank) ∈ dot_S512x128_S128x128_S512x128_1_0_0_1_n_n.rhsBatch by decide), dif_pos (show (⟨1, Nat.one_lt_two⟩ : Fin S128x128.rank) ∈ dot_S512x128_S128x128_S512x128_1_0_0_1_n_n.rhsNonContracting by decide)]
      rfl)
    none x w p q

theorem score_apply {φ₁ φ₂ : FTy} (x : FVec Ideal S512x128 φ₁) (w : FVec Ideal S128x4096 φ₂) (p : Fin 512) (q : Fin 4096) :
    matmul dot_S512x128_S128x4096_S512x4096_1_0_0_1_n_n none x w (constant S512x4096 .f32 0x00000000#32) (ix2 p q) = ∑ j : Fin 128, x (ix2 p j) * w (ix2 j q) :=
  matmul_zero_apply dot_S512x128_S128x4096_S512x4096_1_0_0_1_n_n rfl rfl
    (fun i q => by
      unfold DotDims.lhsIdx
      rw [dif_neg (show ¬(⟨0, Nat.zero_lt_two⟩ : Fin S512x128.rank) ∈ dot_S512x128_S128x4096_S512x4096_1_0_0_1_n_n.lhsBatch by decide), dif_pos (show (⟨0, Nat.zero_lt_two⟩ : Fin S512x128.rank) ∈ dot_S512x128_S128x4096_S512x4096_1_0_0_1_n_n.lhsNonContracting by decide)]
      rfl)
    (fun i q => dot_S512x128_S128x4096_S512x4096_1_0_0_1_n_n.lhsIdx_val_of_single rfl i q)
    (fun i q => dot_S512x128_S128x4096_S512x4096_1_0_0_1_n_n.rhsIdx_val_of_single rfl i q)
    (fun i q => by
      unfold DotDims.rhsIdx
      rw [dif_neg (show ¬(⟨1, Nat.one_lt_two⟩ : Fin S128x4096.rank) ∈ dot_S512x128_S128x4096_S512x4096_1_0_0_1_n_n.rhsBatch by decide), dif_pos (show (⟨1, Nat.one_lt_two⟩ : Fin S128x4096.rank) ∈ dot_S512x128_S128x4096_S512x4096_1_0_0_1_n_n.rhsNonContracting by decide)]
      rfl)
    none x w p q

theorem mixv_apply {φ₁ φ₂ : FTy} (x : FVec Ideal S512x4096 φ₁) (w : FVec Ideal S4096x128 φ₂) (p : Fin 512) (q : Fin 128) :
    matmul dot_S512x4096_S4096x128_S512x128_1_0_0_1_n_n none x w (constant S512x128 .f32 0x00000000#32) (ix2 p q) = ∑ j : Fin 4096, x (ix2 p j) * w (ix2 j q) :=
  matmul_zero_apply dot_S512x4096_S4096x128_S512x128_1_0_0_1_n_n rfl rfl
    (fun i q => by
      unfold DotDims.lhsIdx
      rw [dif_neg (show ¬(⟨0, Nat.zero_lt_two⟩ : Fin S512x4096.rank) ∈ dot_S512x4096_S4096x128_S512x128_1_0_0_1_n_n.lhsBatch by decide), dif_pos (show (⟨0, Nat.zero_lt_two⟩ : Fin S512x4096.rank) ∈ dot_S512x4096_S4096x128_S512x128_1_0_0_1_n_n.lhsNonContracting by decide)]
      rfl)
    (fun i q => dot_S512x4096_S4096x128_S512x128_1_0_0_1_n_n.lhsIdx_val_of_single rfl i q)
    (fun i q => dot_S512x4096_S4096x128_S512x128_1_0_0_1_n_n.rhsIdx_val_of_single rfl i q)
    (fun i q => by
      unfold DotDims.rhsIdx
      rw [dif_neg (show ¬(⟨1, Nat.one_lt_two⟩ : Fin S4096x128.rank) ∈ dot_S512x4096_S4096x128_S512x128_1_0_0_1_n_n.rhsBatch by decide), dif_pos (show (⟨1, Nat.one_lt_two⟩ : Fin S4096x128.rank) ∈ dot_S512x4096_S4096x128_S512x128_1_0_0_1_n_n.rhsNonContracting by decide)]
      rfl)
    none x w p q

section Stages

variable (x0 : FVec Ideal S512x128 .f32) (wq : FVec Ideal S128x128 .f32) (bq : FVec Ideal S1x128 .f32)
  (kt : FVec Ideal S128x4096 .bf16) (vv : FVec Ideal S4096x128 .bf16) (wd : FVec Ideal S128x128 .f32) (bd : FVec Ideal S1x128 .f32)

/-- The block's rows, the transposed weights read as `w o k`, the bias rows, the keys (transposed back) and values. -/
def X : Fin 512 → Fin 128 → EReal := fun p k => x0 (ix2 p k)
def Wq : Fin 128 → Fin 128 → EReal := fun o k => wq (ix2 k o)
def Bq : Fin 128 → EReal := fun o => bq (ix2 (0 : Fin 1) o)
def Kk : Fin 4096 → Fin 128 → EReal := fun c j => kt (ix2 j c)
def Vv : Fin 4096 → Fin 128 → EReal := fun c j => vv (ix2 c j)
def Wd : Fin 128 → Fin 128 → EReal := fun o k => wd (ix2 k o)
def Bd : Fin 128 → EReal := fun o => bd (ix2 (0 : Fin 1) o)

/-- The queries of the block. -/
def qB : FVec Ideal S512x128 .f32 :=
  addf (matmul dot_S512x128_S128x128_S512x128_1_0_0_1_n_n none (truncf .bf16 x0 bitsLt_bf16_f32) (truncf .bf16 wq bitsLt_bf16_f32)
    (constant (F := Ideal) S512x128 .f32 0x00000000#32)) (broadcastTo S512x128 bq broadcasts_S1x128_S512x128)
/-- The scores against every key. -/
def sB : FVec Ideal S512x4096 .f32 :=
  matmul dot_S512x128_S128x4096_S512x4096_1_0_0_1_n_n none (truncf .bf16 (qB x0 wq bq) bitsLt_bf16_f32) kt
    (constant (F := Ideal) S512x4096 .f32 0x00000000#32)
/-- Each row's maximum. -/
def mB : FVec Ideal S512 .f32 :=
  multiReduction (F := Ideal) .maximumf [1] S512 (sB x0 wq bq kt) 0xFF800000#32 reduces_S512x4096_S512 (.inl rfl) rfl
/-- The exponentials of the shifted scores. -/
def eB : FVec Ideal S512x4096 .f32 :=
  exp (subf (sB x0 wq bq kt) (broadcastTo S512x4096 (shapeCast S512x1 (mB x0 wq bq kt) shapeCasts_S512_S512x1) broadcasts_S512x1_S512x4096))
/-- Each row's sum of exponentials. -/
def lB : FVec Ideal S512 .f32 :=
  multiReduction (F := Ideal) .add [1] S512 (eB x0 wq bq kt) 0x00000000#32 reduces_S512x4096_S512 (.inl rfl) rfl
/-- The attention weights. -/
def pB : FVec Ideal S512x4096 .f32 :=
  divf (eB x0 wq bq kt) (broadcastTo S512x4096 (shapeCast S512x1 (lB x0 wq bq kt) shapeCasts_S512_S512x1) broadcasts_S512x1_S512x4096)
/-- The weights mixing the values. -/
def cB : FVec Ideal S512x128 .f32 :=
  matmul dot_S512x4096_S4096x128_S512x128_1_0_0_1_n_n none (truncf .bf16 (pB x0 wq bq kt) bitsLt_bf16_f32) vv
    (constant (F := Ideal) S512x128 .f32 0x00000000#32)
/-- Projected out, plus the block's rows: the rows before normalization. -/
def dB : FVec Ideal S512x128 .f32 :=
  addf (addf (matmul dot_S512x128_S128x128_S512x128_1_0_0_1_n_n none (truncf .bf16 (cB x0 wq bq kt vv) bitsLt_bf16_f32) (truncf .bf16 wd bitsLt_bf16_f32)
    (constant (F := Ideal) S512x128 .f32 0x00000000#32)) (broadcastTo S512x128 bd broadcasts_S1x128_S512x128)) x0

/-- The printed payload is that composition (its shape casts are between equal shapes). -/
theorem pay2_eq : k1_pay2 (F := Ideal) x0 wq bq kt vv wd bd = dB x0 wq bq kt vv wd bd := by
  unfold k1_pay2 dB cB pB lB eB mB sB qB
  simp only [shapeCast_self]

theorem qB_apply (p : Fin 512) (o : Fin 128) :
    qB x0 wq bq (ix2 p o) = Net.affine (X x0) (Wq wq) (Bq bq) p o := by
  unfold qB
  show matmul (F := Ideal) _ none _ _ _ (ix2 p o) + broadcastTo S512x128 bq broadcasts_S1x128_S512x128 (ix2 p o) = _
  rw [proj_apply, broadcastTo_1b_ab_apply]
  rfl

theorem sB_apply (p : Fin 512) (c : Fin 4096) :
    sB x0 wq bq kt (ix2 p c) = Net.scores (Net.affine (X x0) (Wq wq) (Bq bq)) (Kk kt) p c := by
  unfold sB
  rw [score_apply]
  unfold Net.scores
  refine Finset.sum_congr rfl fun j _ => ?_
  show qB x0 wq bq (ix2 p j) * kt (ix2 j c) = _
  rw [qB_apply]
  rfl

theorem mB_apply (p : Fin 512) :
    mB x0 wq bq kt (ix1 p) = Net.rowMax (Net.scores (Net.affine (X x0) (Wq wq) (Bq bq)) (Kk kt)) p := by
  unfold mB
  refine (rowMax_apply (sB x0 wq bq kt) reduces_S512x4096_S512 (.inl rfl) rfl p).trans ?_
  unfold Net.rowMax
  exact congrArg (fun f => (Finset.univ : Finset (Fin 4096)).fold max ⊥ f) (funext fun c => sB_apply x0 wq bq kt p c)

theorem eB_apply (p : Fin 512) (c : Fin 4096) :
    eB x0 wq bq kt (ix2 p c) = Net.expShift (Net.scores (Net.affine (X x0) (Wq wq) (Bq bq)) (Kk kt)) p c := by
  unfold eB
  show Ideal.exp (sB x0 wq bq kt (ix2 p c) - broadcastTo S512x4096 (shapeCast S512x1 (mB x0 wq bq kt) shapeCasts_S512_S512x1) broadcasts_S512x1_S512x4096 (ix2 p c)) = _
  rw [broadcastTo_a1_ab_apply, shapeCast_a_a1_apply, mB_apply, sB_apply]
  rfl

theorem lB_apply (p : Fin 512) :
    lB x0 wq bq kt (ix1 p) = ∑ c, Net.expShift (Net.scores (Net.affine (X x0) (Wq wq) (Bq bq)) (Kk kt)) p c := by
  unfold lB
  refine (rowSum_apply (eB x0 wq bq kt) _ reduces_S512x4096_S512 (.inl rfl) rfl p).trans ?_
  exact Finset.sum_congr rfl fun c _ => eB_apply x0 wq bq kt p c

theorem pB_apply (p : Fin 512) (c : Fin 4096) :
    pB x0 wq bq kt (ix2 p c) = Net.softmax (Net.scores (Net.affine (X x0) (Wq wq) (Bq bq)) (Kk kt)) p c := by
  unfold pB
  show Ideal.div (eB x0 wq bq kt (ix2 p c)) (broadcastTo S512x4096 (shapeCast S512x1 (lB x0 wq bq kt) shapeCasts_S512_S512x1) broadcasts_S512x1_S512x4096 (ix2 p c)) = _
  rw [broadcastTo_a1_ab_apply, shapeCast_a_a1_apply, lB_apply, eB_apply]
  rfl

theorem cB_apply (p : Fin 512) (j : Fin 128) :
    cB x0 wq bq kt vv (ix2 p j)
      = Net.mix (Net.softmax (Net.scores (Net.affine (X x0) (Wq wq) (Bq bq)) (Kk kt))) (Vv vv) p j := by
  unfold cB
  rw [mixv_apply]
  unfold Net.mix
  refine Finset.sum_congr rfl fun c _ => ?_
  show pB x0 wq bq kt (ix2 p c) * vv (ix2 c j) = _
  rw [pB_apply]
  rfl

theorem dB_apply (p : Fin 512) (j : Fin 128) :
    dB x0 wq bq kt vv wd bd (ix2 p j) = Net.preNorm (X x0) (Kk kt) (Vv vv) (Wq wq) (Wd wd) (Bq bq) (Bd bd) p j := by
  unfold dB
  show (matmul (F := Ideal) _ none _ _ _ (ix2 p j) + broadcastTo S512x128 bd broadcasts_S1x128_S512x128 (ix2 p j)) + x0 (ix2 p j) = _
  rw [proj_apply, broadcastTo_1b_ab_apply]
  unfold Net.preNorm Net.affine
  refine congrArg (· + x0 (ix2 p j)) (congrArg (· + bd (ix2 (0 : Fin 1) j)) (Finset.sum_congr rfl fun k _ => ?_))
  show cB x0 wq bq kt vv (ix2 p k) * wd (ix2 k j) = _
  rw [cB_apply]
  rfl

end Stages

/-! ## The normalization -/

section Norm

variable (y : FVec Ideal S512x128 .f32) (ys : FVec Ideal S512 .f32) (g b : FVec Ideal S1x128 .f32)

def Y : Fin 512 → Fin 128 → EReal := fun p j => y (ix2 p j)
def G : Fin 128 → EReal := fun j => g (ix2 (0 : Fin 1) j)
def B : Fin 128 → EReal := fun j => b (ix2 (0 : Fin 1) j)

/-- Each row's mean, from the row sums `ys`. -/
def meanB : FVec Ideal S512x1 .f32 :=
  divf (shapeCast S512x1 ys shapeCasts_S512_S512x1) (broadcast S512x1 (Scalar.ofBits (F := Ideal) .f32 0x43000000#32))
/-- The centred rows. -/
def cenB : FVec Ideal S512x128 .f32 := subf y (broadcastTo S512x128 (meanB ys) broadcasts_S512x1_S512x128)
/-- Each row's variance. -/
def varB : FVec Ideal S512x1 .f32 :=
  divf (shapeCast S512x1 (multiReduction (F := Ideal) .add [1] S512 (mulf (cenB y ys) (cenB y ys)) 0x00000000#32 reduces_S512x128_S512 (.inl rfl) rfl) shapeCasts_S512_S512x1)
    (broadcast S512x1 (Scalar.ofBits (F := Ideal) .f32 0x43000000#32))
/-- The normalized, scaled and shifted rows. -/
def outB : FVec Ideal S512x128 .f32 :=
  addf (mulf (mulf (cenB y ys) (broadcastTo S512x128 (rsqrt (addf (varB y ys) (broadcast S512x1 (Scalar.ofBits (F := Ideal) .f32 0x3727C5AC#32)))) broadcasts_S512x1_S512x128))
    (broadcastTo S512x128 g broadcasts_S1x128_S512x128)) (broadcastTo S512x128 b broadcasts_S1x128_S512x128)

theorem pay1_eq : k1_pay1 (F := Ideal) y ys g b = outB y ys g b := by
  unfold k1_pay1 outB varB cenB meanB
  simp only [shapeCast_self]

variable (hys : ∀ p : Fin 512, ys (ix1 p) = ∑ j : Fin 128, y (ix2 p j))
include hys

theorem meanB_apply (p : Fin 512) : meanB ys (ix2 p (0 : Fin 1)) = Net.mean n128 (Y y) p := by
  unfold meanB
  show Ideal.div (shapeCast S512x1 ys shapeCasts_S512_S512x1 (ix2 p (0 : Fin 1))) (Ideal.ofBits .f32 0x43000000#32) = _
  rw [shapeCast_a_a1_apply, hys]
  rfl

theorem cenB_apply (p : Fin 512) (j : Fin 128) : cenB y ys (ix2 p j) = Net.centered n128 (Y y) p j := by
  unfold cenB
  show y (ix2 p j) - broadcastTo S512x128 (meanB ys) broadcasts_S512x1_S512x128 (ix2 p j) = _
  rw [broadcastTo_a1_ab_apply, meanB_apply y ys hys]
  rfl

theorem varB_apply (p : Fin 512) : varB y ys (ix2 p (0 : Fin 1)) = Net.variance n128 (Y y) p := by
  unfold varB
  show Ideal.div (shapeCast S512x1 _ shapeCasts_S512_S512x1 (ix2 p (0 : Fin 1))) (Ideal.ofBits .f32 0x43000000#32) = _
  rw [shapeCast_a_a1_apply]
  unfold Net.variance
  refine congrArg (Ideal.div · n128) ((rowSum_apply (mulf (cenB y ys) (cenB y ys)) _ reduces_S512x128_S512 (.inl rfl) rfl p).trans (Finset.sum_congr rfl fun j _ => ?_))
  show cenB y ys (ix2 p j) * cenB y ys (ix2 p j) = _
  rw [cenB_apply y ys hys]

theorem outB_apply (p : Fin 512) (j : Fin 128) :
    outB y ys g b (ix2 p j) = Net.normMul n128 eps (Y y) (G g) (B b) p j := by
  unfold outB
  show (cenB y ys (ix2 p j) * broadcastTo S512x128 (rsqrt (addf (varB y ys) (broadcast S512x1 (Scalar.ofBits (F := Ideal) .f32 0x3727C5AC#32)))) broadcasts_S512x1_S512x128 (ix2 p j))
      * broadcastTo S512x128 g broadcasts_S1x128_S512x128 (ix2 p j) + broadcastTo S512x128 b broadcasts_S1x128_S512x128 (ix2 p j) = _
  rw [broadcastTo_a1_ab_apply, broadcastTo_1b_ab_apply, broadcastTo_1b_ab_apply, cenB_apply y ys hys]
  show (Net.centered n128 (Y y) p j * Ideal.rsqrt (varB y ys (ix2 p (0 : Fin 1)) + Ideal.ofBits .f32 0x3727C5AC#32)) * g (ix2 (0 : Fin 1) j) + b (ix2 (0 : Fin 1) j) = _
  rw [varB_apply y ys hys]
  rfl

end Norm

/-- THE BLOCK'S RESULT at `(p, j)`: the normalization (reciprocal-root form) of the attention rows. -/
theorem block_apply (x0 : FVec Ideal S512x128 .f32) (kt : FVec Ideal S128x4096 .bf16) (vv : FVec Ideal S4096x128 .bf16)
    (wq : FVec Ideal S128x128 .f32) (bq : FVec Ideal S1x128 .f32) (wd : FVec Ideal S128x128 .f32) (bd : FVec Ideal S1x128 .f32)
    (g b : FVec Ideal S1x128 .f32) (p : Fin 512) (j : Fin 128) :
    k1_pay1 (F := Ideal) (k1_pay2 x0 wq bq kt vv wd bd) (k1_pay3 x0 wq bq kt vv wd bd) g b (ix2 p j)
      = Net.normMul n128 eps (Net.preNorm (X x0) (Kk kt) (Vv vv) (Wq wq) (Wd wd) (Bq bq) (Bd bd)) (G g) (B b) p j := by
  have hs : ∀ p : Fin 512, k1_pay3 (F := Ideal) x0 wq bq kt vv wd bd (ix1 p) = ∑ j : Fin 128, k1_pay2 (F := Ideal) x0 wq bq kt vv wd bd (ix2 p j) := fun p => by
    unfold k1_pay3
    exact rowSum_apply _ _ _ _ _ p
  rw [pay1_eq, outB_apply _ _ g b hs p j]
  have hY : Y (k1_pay2 (F := Ideal) x0 wq bq kt vv wd bd) = Net.preNorm (X x0) (Kk kt) (Vv vv) (Wq wq) (Wd wd) (Bq bq) (Bd bd) := by
    funext p j
    unfold Y
    rw [pay2_eq, dB_apply]
  rw [hY]

end Cert.AttnBody1

end
-- ==== Proof.AttnArray1.lean ====
/-
  An attention layer's result array, from its blocks of query rows.

  The grid has eight points; point `t` reads rows `512 t … 512 t + 511` of the layer's input and the whole of the keys,
  the values, the weights and the parameter rows, and writes back rows `512 t … 512 t + 511` of the result.  Since
  every stage acts row by row, what point `t` writes is the whole-array function read on its rows; the eight blocks
  tile the array, so the array ends holding that function.
-/
import proofs.«173113_j3470333575730_2_alg».proof.Proof.Gen.KernelIdeal.Frame
import proofs.«173113_j3470333575730_2_alg».proof.Proof.AttnBody1
import Idealize.ShloMosaic.Lib.Pipeline.Value

set_option maxRecDepth 16384

noncomputable section

namespace Cert.AttnArray1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `512 t + p` of the array. -/
def row (t : Fin 8) (p : Fin 512) : Fin 4096 := ⟨512 * t.val + p.val, by have := t.isLt; have := p.isLt; omega⟩

/-- The layer's result as one function of the arrays the region finds. -/
def result (c : Dev nD) : S4096x128.Idx → EReal := fun i =>
  Net.normMul AttnBody1.n128 AttnBody1.eps
    (Net.preNorm (fun r k => (V c main_arg1 : S4096x128.Idx → EReal) (ix2 r k)) (AttnBody1.Kk (V c main_v30_0)) (AttnBody1.Vv (V c main_v30_1))
      (AttnBody1.Wq (V c main_v2)) (AttnBody1.Wd (V c main_v11)) (AttnBody1.Bq (V c main_v24)) (AttnBody1.Bd (V c main_v25)))
    (AttnBody1.G (V c main_v26)) (AttnBody1.B (V c main_v27)) (i 0) (i 1)

/-! ## The printed index maps, decided over the grid -/

theorem idx0 : ∀ t : Fin cfg1.N, win1_0.index t (0 : Fin 2) = t.val ∧ win1_0.index t (1 : Fin 2) = 0 :=
  (by decide +kernel : ∀ t : Fin grid1.N, _)
theorem idx9 : ∀ t : Fin cfg1.N, win1_9.index t (0 : Fin 2) = t.val ∧ win1_9.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)

/-! ## Each window's block -/

/-- The query block's row `p` is the input's row `512 t + p`. -/
theorem blk0 (c : Dev nD) (t : Fin cfg1.N) :
    AttnBody1.X (iblk1 V c 0 t) = fun p k => (V c main_arg1 : S4096x128.Idx → EReal) (ix2 (row t p) k) := by
  obtain ⟨e0, e1⟩ := idx0 t
  funext p k
  unfold AttnBody1.X iblk1
  rw [View.read_apply]
  show V c main_arg1 (((cfg1.win 0).blk t).view.emb (ix2 p k)) = V c main_arg1 (ix2 (row t p) k)
  refine congrArg (V c main_arg1) (funext fun a => Fin.ext ?_)
  match a with
  | ⟨0, _⟩ => show win1_0.index t (0 : Fin 2) * 512 + 1 * p.val = 512 * t.val + p.val; rw [e0]; omega
  | ⟨1, _⟩ => show win1_0.index t (1 : Fin 2) * 128 + 1 * k.val = k.val; rw [e1]; omega
/-- Window 1's block is its whole array at every point. -/
theorem blk1 (c : Dev nD) (t : Fin cfg1.N) : (iblk1 V c 1 t : S128x4096.Idx → EReal) = V c main_v30_0 := by
  obtain ⟨e0, e1⟩ := idx1 t
  funext j
  unfold iblk1
  rw [View.read_apply]
  show V c main_v30_0 (((cfg1.win 1).blk t).view.emb j) = V c main_v30_0 j
  refine congrArg (V c main_v30_0) (funext fun a => Fin.ext ?_)
  match a with
  | ⟨0, _⟩ => show win1_1.index t (0 : Fin 2) * 128 + 1 * (j 0).val = (j 0).val; rw [e0]; omega
  | ⟨1, _⟩ => show win1_1.index t (1 : Fin 2) * 4096 + 1 * (j 1).val = (j 1).val; rw [e1]; omega
/-- Window 2's block is its whole array at every point. -/
theorem blk2 (c : Dev nD) (t : Fin cfg1.N) : (iblk1 V c 2 t : S4096x128.Idx → EReal) = V c main_v30_1 := by
  obtain ⟨e0, e1⟩ := idx2 t
  funext j
  unfold iblk1
  rw [View.read_apply]
  show V c main_v30_1 (((cfg1.win 2).blk t).view.emb j) = V c main_v30_1 j
  refine congrArg (V c main_v30_1) (funext fun a => Fin.ext ?_)
  match a with
  | ⟨0, _⟩ => show win1_2.index t (0 : Fin 2) * 4096 + 1 * (j 0).val = (j 0).val; rw [e0]; omega
  | ⟨1, _⟩ => show win1_2.index t (1 : Fin 2) * 128 + 1 * (j 1).val = (j 1).val; rw [e1]; omega
/-- Window 3's block is its whole array at every point. -/
theorem blk3 (c : Dev nD) (t : Fin cfg1.N) : (iblk1 V c 3 t : S128x128.Idx → EReal) = V c main_v2 := by
  obtain ⟨e0, e1⟩ := idx3 t
  funext j
  unfold iblk1
  rw [View.read_apply]
  show V c main_v2 (((cfg1.win 3).blk t).view.emb j) = V c main_v2 j
  refine congrArg (V c main_v2) (funext fun a => Fin.ext ?_)
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega
/-- Window 4's block is its whole array at every point. -/
theorem blk4 (c : Dev nD) (t : Fin cfg1.N) : (iblk1 V c 4 t : S1x128.Idx → EReal) = V c main_v24 := by
  obtain ⟨e0, e1⟩ := idx4 t
  funext j
  unfold iblk1
  rw [View.read_apply]
  show V c main_v24 (((cfg1.win 4).blk t).view.emb j) = V c main_v24 j
  refine congrArg (V c main_v24) (funext fun a => Fin.ext ?_)
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega
/-- Window 5's block is its whole array at every point. -/
theorem blk5 (c : Dev nD) (t : Fin cfg1.N) : (iblk1 V c 5 t : S128x128.Idx → EReal) = V c main_v11 := by
  obtain ⟨e0, e1⟩ := idx5 t
  funext j
  unfold iblk1
  rw [View.read_apply]
  show V c main_v11 (((cfg1.win 5).blk t).view.emb j) = V c main_v11 j
  refine congrArg (V c main_v11) (funext fun a => Fin.ext ?_)
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega
/-- Window 6's block is its whole array at every point. -/
theorem blk6 (c : Dev nD) (t : Fin cfg1.N) : (iblk1 V c 6 t : S1x128.Idx → EReal) = V c main_v25 := by
  obtain ⟨e0, e1⟩ := idx6 t
  funext j
  unfold iblk1
  rw [View.read_apply]
  show V c main_v25 (((cfg1.win 6).blk t).view.emb j) = V c main_v25 j
  refine congrArg (V c main_v25) (funext fun a => Fin.ext ?_)
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega
/-- Window 7's block is its whole array at every point. -/
theorem blk7 (c : Dev nD) (t : Fin cfg1.N) : (iblk1 V c 7 t : S1x128.Idx → EReal) = V c main_v26 := by
  obtain ⟨e0, e1⟩ := idx7 t
  funext j
  unfold iblk1
  rw [View.read_apply]
  show V c main_v26 (((cfg1.win 7).blk t).view.emb j) = V c main_v26 j
  refine congrArg (V c main_v26) (funext fun a => Fin.ext ?_)
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega
/-- Window 8's block is its whole array at every point. -/
theorem blk8 (c : Dev nD) (t : Fin cfg1.N) : (iblk1 V c 8 t : S1x128.Idx → EReal) = V c main_v27 := by
  obtain ⟨e0, e1⟩ := idx8 t
  funext j
  unfold iblk1
  rw [View.read_apply]
  show V c main_v27 (((cfg1.win 8).blk t).view.emb j) = V c main_v27 j
  refine congrArg (V c main_v27) (funext fun a => Fin.ext ?_)
  match a with
  | ⟨0, _⟩ => show win1_8.index t (0 : Fin 2) * 1 + 1 * (j 0).val = (j 0).val; rw [e0]; omega
  | ⟨1, _⟩ => show win1_8.index t (1 : Fin 2) * 128 + 1 * (j 1).val = (j 1).val; rw [e1]; omega

/-! ## What a point writes back, the cover, the array -/

/-- WHAT POINT `t` WRITES BACK is block `t` of `result`. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9]
  unfold out1_9
  rw [View.canon_unit_zero hz]
  simp only [View.ld_unit_zero (S := S512x128) hz, View.ld_unit_zero (S := S128x128) hz, View.ld_unit_zero (S := S1x128) hz,
    View.ld_unit_zero (S := S128x4096) hz, View.ld_unit_zero (S := S4096x128) hz]
  obtain ⟨e0, e1⟩ := idx9 t
  funext j
  obtain ⟨p, q, rfl⟩ : ∃ (p : Fin 512) (q : Fin 128), j = ix2 p q := ⟨j 0, j 1, eq_ix2 j⟩
  have he : ((cfg1.win 9).blk t).view.emb (ix2 p q) = ix2 (row t p) q := funext fun a => Fin.ext (by
    match a with
    | ⟨0, _⟩ => show win1_9.index t (0 : Fin 2) * 512 + 1 * p.val = 512 * t.val + p.val; rw [e0]; omega
    | ⟨1, _⟩ => show win1_9.index t (1 : Fin 2) * 128 + 1 * q.val = q.val; rw [e1]; omega)
  rw [View.read_apply, he]
  refine (AttnBody1.block_apply (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  rw [blk0 V c t, blk1 V c t, blk2 V c t, blk3 V c t, blk4 V c t, blk5 V c t, blk6 V c t, blk7 V c t, blk8 V c t]
  rfl

/-- An index of the array is in point `t`'s block iff each coordinate is in the block's range on its axis. -/
theorem mem_blk (t : Fin cfg1.N) (i : S4096x128.Idx) :
    i ∈ ((cfg1.win 9).blk t).view.set ↔ ∀ a : Fin 2, win1_9.index t a * S512x128.size a ≤ (i a).val ∧ (i a).val < win1_9.index t a * S512x128.size a + S512x128.size a := by
  show i ∈ ((View.whole main_v31).slice (win1_9.rect t)).set ↔ _
  rw [View.set_slice_whole, Rect.mem_set_unit]
  exact Iff.rfl

/-- Row `r` is in the block of point `r / 512`. -/
theorem cover (i : S4096x128.Idx) : ∃ t : Fin cfg1.N, (cfg1.win 9).flush t = true ∧ i ∈ ((cfg1.win 9).blk t).view.set := by
  have hi0 : (i 0).val < 4096 := (i 0).isLt
  have hi1 : (i 1).val < 128 := (i 1).isLt
  have ht : (i 0).val / 512 < 8 := by omega
  refine ⟨⟨(i 0).val / 512, ht⟩, flush1_9 _, ?_⟩
  obtain ⟨e0, e1⟩ := idx9 ⟨(i 0).val / 512, ht⟩
  rw [mem_blk]
  intro a
  match a with
  | ⟨0, _⟩ =>
    show win1_9.index ⟨(i 0).val / 512, ht⟩ (0 : Fin 2) * 512 ≤ (i 0).val ∧ (i 0).val < win1_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win1_9.index ⟨(i 0).val / 512, ht⟩ (1 : Fin 2) * 128 ≤ (i 1).val ∧ (i 1).val < win1_9.index ⟨(i 0).val / 512, ht⟩ (1 : Fin 2) * 128 + 128
    rw [e1]; omega

/-- THE ARRAY after the region. -/
theorem final (c : Dev nD) : (dat1 V c).arrAt 9 cfg1.N = result V c :=
  (dat1 V c).arrAt_eq_of_cover 9 (result V c) (fun t _ => flushed_eq V c t) (cover)

end Cert.AttnArray1

end
-- ==== Proof.Layer.lean ====
/-
  One attention layer over all 4096 rows, as one function of the layer's input and of the stacked parameters.

  The parameters of both layers are stacked along a leading axis of extent two; layer `l` uses entry `l` of each stack.
  The keys and values are linear layers of the input rows themselves.  The layer is written with either
  normalization; the two are the same function, because the divisor `128` and the added constant are positive.
-/
import proofs.«173113_j3470333575730_2_alg».proof.Proof.Net
import proofs.«173113_j3470333575730_2_alg».proof.Proof.Reads

noncomputable section

namespace Cert.Layer

open Idealize.ShloMosaic Idealize.ShloMosaic.ValueIdx

/-- The normalization's divisor, the pattern of `128.0`. -/
abbrev n128 : EReal := Ideal.ofBits .f32 0x43000000#32
/-- The constant added to the variance, the pattern nearest `1e-5`. -/
abbrev eps : EReal := Ideal.ofBits .f32 0x3727C5AC#32

/-- The rows before normalization. -/
def pre (l : Fin 2) (X : Fin 4096 → Fin 128 → EReal)
    (a2 a4 a6 a8 : (⟨3, ![2, 128, 128]⟩ : Shape).Idx → EReal) (a3 a5 a7 a9 : (⟨2, ![2, 128]⟩ : Shape).Idx → EReal) :
    Fin 4096 → Fin 128 → EReal :=
  Net.preNorm X (Net.affine X (fun o k => a4 (ix3 l o k)) (fun o => a5 (ix2 l o)))
    (Net.affine X (fun o k => a6 (ix3 l o k)) (fun o => a7 (ix2 l o)))
    (fun o k => a2 (ix3 l o k)) (fun o k => a8 (ix3 l o k)) (fun o => a3 (ix2 l o)) (fun o => a9 (ix2 l o))

/-- The layer, normalizing by a division by the root. -/
def div (l : Fin 2) (X : Fin 4096 → Fin 128 → EReal)
    (a2 a4 a6 a8 : (⟨3, ![2, 128, 128]⟩ : Shape).Idx → EReal) (a3 a5 a7 a9 a10 a11 : (⟨2, ![2, 128]⟩ : Shape).Idx → EReal) :
    Fin 4096 → Fin 128 → EReal :=
  Net.normDiv n128 eps (pre l X a2 a4 a6 a8 a3 a5 a7 a9) (fun j => a10 (ix2 l j)) (fun j => a11 (ix2 l j))

/-- The layer, normalizing by a product with the reciprocal root. -/
def mul (l : Fin 2) (X : Fin 4096 → Fin 128 → EReal)
    (a2 a4 a6 a8 : (⟨3, ![2, 128, 128]⟩ : Shape).Idx → EReal) (a3 a5 a7 a9 a10 a11 : (⟨2, ![2, 128]⟩ : Shape).Idx → EReal) :
    Fin 4096 → Fin 128 → EReal :=
  Net.normMul n128 eps (pre l X a2 a4 a6 a8 a3 a5 a7 a9) (fun j => a10 (ix2 l j)) (fun j => a11 (ix2 l j))

/-- The two are one function. -/
theorem mul_eq_div (l : Fin 2) (X : Fin 4096 → Fin 128 → EReal)
    (a2 a4 a6 a8 : (⟨3, ![2, 128, 128]⟩ : Shape).Idx → EReal) (a3 a5 a7 a9 a10 a11 : (⟨2, ![2, 128]⟩ : Shape).Idx → EReal) :
    mul l X a2 a4 a6 a8 a3 a5 a7 a9 a10 a11 = div l X a2 a4 a6 a8 a3 a5 a7 a9 a10 a11 :=
  Net.normMul_eq_normDiv Reads.ofBits_128_pos Reads.ofBits_eps_pos _ _ _

end Cert.Layer

end
-- ==== Proof.Layouts.lean ====
/-
  The parameter arrays as the layers receive them, read at an index.

  A layer's weight is entry `l` of a stack of two matrices, transposed: read at `(k, o)` it is the stack at
  `(l, o, k)`.  A layer's bias or scale row is row `l` of a two-row array, flattened and given a unit axis again:
  read at `(0, o)` it is the array at `(l, o)`.
-/
import Idealize.ShloMosaic.Lib.ValueIdx
import Idealize.ShloMosaic.Lib.ValueLayout
import Idealize.ShloMosaic.Lib.Pipeline.Value

noncomputable section

namespace Cert.Layouts

open Idealize.ShloMosaic Idealize.ShloMosaic.ValueIdx

variable {α : Type}

/-- Matrix `l` of a stack of two, transposed, read at `(k, o)`. -/
theorem stackT_apply (x : (⟨3, ![2, 128, 128]⟩ : Shape).Idx → α) (l : Fin 2)
    (hs : (⟨3, ![2, 128, 128]⟩ : Shape).Slices ![l.val, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) (k o : Fin 128) :
    transpose ⟨2, ![128, 128]⟩ [1, 0]
        (shapeCast ⟨2, ![128, 128]⟩ (extractStridedSlice ⟨3, ![1, 128, 128]⟩ ![l.val, 0, 0] x hs) hc) ht (ix2 k o)
      = x (ix3 l o k) := by
  rw [transpose_ix2_apply, shapeCast_1ab_ab_apply]
  exact extractStridedSlice_apply _ x hs _ _ (fun a => match a with
    | ⟨0, _⟩ => by show l.val = l.val + 0; omega
    | ⟨1, _⟩ => by show o.val = 0 + o.val; omega
    | ⟨2, _⟩ => by show k.val = 0 + k.val; omega)

/-- Row `l` of a two-row array, flattened and given a unit axis again, read at `(0, o)`. -/
theorem rowOf_apply (x : (⟨2, ![2, 128]⟩ : Shape).Idx → α) (l : Fin 2)
    (hs : (⟨2, ![2, 128]⟩ : Shape).Slices ![l.val, 0] ⟨2, ![1, 128]⟩)
    (h1 : (⟨2, ![1, 128]⟩ : Shape).ShapeCasts ⟨1, ![128]⟩) (h2 : (⟨1, ![128]⟩ : Shape).ShapeCasts ⟨2, ![1, 128]⟩)
    (o : Fin 128) :
    shapeCast ⟨2, ![1, 128]⟩ (shapeCast ⟨1, ![128]⟩ (extractStridedSlice ⟨2, ![1, 128]⟩ ![l.val, 0] x hs) h1) h2 (ix2 (0 : Fin 1) o)
      = x (ix2 l o) := by
  rw [shapeCast_a_1a_apply, shapeCast_1a_a_apply]
  exact extractStridedSlice_apply _ x hs _ _ (fun a => match a with
    | ⟨0, _⟩ => by show l.val = l.val + 0; omega
    | ⟨1, _⟩ => by show o.val = 0 + o.val; omega)

end Cert.Layouts

end
-- ==== Proof.Chain1.lean ====
/-
  Attention layer 1 of the network, from the launch memory to its result array.

  The layer's weights are entry `0` of the stacked parameter arrays, transposed by host operations before the
  layer's two regions; its bias and scale rows are row `0` of the two-row parameter arrays.  The first region
  leaves the keys and values as linear layers of the layer's input, the second the attention rows normalized; read
  back through the buffers' contents at each boundary, the result array is the one function `Layer.mul 0` of the
  layer's input and the parameter arrays.
-/
import proofs.«173113_j3470333575730_2_alg».proof.Proof.Gen.KernelIdeal.Frame
import proofs.«173113_j3470333575730_2_alg».proof.Proof.KvArray0
import proofs.«173113_j3470333575730_2_alg».proof.Proof.AttnArray1
import proofs.«173113_j3470333575730_2_alg».proof.Proof.Layer
import proofs.«173113_j3470333575730_2_alg».proof.Proof.Layouts
import Idealize.ShloMosaic.Lib.StableHlo.Run

set_option maxRecDepth 16384

noncomputable section

namespace Cert.Chain1

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The parameter arrays where the layer's host operations read them -/

theorem win_arg2 (c : Dev nD) : W0 m ρ c (Proc.devRef .tc main_arg2) = m ((c : Thread nD τ).loc main_arg2) := rfl
theorem win_arg3 (c : Dev nD) : W0 m ρ c (Proc.devRef .tc main_arg3) = m ((c : Thread nD τ).loc main_arg3) := rfl
theorem win_arg4 (c : Dev nD) : W0 m ρ c (Proc.devRef .tc main_arg4) = m ((c : Thread nD τ).loc main_arg4) := rfl
theorem win_arg5 (c : Dev nD) : W0 m ρ c (Proc.devRef .tc main_arg5) = m ((c : Thread nD τ).loc main_arg5) := rfl
theorem win_arg6 (c : Dev nD) : W0 m ρ c (Proc.devRef .tc main_arg6) = m ((c : Thread nD τ).loc main_arg6) := rfl
theorem win_arg7 (c : Dev nD) : W0 m ρ c (Proc.devRef .tc main_arg7) = m ((c : Thread nD τ).loc main_arg7) := rfl
theorem win_arg8 (c : Dev nD) : W0 m ρ c (Proc.devRef .tc main_arg8) = m ((c : Thread nD τ).loc main_arg8) := rfl
theorem win_arg9 (c : Dev nD) : W0 m ρ c (Proc.devRef .tc main_arg9) = m ((c : Thread nD τ).loc main_arg9) := rfl
theorem win_arg10 (c : Dev nD) : W0 m ρ c (Proc.devRef .tc main_arg10) = m ((c : Thread nD τ).loc main_arg10) := rfl
theorem win_arg11 (c : Dev nD) : W0 m ρ c (Proc.devRef .tc main_arg11) = m ((c : Thread nD τ).loc main_arg11) := rfl

/-! ## What the host operations hand the two regions -/

theorem x_entry (c : Dev nD) : (V1 m ρ c main_arg1 : S4096x128.Idx → EReal) = (m ((c : Thread nD τ).loc main_arg1) : S4096x128.Idx → EReal) := by
  show W1 m ρ c (Proc.devRef .tc main_arg1) = W0 m ρ c (Proc.devRef .tc main_arg1)
  exact StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The transposed weight at `(k, o)` is the stack at `(0, o, k)`. -/
theorem wq_read (c : Dev nD) (k o : Fin 128) :
    (V1 m ρ c main_v2 : S128x128.Idx → EReal) (ix2 k o) = (m ((c : Thread nD τ).loc main_arg2) : S2x128x128.Idx → EReal) (ix3 (0 : Fin 2) o k) := by
  show StableHlo.after hostOps0 (W0 m ρ c) (Proc.devRef .tc main_v2) (ix2 k o) = _
  after_results
  rw [win_arg2 m ρ c]
  exact Layouts.stackT_apply _ (0 : Fin 2) _ _ _ k o

/-- The transposed weight at `(k, o)` is the stack at `(0, o, k)`. -/
theorem wk_read (c : Dev nD) (k o : Fin 128) :
    (V1 m ρ c main_v5 : S128x128.Idx → EReal) (ix2 k o) = (m ((c : Thread nD τ).loc main_arg4) : S2x128x128.Idx → EReal) (ix3 (0 : Fin 2) o k) := by
  show StableHlo.after hostOps0 (W0 m ρ c) (Proc.devRef .tc main_v5) (ix2 k o) = _
  after_results
  rw [win_arg4 m ρ c]
  exact Layouts.stackT_apply _ (0 : Fin 2) _ _ _ k o

/-- The transposed weight at `(k, o)` is the stack at `(0, o, k)`. -/
theorem wv_read (c : Dev nD) (k o : Fin 128) :
    (V1 m ρ c main_v8 : S128x128.Idx → EReal) (ix2 k o) = (m ((c : Thread nD τ).loc main_arg6) : S2x128x128.Idx → EReal) (ix3 (0 : Fin 2) o k) := by
  show StableHlo.after hostOps0 (W0 m ρ c) (Proc.devRef .tc main_v8) (ix2 k o) = _
  after_results
  rw [win_arg6 m ρ c]
  exact Layouts.stackT_apply _ (0 : Fin 2) _ _ _ k o

/-- The transposed weight at `(k, o)` is the stack at `(0, o, k)`. -/
theorem wd_read (c : Dev nD) (k o : Fin 128) :
    (V1 m ρ c main_v11 : S128x128.Idx → EReal) (ix2 k o) = (m ((c : Thread nD τ).loc main_arg8) : S2x128x128.Idx → EReal) (ix3 (0 : Fin 2) o k) := by
  show StableHlo.after hostOps0 (W0 m ρ c) (Proc.devRef .tc main_v11) (ix2 k o) = _
  after_results
  rw [win_arg8 m ρ c]
  exact Layouts.stackT_apply _ (0 : Fin 2) _ _ _ k o

/-- The parameter row at `(0, o)` is the two-row array at `(0, o)`. -/
theorem bq_read (c : Dev nD) (o : Fin 128) :
    (V1 m ρ c main_v24 : S1x128.Idx → EReal) (ix2 (0 : Fin 1) o) = (m ((c : Thread nD τ).loc main_arg3) : S2x128.Idx → EReal) (ix2 (0 : Fin 2) o) := by
  show StableHlo.after hostOps0 (W0 m ρ c) (Proc.devRef .tc main_v24) (ix2 (0 : Fin 1) o) = _
  after_results
  rw [win_arg3 m ρ c]
  exact Layouts.rowOf_apply _ (0 : Fin 2) _ _ _ o

/-- The parameter row at `(0, o)` is the two-row array at `(0, o)`. -/
theorem bk_read (c : Dev nD) (o : Fin 128) :
    (V1 m ρ c main_v28 : S1x128.Idx → EReal) (ix2 (0 : Fin 1) o) = (m ((c : Thread nD τ).loc main_arg5) : S2x128.Idx → EReal) (ix2 (0 : Fin 2) o) := by
  show StableHlo.after hostOps0 (W0 m ρ c) (Proc.devRef .tc main_v28) (ix2 (0 : Fin 1) o) = _
  after_results
  rw [win_arg5 m ρ c]
  exact Layouts.rowOf_apply _ (0 : Fin 2) _ _ _ o

/-- The parameter row at `(0, o)` is the two-row array at `(0, o)`. -/
theorem bv_read (c : Dev nD) (o : Fin 128) :
    (V1 m ρ c main_v29 : S1x128.Idx → EReal) (ix2 (0 : Fin 1) o) = (m ((c : Thread nD τ).loc main_arg7) : S2x128.Idx → EReal) (ix2 (0 : Fin 2) o) := by
  show StableHlo.after hostOps0 (W0 m ρ c) (Proc.devRef .tc main_v29) (ix2 (0 : Fin 1) o) = _
  after_results
  rw [win_arg7 m ρ c]
  exact Layouts.rowOf_apply _ (0 : Fin 2) _ _ _ o

/-- The parameter row at `(0, o)` is the two-row array at `(0, o)`. -/
theorem bd_read (c : Dev nD) (o : Fin 128) :
    (V1 m ρ c main_v25 : S1x128.Idx → EReal) (ix2 (0 : Fin 1) o) = (m ((c : Thread nD τ).loc main_arg9) : S2x128.Idx → EReal) (ix2 (0 : Fin 2) o) := by
  show StableHlo.after hostOps0 (W0 m ρ c) (Proc.devRef .tc main_v25) (ix2 (0 : Fin 1) o) = _
  after_results
  rw [win_arg9 m ρ c]
  exact Layouts.rowOf_apply _ (0 : Fin 2) _ _ _ o

/-- The parameter row at `(0, o)` is the two-row array at `(0, o)`. -/
theorem g_read (c : Dev nD) (o : Fin 128) :
    (V1 m ρ c main_v26 : S1x128.Idx → EReal) (ix2 (0 : Fin 1) o) = (m ((c : Thread nD τ).loc main_arg10) : S2x128.Idx → EReal) (ix2 (0 : Fin 2) o) := by
  show StableHlo.after hostOps0 (W0 m ρ c) (Proc.devRef .tc main_v26) (ix2 (0 : Fin 1) o) = _
  after_results
  rw [win_arg10 m ρ c]
  exact Layouts.rowOf_apply _ (0 : Fin 2) _ _ _ o

/-- The parameter row at `(0, o)` is the two-row array at `(0, o)`. -/
theorem b_read (c : Dev nD) (o : Fin 128) :
    (V1 m ρ c main_v27 : S1x128.Idx → EReal) (ix2 (0 : Fin 1) o) = (m ((c : Thread nD τ).loc main_arg11) : S2x128.Idx → EReal) (ix2 (0 : Fin 2) o) := by
  show StableHlo.after hostOps0 (W0 m ρ c) (Proc.devRef .tc main_v27) (ix2 (0 : Fin 1) o) = _
  after_results
  rw [win_arg11 m ρ c]
  exact Layouts.rowOf_apply _ (0 : Fin 2) _ _ _ o

/-! ## The first region: keys and values -/

/-- The layer's input rows. -/
abbrev X (c : Dev nD) : Fin 4096 → Fin 128 → EReal := fun r k => (m ((c : Thread nD τ).loc main_arg1) : S4096x128.Idx → EReal) (ix2 r k)

theorem eX (c : Dev nD) : KvBody0.X (V1 m ρ c main_arg1) = X m c := by
  funext r k
  unfold KvBody0.X
  rw [x_entry m ρ c]
theorem eWk (c : Dev nD) : KvBody0.W (V1 m ρ c main_v5) = fun o k => (m ((c : Thread nD τ).loc main_arg4) : S2x128x128.Idx → EReal) (ix3 (0 : Fin 2) o k) := by
  funext o k; unfold KvBody0.W; exact wk_read m ρ c k o
theorem eWv (c : Dev nD) : KvBody0.W (V1 m ρ c main_v8) = fun o k => (m ((c : Thread nD τ).loc main_arg6) : S2x128x128.Idx → EReal) (ix3 (0 : Fin 2) o k) := by
  funext o k; unfold KvBody0.W; exact wv_read m ρ c k o
theorem eBk (c : Dev nD) : KvBody0.Bi (V1 m ρ c main_v28) = fun o => (m ((c : Thread nD τ).loc main_arg5) : S2x128.Idx → EReal) (ix2 (0 : Fin 2) o) := by
  funext o; unfold KvBody0.Bi; exact bk_read m ρ c o
theorem eBv (c : Dev nD) : KvBody0.Bi (V1 m ρ c main_v29) = fun o => (m ((c : Thread nD τ).loc main_arg7) : S2x128.Idx → EReal) (ix2 (0 : Fin 2) o) := by
  funext o; unfold KvBody0.Bi; exact bv_read m ρ c o

/-- The keys the second region finds. -/
theorem hK (c : Dev nD) : AttnBody1.Kk (V2 m ρ c main_v30_0)
    = Net.affine (X m c) (fun o k => (m ((c : Thread nD τ).loc main_arg4) : S2x128x128.Idx → EReal) (ix3 (0 : Fin 2) o k)) (fun o => (m ((c : Thread nD τ).loc main_arg5) : S2x128.Idx → EReal) (ix2 (0 : Fin 2) o)) := by
  have h : V2 m ρ c main_v30_0 = KvArray0.keys (V1 m ρ) c := (hF0 m ρ c 5).symm.trans (KvArray0.final5 (V1 m ρ) c)
  funext cc j
  unfold AttnBody1.Kk
  rw [h]
  unfold KvArray0.keys
  rw [eX m ρ c, eWk m ρ c, eBk m ρ c]
/-- The values the second region finds. -/
theorem hV (c : Dev nD) : AttnBody1.Vv (V2 m ρ c main_v30_1)
    = Net.affine (X m c) (fun o k => (m ((c : Thread nD τ).loc main_arg6) : S2x128x128.Idx → EReal) (ix3 (0 : Fin 2) o k)) (fun o => (m ((c : Thread nD τ).loc main_arg7) : S2x128.Idx → EReal) (ix2 (0 : Fin 2) o)) := by
  have h : V2 m ρ c main_v30_1 = KvArray0.values (V1 m ρ) c := (hF0 m ρ c 6).symm.trans (KvArray0.final6 (V1 m ρ) c)
  funext cc j
  unfold AttnBody1.Vv
  rw [h]
  unfold KvArray0.values
  rw [eX m ρ c, eWv m ρ c, eBv m ρ c]

/-! ## The second region's other operands: untouched by the first -/

theorem keep_wq (c : Dev nD) : W2 m ρ c (Proc.devRef .tc main_v2) = W1 m ρ c (Proc.devRef .tc main_v2) := W2_of_ne m ρ c main_v2 (by decide)
theorem keep_wd (c : Dev nD) : W2 m ρ c (Proc.devRef .tc main_v11) = W1 m ρ c (Proc.devRef .tc main_v11) := W2_of_ne m ρ c main_v11 (by decide)
theorem keep_bq (c : Dev nD) : W2 m ρ c (Proc.devRef .tc main_v24) = W1 m ρ c (Proc.devRef .tc main_v24) := W2_of_ne m ρ c main_v24 (by decide)
theorem keep_bd (c : Dev nD) : W2 m ρ c (Proc.devRef .tc main_v25) = W1 m ρ c (Proc.devRef .tc main_v25) := W2_of_ne m ρ c main_v25 (by decide)
theorem keep_g (c : Dev nD) : W2 m ρ c (Proc.devRef .tc main_v26) = W1 m ρ c (Proc.devRef .tc main_v26) := W2_of_ne m ρ c main_v26 (by decide)
theorem keep_b (c : Dev nD) : W2 m ρ c (Proc.devRef .tc main_v27) = W1 m ρ c (Proc.devRef .tc main_v27) := W2_of_ne m ρ c main_v27 (by decide)

theorem keep_x (c : Dev nD) : W2 m ρ c (Proc.devRef .tc main_arg1) = W1 m ρ c (Proc.devRef .tc main_arg1) :=
  (W2_arr m ρ c 0).trans (((dat0 (V1 m ρ) c).arrAt_in 0 rfl _).trans (A_eq0 (V1 m ρ) c 0))

theorem hX (c : Dev nD) : (fun r k => (V2 m ρ c main_arg1 : S4096x128.Idx → EReal) (ix2 r k)) = X m c := by
  funext r k
  show W2 m ρ c (Proc.devRef .tc main_arg1) (ix2 r k) = _
  rw [keep_x m ρ c]
  show (V1 m ρ c main_arg1 : S4096x128.Idx → EReal) (ix2 r k) = _
  rw [x_entry m ρ c]
theorem hWq (c : Dev nD) : AttnBody1.Wq (V2 m ρ c main_v2) = fun o k => (m ((c : Thread nD τ).loc main_arg2) : S2x128x128.Idx → EReal) (ix3 (0 : Fin 2) o k) := by
  funext o k; unfold AttnBody1.Wq
  show W2 m ρ c (Proc.devRef .tc main_v2) (ix2 k o) = _
  rw [keep_wq m ρ c]; exact wq_read m ρ c k o
theorem hWd (c : Dev nD) : AttnBody1.Wd (V2 m ρ c main_v11) = fun o k => (m ((c : Thread nD τ).loc main_arg8) : S2x128x128.Idx → EReal) (ix3 (0 : Fin 2) o k) := by
  funext o k; unfold AttnBody1.Wd
  show W2 m ρ c (Proc.devRef .tc main_v11) (ix2 k o) = _
  rw [keep_wd m ρ c]; exact wd_read m ρ c k o
theorem hBq (c : Dev nD) : AttnBody1.Bq (V2 m ρ c main_v24) = fun o => (m ((c : Thread nD τ).loc main_arg3) : S2x128.Idx → EReal) (ix2 (0 : Fin 2) o) := by
  funext o; unfold AttnBody1.Bq
  show W2 m ρ c (Proc.devRef .tc main_v24) (ix2 (0 : Fin 1) o) = _
  rw [keep_bq m ρ c]; exact bq_read m ρ c o
theorem hBd (c : Dev nD) : AttnBody1.Bd (V2 m ρ c main_v25) = fun o => (m ((c : Thread nD τ).loc main_arg9) : S2x128.Idx → EReal) (ix2 (0 : Fin 2) o) := by
  funext o; unfold AttnBody1.Bd
  show W2 m ρ c (Proc.devRef .tc main_v25) (ix2 (0 : Fin 1) o) = _
  rw [keep_bd m ρ c]; exact bd_read m ρ c o
theorem hG (c : Dev nD) : AttnBody1.G (V2 m ρ c main_v26) = fun o => (m ((c : Thread nD τ).loc main_arg10) : S2x128.Idx → EReal) (ix2 (0 : Fin 2) o) := by
  funext o; unfold AttnBody1.G
  show W2 m ρ c (Proc.devRef .tc main_v26) (ix2 (0 : Fin 1) o) = _
  rw [keep_g m ρ c]; exact g_read m ρ c o
theorem hB (c : Dev nD) : AttnBody1.B (V2 m ρ c main_v27) = fun o => (m ((c : Thread nD τ).loc main_arg11) : S2x128.Idx → EReal) (ix2 (0 : Fin 2) o) := by
  funext o; unfold AttnBody1.B
  show W2 m ρ c (Proc.devRef .tc main_v27) (ix2 (0 : Fin 1) o) = _
  rw [keep_b m ρ c]; exact b_read m ρ c o

/-! ## The layer's result array -/

/-- THE LAYER: its result array at `(r, j)` is `Layer.mul 0` of its input rows and the parameter arrays. -/
theorem layer_eq (c : Dev nD) (r : Fin 4096) (j : Fin 128) :
    (V3 m ρ c main_v31 : S4096x128.Idx → EReal) (ix2 r j)
      = Layer.mul (0 : Fin 2) (X m c) (m ((c : Thread nD τ).loc main_arg2) : S2x128x128.Idx → EReal) (m ((c : Thread nD τ).loc main_arg4) : S2x128x128.Idx → EReal) (m ((c : Thread nD τ).loc main_arg6) : S2x128x128.Idx → EReal) (m ((c : Thread nD τ).loc main_arg8) : S2x128x128.Idx → EReal)
          (m ((c : Thread nD τ).loc main_arg3) : S2x128.Idx → EReal) (m ((c : Thread nD τ).loc main_arg5) : S2x128.Idx → EReal) (m ((c : Thread nD τ).loc main_arg7) : S2x128.Idx → EReal) (m ((c : Thread nD τ).loc main_arg9) : S2x128.Idx → EReal) (m ((c : Thread nD τ).loc main_arg10) : S2x128.Idx → EReal) (m ((c : Thread nD τ).loc main_arg11) : S2x128.Idx → EReal) r j := by
  have h : V3 m ρ c main_v31 = AttnArray1.result (V2 m ρ) c := (hF1 m ρ c 9).symm.trans (AttnArray1.final (V2 m ρ) c)
  rw [h]
  unfold AttnArray1.result
  rw [hX m ρ c, hK m ρ c, hV m ρ c, hWq m ρ c, hWd m ρ c, hBq m ρ c, hBd m ρ c, hG m ρ c, hB m ρ c]
  rfl

end Cert.Chain1

end
-- ==== Proof.KvBody2.lean ====
/-
  The key and value projections of every row, read at an index.

  All rows pass through two linear layers.  The keys are stored transposed, so the stored entry `(j, c)` is key row
  `c` at feature `j`; the values are stored as they are.  Narrowing to a shorter float format is the identity on
  the extended reals.
-/
import proofs.«173113_j3470333575730_2_alg».proof.Proof.Gen.KernelIdeal.Skeleton
import proofs.«173113_j3470333575730_2_alg».proof.Proof.Net
import proofs.«173113_j3470333575730_2_alg».proof.Proof.Reads

noncomputable section

namespace Cert.KvBody2

open Idealize.ShloMosaic Idealize.ShloMosaic.ValueIdx Cert.KernelIdeal Cert.KernelIdeal.Gen Cert.Reads

theorem rows_apply {φ₁ φ₂ : FTy} (x : FVec Ideal S4096x128 φ₁) (w : FVec Ideal S128x128 φ₂) (p : Fin 4096) (q : Fin 128) :
    matmul dot_S4096x128_S128x128_S4096x128_1_0_0_1_n_n none x w (constant S4096x128 .f32 0x00000000#32) (ix2 p q) = ∑ j : Fin 128, x (ix2 p j) * w (ix2 j q) :=
  matmul_zero_apply dot_S4096x128_S128x128_S4096x128_1_0_0_1_n_n rfl rfl
    (fun i q => by
      unfold DotDims.lhsIdx
      rw [dif_neg (show ¬(⟨0, Nat.zero_lt_two⟩ : Fin S4096x128.rank) ∈ dot_S4096x128_S128x128_S4096x128_1_0_0_1_n_n.lhsBatch by decide), dif_pos (show (⟨0, Nat.zero_lt_two⟩ : Fin S4096x128.rank) ∈ dot_S4096x128_S128x128_S4096x128_1_0_0_1_n_n.lhsNonContracting by decide)]
      rfl)
    (fun i q => dot_S4096x128_S128x128_S4096x128_1_0_0_1_n_n.lhsIdx_val_of_single rfl i q)
    (fun i q => dot_S4096x128_S128x128_S4096x128_1_0_0_1_n_n.rhsIdx_val_of_single rfl i q)
    (fun i q => by
      unfold DotDims.rhsIdx
      rw [dif_neg (show ¬(⟨1, Nat.one_lt_two⟩ : Fin S128x128.rank) ∈ dot_S4096x128_S128x128_S4096x128_1_0_0_1_n_n.rhsBatch by decide), dif_pos (show (⟨1, Nat.one_lt_two⟩ : Fin S128x128.rank) ∈ dot_S4096x128_S128x128_S4096x128_1_0_0_1_n_n.rhsNonContracting by decide)]
      rfl)
    none x w p q

variable (x : FVec Ideal S4096x128 .f32) (w : FVec Ideal S128x128 .f32) (b : FVec Ideal S1x128 .f32)

/-- All rows, the transposed weight read as `w o k`, the bias row. -/
def X : Fin 4096 → Fin 128 → EReal := fun c k => x (ix2 c k)
def W : Fin 128 → Fin 128 → EReal := fun o k => w (ix2 k o)
def Bi : Fin 128 → EReal := fun o => b (ix2 (0 : Fin 1) o)

/-- One linear layer over all rows. -/
def linB : FVec Ideal S4096x128 .f32 :=
  addf (matmul dot_S4096x128_S128x128_S4096x128_1_0_0_1_n_n none (truncf .bf16 x bitsLt_bf16_f32) (truncf .bf16 w bitsLt_bf16_f32)
    (constant (F := Ideal) S4096x128 .f32 0x00000000#32)) (broadcastTo S4096x128 b broadcasts_S1x128_S4096x128)

theorem linB_apply (c : Fin 4096) (o : Fin 128) : linB x w b (ix2 c o) = Net.affine (X x) (W w) (Bi b) c o := by
  unfold linB
  show matmul (F := Ideal) _ none _ _ _ (ix2 c o) + broadcastTo S4096x128 b broadcasts_S1x128_S4096x128 (ix2 c o) = _
  rw [rows_apply, broadcastTo_1b_ab_apply]
  rfl

/-- The stored keys are the layer's result transposed. -/
theorem keys_eq : k2_pay2 (F := Ideal) x w b
    = truncf .bf16 (transpose S128x4096 [1, 0] (linB x w b) transposes_S4096x128_p1_0_S128x4096) bitsLt_bf16_f32 := by
  unfold k2_pay2 k2_pay1 linB
  simp only [shapeCast_self]

/-- The stored values are the layer's result. -/
theorem values_eq : k2_pay3 (F := Ideal) x w b = truncf .bf16 (linB x w b) bitsLt_bf16_f32 := by
  unfold k2_pay3 k2_pay1 linB
  simp only [shapeCast_self]

/-- THE STORED KEYS at `(j, c)`: key row `c` at feature `j`. -/
theorem keys_apply (j : Fin 128) (c : Fin 4096) :
    k2_pay2 (F := Ideal) x w b (ix2 j c) = Net.affine (X x) (W w) (Bi b) c j := by
  rw [keys_eq]
  show transpose S128x4096 [1, 0] (linB x w b) transposes_S4096x128_p1_0_S128x4096 (ix2 j c) = _
  rw [transpose_ix2_apply, linB_apply]

/-- THE STORED VALUES at `(c, j)`. -/
theorem values_apply (c : Fin 4096) (j : Fin 128) :
    k2_pay3 (F := Ideal) x w b (ix2 c j) = Net.affine (X x) (W w) (Bi b) c j := by
  rw [values_eq]
  show linB x w b (ix2 c j) = _
  rw [linB_apply]

end Cert.KvBody2

end
-- ==== Proof.KvArray2.lean ====
/-
  The key and value arrays of a layer.

  One grid point reads the layer's input and the two transposed weights and bias rows whole, and writes the keys
  (transposed: entry `(j, c)` is key row `c` at feature `j`) and the values whole; so each array ends holding its
  linear layer of the input, index by index.
-/
import proofs.«173113_j3470333575730_2_alg».proof.Proof.Gen.KernelIdeal.Frame
import proofs.«173113_j3470333575730_2_alg».proof.Proof.KvBody2
import Idealize.ShloMosaic.Lib.Pipeline.Value

set_option maxRecDepth 16384

noncomputable section

namespace Cert.KvArray2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The keys, transposed. -/
def keys (c : Dev nD) : S128x4096.Idx → EReal := fun i =>
  Net.affine (KvBody2.X (V c main_v31)) (KvBody2.W (V c main_v37)) (KvBody2.Bi (V c main_v60)) (i 1) (i 0)
/-- The values. -/
def values (c : Dev nD) : S4096x128.Idx → EReal := fun i =>
  Net.affine (KvBody2.X (V c main_v31)) (KvBody2.W (V c main_v40)) (KvBody2.Bi (V c main_v61)) (i 0) (i 1)

/-! ## The printed index maps, decided over the grid -/

theorem idx0 : ∀ t : Fin cfg2.N, win2_0.index t (0 : Fin 2) = 0 ∧ win2_0.index t (1 : Fin 2) = 0 :=
  (by decide +kernel : ∀ t : Fin grid2.N, _)
theorem idx1 : ∀ t : Fin cfg2.N, win2_1.index t (0 : Fin 2) = 0 ∧ win2_1.index t (1 : Fin 2) = 0 :=
  (by decide +kernel : ∀ t : Fin grid2.N, _)
theorem idx2 : ∀ t : Fin cfg2.N, win2_2.index t (0 : Fin 2) = 0 ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)

/-! ## Each window's block -/

/-- Window 0's block is its whole array. -/
theorem blk0 (c : Dev nD) (t : Fin cfg2.N) : (iblk2 V c 0 t : S4096x128.Idx → EReal) = V c main_v31 := by
  obtain ⟨e0, e1⟩ := idx0 t
  funext j
  unfold iblk2
  rw [View.read_apply]
  show V c main_v31 (((cfg2.win 0).blk t).view.emb j) = V c main_v31 j
  refine congrArg (V c main_v31) (funext fun a => Fin.ext ?_)
  match a with
  | ⟨0, _⟩ => show win2_0.index t (0 : Fin 2) * 4096 + 1 * (j 0).val = (j 0).val; rw [e0]; omega
  | ⟨1, _⟩ => show win2_0.index t (1 : Fin 2) * 128 + 1 * (j 1).val = (j 1).val; rw [e1]; omega
/-- Window 1's block is its whole array. -/
theorem blk1 (c : Dev nD) (t : Fin cfg2.N) : (iblk2 V c 1 t : S128x128.Idx → EReal) = V c main_v37 := by
  obtain ⟨e0, e1⟩ := idx1 t
  funext j
  unfold iblk2
  rw [View.read_apply]
  show V c main_v37 (((cfg2.win 1).blk t).view.emb j) = V c main_v37 j
  refine congrArg (V c main_v37) (funext fun a => Fin.ext ?_)
  match a with
  | ⟨0, _⟩ => show win2_1.index t (0 : Fin 2) * 128 + 1 * (j 0).val = (j 0).val; rw [e0]; omega
  | ⟨1, _⟩ => show win2_1.index t (1 : Fin 2) * 128 + 1 * (j 1).val = (j 1).val; rw [e1]; omega
/-- Window 2's block is its whole array. -/
theorem blk2 (c : Dev nD) (t : Fin cfg2.N) : (iblk2 V c 2 t : S1x128.Idx → EReal) = V c main_v60 := by
  obtain ⟨e0, e1⟩ := idx2 t
  funext j
  unfold iblk2
  rw [View.read_apply]
  show V c main_v60 (((cfg2.win 2).blk t).view.emb j) = V c main_v60 j
  refine congrArg (V c main_v60) (funext fun a => Fin.ext ?_)
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega
/-- Window 3's block is its whole array. -/
theorem blk3 (c : Dev nD) (t : Fin cfg2.N) : (iblk2 V c 3 t : S128x128.Idx → EReal) = V c main_v40 := by
  obtain ⟨e0, e1⟩ := idx3 t
  funext j
  unfold iblk2
  rw [View.read_apply]
  show V c main_v40 (((cfg2.win 3).blk t).view.emb j) = V c main_v40 j
  refine congrArg (V c main_v40) (funext fun a => Fin.ext ?_)
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega
/-- Window 4's block is its whole array. -/
theorem blk4 (c : Dev nD) (t : Fin cfg2.N) : (iblk2 V c 4 t : S1x128.Idx → EReal) = V c main_v61 := by
  obtain ⟨e0, e1⟩ := idx4 t
  funext j
  unfold iblk2
  rw [View.read_apply]
  show V c main_v61 (((cfg2.win 4).blk t).view.emb j) = V c main_v61 j
  refine congrArg (V c main_v61) (funext fun a => Fin.ext ?_)
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-! ## The two outputs -/

/-- WHAT THE POINT WRITES BACK to window 5 is `keys`, whole. -/
theorem flushed5_eq (c : Dev nD) (t : Fin cfg2.N) :
    (dat2 V c).flushed 5 t = ((cfg2.win 5).blk t).view.read (Elt Ideal) (keys V c) := by
  show (cfg2.win 5).cut (grid2.coords t) ((dat2 V c).after 5 t) = _
  rw [after2_5]
  unfold out2_5
  rw [View.canon_unit_zero hz]
  simp only [View.ld_unit_zero (S := S4096x128) hz, View.ld_unit_zero (S := S128x128) hz, View.ld_unit_zero (S := S1x128) hz]
  obtain ⟨e0, e1⟩ := idx5 t
  funext j
  obtain ⟨p, q, rfl⟩ : ∃ (p : Fin 128) (q : Fin 4096), j = ix2 p q := ⟨j 0, j 1, eq_ix2 j⟩
  have he : ((cfg2.win 5).blk t).view.emb (ix2 p q) = ix2 p q := funext fun a => Fin.ext (by
    match a with
    | ⟨0, _⟩ => show win2_5.index t (0 : Fin 2) * 128 + 1 * p.val = p.val; rw [e0]; omega
    | ⟨1, _⟩ => show win2_5.index t (1 : Fin 2) * 4096 + 1 * q.val = q.val; rw [e1]; omega)
  rw [View.read_apply, he]
  refine (KvBody2.keys_apply (iblk2 V c 0 t) (iblk2 V c 1 t) (iblk2 V c 2 t) p q).trans ?_
  rw [blk0 V c t, blk1 V c t, blk2 V c t]
  rfl

theorem cover5 (i : S128x4096.Idx) : ∃ t : Fin cfg2.N, (cfg2.win 5).flush t = true ∧ i ∈ ((cfg2.win 5).blk t).view.set := by
  have hi0 : (i 0).val < 128 := (i 0).isLt
  have hi1 : (i 1).val < 4096 := (i 1).isLt
  refine ⟨⟨0, Nat.one_pos⟩, flush2_5 _, ?_⟩
  obtain ⟨e0, e1⟩ := idx5 ⟨0, Nat.one_pos⟩
  show i ∈ ((View.whole main_v62_0).slice (win2_5.rect ⟨0, Nat.one_pos⟩)).set
  rw [View.set_slice_whole, Rect.mem_set_unit]
  intro a
  match a with
  | ⟨0, _⟩ =>
    show win2_5.index ⟨0, Nat.one_pos⟩ (0 : Fin 2) * 128 ≤ (i 0).val ∧ (i 0).val < win2_5.index ⟨0, Nat.one_pos⟩ (0 : Fin 2) * 128 + 128
    rw [e0]; omega
  | ⟨1, _⟩ =>
    show win2_5.index ⟨0, Nat.one_pos⟩ (1 : Fin 2) * 4096 ≤ (i 1).val ∧ (i 1).val < win2_5.index ⟨0, Nat.one_pos⟩ (1 : Fin 2) * 4096 + 4096
    rw [e1]; omega

/-- THE ARRAY after the region. -/
theorem final5 (c : Dev nD) : (dat2 V c).arrAt 5 cfg2.N = keys V c :=
  (dat2 V c).arrAt_eq_of_cover 5 (keys V c) (fun t _ => flushed5_eq V c t) (cover5)

/-- WHAT THE POINT WRITES BACK to window 6 is `values`, whole. -/
theorem flushed6_eq (c : Dev nD) (t : Fin cfg2.N) :
    (dat2 V c).flushed 6 t = ((cfg2.win 6).blk t).view.read (Elt Ideal) (values V c) := by
  show (cfg2.win 6).cut (grid2.coords t) ((dat2 V c).after 6 t) = _
  rw [after2_6]
  unfold out2_6
  rw [View.canon_unit_zero hz]
  simp only [View.ld_unit_zero (S := S4096x128) hz, View.ld_unit_zero (S := S128x128) hz, View.ld_unit_zero (S := S1x128) hz]
  obtain ⟨e0, e1⟩ := idx6 t
  funext j
  obtain ⟨p, q, rfl⟩ : ∃ (p : Fin 4096) (q : Fin 128), j = ix2 p q := ⟨j 0, j 1, eq_ix2 j⟩
  have he : ((cfg2.win 6).blk t).view.emb (ix2 p q) = ix2 p q := funext fun a => Fin.ext (by
    match a with
    | ⟨0, _⟩ => show win2_6.index t (0 : Fin 2) * 4096 + 1 * p.val = p.val; rw [e0]; omega
    | ⟨1, _⟩ => show win2_6.index t (1 : Fin 2) * 128 + 1 * q.val = q.val; rw [e1]; omega)
  rw [View.read_apply, he]
  refine (KvBody2.values_apply (iblk2 V c 0 t) (iblk2 V c 3 t) (iblk2 V c 4 t) p q).trans ?_
  rw [blk0 V c t, blk3 V c t, blk4 V c t]
  rfl

theorem cover6 (i : S4096x128.Idx) : ∃ t : Fin cfg2.N, (cfg2.win 6).flush t = true ∧ i ∈ ((cfg2.win 6).blk t).view.set := by
  have hi0 : (i 0).val < 4096 := (i 0).isLt
  have hi1 : (i 1).val < 128 := (i 1).isLt
  refine ⟨⟨0, Nat.one_pos⟩, flush2_6 _, ?_⟩
  obtain ⟨e0, e1⟩ := idx6 ⟨0, Nat.one_pos⟩
  show i ∈ ((View.whole main_v62_1).slice (win2_6.rect ⟨0, Nat.one_pos⟩)).set
  rw [View.set_slice_whole, Rect.mem_set_unit]
  intro a
  match a with
  | ⟨0, _⟩ =>
    show win2_6.index ⟨0, Nat.one_pos⟩ (0 : Fin 2) * 4096 ≤ (i 0).val ∧ (i 0).val < win2_6.index ⟨0, Nat.one_pos⟩ (0 : Fin 2) * 4096 + 4096
    rw [e0]; omega
  | ⟨1, _⟩ =>
    show win2_6.index ⟨0, Nat.one_pos⟩ (1 : Fin 2) * 128 ≤ (i 1).val ∧ (i 1).val < win2_6.index ⟨0, Nat.one_pos⟩ (1 : Fin 2) * 128 + 128
    rw [e1]; omega

/-- THE ARRAY after the region. -/
theorem final6 (c : Dev nD) : (dat2 V c).arrAt 6 cfg2.N = values V c :=
  (dat2 V c).arrAt_eq_of_cover 6 (values V c) (fun t _ => flushed6_eq V c t) (cover6)

end Cert.KvArray2

end
-- ==== Proof.AttnBody3.lean ====
/-
  One block of query rows through an attention layer, read at an index.

  The block's rows are projected to queries, scored against every key row (the keys arrive transposed), each row of
  scores is shifted by its maximum, exponentiated and divided by its sum, the weights mix the value rows, the result
  is projected out and added to the block's rows; then each row is centred, scaled by the reciprocal root of its
  variance plus a constant, and scaled and shifted by the two parameter rows.  Stage by stage the block-level
  operations, read at `(p, j)`, are the row-wise functions of `Cert.Net` of the block's rows: narrowing a float format
  is the identity on the extended reals, a product into a zero accumulator is a plain sum, and a broadcast of a row
  or column reads that row's or column's entry.
-/
import proofs.«173113_j3470333575730_2_alg».proof.Proof.Gen.KernelIdeal.Skeleton
import proofs.«173113_j3470333575730_2_alg».proof.Proof.Net
import proofs.«173113_j3470333575730_2_alg».proof.Proof.Reads

noncomputable section

namespace Cert.AttnBody3

open Idealize.ShloMosaic Idealize.ShloMosaic.ValueIdx Cert.KernelIdeal Cert.KernelIdeal.Gen Cert.Reads

/-- The normalization's divisor, the pattern of `128.0`. -/
abbrev n128 : EReal := Ideal.ofBits .f32 0x43000000#32
/-- The constant added to the variance, the pattern nearest `1e-5`. -/
abbrev eps : EReal := Ideal.ofBits .f32 0x3727C5AC#32

theorem proj_apply {φ₁ φ₂ : FTy} (x : FVec Ideal S512x128 φ₁) (w : FVec Ideal S128x128 φ₂) (p : Fin 512) (q : Fin 128) :
    matmul dot_S512x128_S128x128_S512x128_1_0_0_1_n_n none x w (constant S512x128 .f32 0x00000000#32) (ix2 p q) = ∑ j : Fin 128, x (ix2 p j) * w (ix2 j q) :=
  matmul_zero_apply dot_S512x128_S128x128_S512x128_1_0_0_1_n_n rfl rfl
    (fun i q => by
      unfold DotDims.lhsIdx
      rw [dif_neg (show ¬(⟨0, Nat.zero_lt_two⟩ : Fin S512x128.rank) ∈ dot_S512x128_S128x128_S512x128_1_0_0_1_n_n.lhsBatch by decide), dif_pos (show (⟨0, Nat.zero_lt_two⟩ : Fin S512x128.rank) ∈ dot_S512x128_S128x128_S512x128_1_0_0_1_n_n.lhsNonContracting by decide)]
      rfl)
    (fun i q => dot_S512x128_S128x128_S512x128_1_0_0_1_n_n.lhsIdx_val_of_single rfl i q)
    (fun i q => dot_S512x128_S128x128_S512x128_1_0_0_1_n_n.rhsIdx_val_of_single rfl i q)
    (fun i q => by
      unfold DotDims.rhsIdx
      rw [dif_neg (show ¬(⟨1, Nat.one_lt_two⟩ : Fin S128x128.rank) ∈ dot_S512x128_S128x128_S512x128_1_0_0_1_n_n.rhsBatch by decide), dif_pos (show (⟨1, Nat.one_lt_two⟩ : Fin S128x128.rank) ∈ dot_S512x128_S128x128_S512x128_1_0_0_1_n_n.rhsNonContracting by decide)]
      rfl)
    none x w p q

theorem score_apply {φ₁ φ₂ : FTy} (x : FVec Ideal S512x128 φ₁) (w : FVec Ideal S128x4096 φ₂) (p : Fin 512) (q : Fin 4096) :
    matmul dot_S512x128_S128x4096_S512x4096_1_0_0_1_n_n none x w (constant S512x4096 .f32 0x00000000#32) (ix2 p q) = ∑ j : Fin 128, x (ix2 p j) * w (ix2 j q) :=
  matmul_zero_apply dot_S512x128_S128x4096_S512x4096_1_0_0_1_n_n rfl rfl
    (fun i q => by
      unfold DotDims.lhsIdx
      rw [dif_neg (show ¬(⟨0, Nat.zero_lt_two⟩ : Fin S512x128.rank) ∈ dot_S512x128_S128x4096_S512x4096_1_0_0_1_n_n.lhsBatch by decide), dif_pos (show (⟨0, Nat.zero_lt_two⟩ : Fin S512x128.rank) ∈ dot_S512x128_S128x4096_S512x4096_1_0_0_1_n_n.lhsNonContracting by decide)]
      rfl)
    (fun i q => dot_S512x128_S128x4096_S512x4096_1_0_0_1_n_n.lhsIdx_val_of_single rfl i q)
    (fun i q => dot_S512x128_S128x4096_S512x4096_1_0_0_1_n_n.rhsIdx_val_of_single rfl i q)
    (fun i q => by
      unfold DotDims.rhsIdx
      rw [dif_neg (show ¬(⟨1, Nat.one_lt_two⟩ : Fin S128x4096.rank) ∈ dot_S512x128_S128x4096_S512x4096_1_0_0_1_n_n.rhsBatch by decide), dif_pos (show (⟨1, Nat.one_lt_two⟩ : Fin S128x4096.rank) ∈ dot_S512x128_S128x4096_S512x4096_1_0_0_1_n_n.rhsNonContracting by decide)]
      rfl)
    none x w p q

theorem mixv_apply {φ₁ φ₂ : FTy} (x : FVec Ideal S512x4096 φ₁) (w : FVec Ideal S4096x128 φ₂) (p : Fin 512) (q : Fin 128) :
    matmul dot_S512x4096_S4096x128_S512x128_1_0_0_1_n_n none x w (constant S512x128 .f32 0x00000000#32) (ix2 p q) = ∑ j : Fin 4096, x (ix2 p j) * w (ix2 j q) :=
  matmul_zero_apply dot_S512x4096_S4096x128_S512x128_1_0_0_1_n_n rfl rfl
    (fun i q => by
      unfold DotDims.lhsIdx
      rw [dif_neg (show ¬(⟨0, Nat.zero_lt_two⟩ : Fin S512x4096.rank) ∈ dot_S512x4096_S4096x128_S512x128_1_0_0_1_n_n.lhsBatch by decide), dif_pos (show (⟨0, Nat.zero_lt_two⟩ : Fin S512x4096.rank) ∈ dot_S512x4096_S4096x128_S512x128_1_0_0_1_n_n.lhsNonContracting by decide)]
      rfl)
    (fun i q => dot_S512x4096_S4096x128_S512x128_1_0_0_1_n_n.lhsIdx_val_of_single rfl i q)
    (fun i q => dot_S512x4096_S4096x128_S512x128_1_0_0_1_n_n.rhsIdx_val_of_single rfl i q)
    (fun i q => by
      unfold DotDims.rhsIdx
      rw [dif_neg (show ¬(⟨1, Nat.one_lt_two⟩ : Fin S4096x128.rank) ∈ dot_S512x4096_S4096x128_S512x128_1_0_0_1_n_n.rhsBatch by decide), dif_pos (show (⟨1, Nat.one_lt_two⟩ : Fin S4096x128.rank) ∈ dot_S512x4096_S4096x128_S512x128_1_0_0_1_n_n.rhsNonContracting by decide)]
      rfl)
    none x w p q

section Stages

variable (x0 : FVec Ideal S512x128 .f32) (wq : FVec Ideal S128x128 .f32) (bq : FVec Ideal S1x128 .f32)
  (kt : FVec Ideal S128x4096 .bf16) (vv : FVec Ideal S4096x128 .bf16) (wd : FVec Ideal S128x128 .f32) (bd : FVec Ideal S1x128 .f32)

/-- The block's rows, the transposed weights read as `w o k`, the bias rows, the keys (transposed back) and values. -/
def X : Fin 512 → Fin 128 → EReal := fun p k => x0 (ix2 p k)
def Wq : Fin 128 → Fin 128 → EReal := fun o k => wq (ix2 k o)
def Bq : Fin 128 → EReal := fun o => bq (ix2 (0 : Fin 1) o)
def Kk : Fin 4096 → Fin 128 → EReal := fun c j => kt (ix2 j c)
def Vv : Fin 4096 → Fin 128 → EReal := fun c j => vv (ix2 c j)
def Wd : Fin 128 → Fin 128 → EReal := fun o k => wd (ix2 k o)
def Bd : Fin 128 → EReal := fun o => bd (ix2 (0 : Fin 1) o)

/-- The queries of the block. -/
def qB : FVec Ideal S512x128 .f32 :=
  addf (matmul dot_S512x128_S128x128_S512x128_1_0_0_1_n_n none (truncf .bf16 x0 bitsLt_bf16_f32) (truncf .bf16 wq bitsLt_bf16_f32)
    (constant (F := Ideal) S512x128 .f32 0x00000000#32)) (broadcastTo S512x128 bq broadcasts_S1x128_S512x128)
/-- The scores against every key. -/
def sB : FVec Ideal S512x4096 .f32 :=
  matmul dot_S512x128_S128x4096_S512x4096_1_0_0_1_n_n none (truncf .bf16 (qB x0 wq bq) bitsLt_bf16_f32) kt
    (constant (F := Ideal) S512x4096 .f32 0x00000000#32)
/-- Each row's maximum. -/
def mB : FVec Ideal S512 .f32 :=
  multiReduction (F := Ideal) .maximumf [1] S512 (sB x0 wq bq kt) 0xFF800000#32 reduces_S512x4096_S512 (.inl rfl) rfl
/-- The exponentials of the shifted scores. -/
def eB : FVec Ideal S512x4096 .f32 :=
  exp (subf (sB x0 wq bq kt) (broadcastTo S512x4096 (shapeCast S512x1 (mB x0 wq bq kt) shapeCasts_S512_S512x1) broadcasts_S512x1_S512x4096))
/-- Each row's sum of exponentials. -/
def lB : FVec Ideal S512 .f32 :=
  multiReduction (F := Ideal) .add [1] S512 (eB x0 wq bq kt) 0x00000000#32 reduces_S512x4096_S512 (.inl rfl) rfl
/-- The attention weights. -/
def pB : FVec Ideal S512x4096 .f32 :=
  divf (eB x0 wq bq kt) (broadcastTo S512x4096 (shapeCast S512x1 (lB x0 wq bq kt) shapeCasts_S512_S512x1) broadcasts_S512x1_S512x4096)
/-- The weights mixing the values. -/
def cB : FVec Ideal S512x128 .f32 :=
  matmul dot_S512x4096_S4096x128_S512x128_1_0_0_1_n_n none (truncf .bf16 (pB x0 wq bq kt) bitsLt_bf16_f32) vv
    (constant (F := Ideal) S512x128 .f32 0x00000000#32)
/-- Projected out, plus the block's rows: the rows before normalization. -/
def dB : FVec Ideal S512x128 .f32 :=
  addf (addf (matmul dot_S512x128_S128x128_S512x128_1_0_0_1_n_n none (truncf .bf16 (cB x0 wq bq kt vv) bitsLt_bf16_f32) (truncf .bf16 wd bitsLt_bf16_f32)
    (constant (F := Ideal) S512x128 .f32 0x00000000#32)) (broadcastTo S512x128 bd broadcasts_S1x128_S512x128)) x0

/-- The printed payload is that composition (its shape casts are between equal shapes). -/
theorem pay2_eq : k3_pay2 (F := Ideal) x0 wq bq kt vv wd bd = dB x0 wq bq kt vv wd bd := by
  unfold k3_pay2 dB cB pB lB eB mB sB qB
  simp only [shapeCast_self]

theorem qB_apply (p : Fin 512) (o : Fin 128) :
    qB x0 wq bq (ix2 p o) = Net.affine (X x0) (Wq wq) (Bq bq) p o := by
  unfold qB
  show matmul (F := Ideal) _ none _ _ _ (ix2 p o) + broadcastTo S512x128 bq broadcasts_S1x128_S512x128 (ix2 p o) = _
  rw [proj_apply, broadcastTo_1b_ab_apply]
  rfl

theorem sB_apply (p : Fin 512) (c : Fin 4096) :
    sB x0 wq bq kt (ix2 p c) = Net.scores (Net.affine (X x0) (Wq wq) (Bq bq)) (Kk kt) p c := by
  unfold sB
  rw [score_apply]
  unfold Net.scores
  refine Finset.sum_congr rfl fun j _ => ?_
  show qB x0 wq bq (ix2 p j) * kt (ix2 j c) = _
  rw [qB_apply]
  rfl

theorem mB_apply (p : Fin 512) :
    mB x0 wq bq kt (ix1 p) = Net.rowMax (Net.scores (Net.affine (X x0) (Wq wq) (Bq bq)) (Kk kt)) p := by
  unfold mB
  refine (rowMax_apply (sB x0 wq bq kt) reduces_S512x4096_S512 (.inl rfl) rfl p).trans ?_
  unfold Net.rowMax
  exact congrArg (fun f => (Finset.univ : Finset (Fin 4096)).fold max ⊥ f) (funext fun c => sB_apply x0 wq bq kt p c)

theorem eB_apply (p : Fin 512) (c : Fin 4096) :
    eB x0 wq bq kt (ix2 p c) = Net.expShift (Net.scores (Net.affine (X x0) (Wq wq) (Bq bq)) (Kk kt)) p c := by
  unfold eB
  show Ideal.exp (sB x0 wq bq kt (ix2 p c) - broadcastTo S512x4096 (shapeCast S512x1 (mB x0 wq bq kt) shapeCasts_S512_S512x1) broadcasts_S512x1_S512x4096 (ix2 p c)) = _
  rw [broadcastTo_a1_ab_apply, shapeCast_a_a1_apply, mB_apply, sB_apply]
  rfl

theorem lB_apply (p : Fin 512) :
    lB x0 wq bq kt (ix1 p) = ∑ c, Net.expShift (Net.scores (Net.affine (X x0) (Wq wq) (Bq bq)) (Kk kt)) p c := by
  unfold lB
  refine (rowSum_apply (eB x0 wq bq kt) _ reduces_S512x4096_S512 (.inl rfl) rfl p).trans ?_
  exact Finset.sum_congr rfl fun c _ => eB_apply x0 wq bq kt p c

theorem pB_apply (p : Fin 512) (c : Fin 4096) :
    pB x0 wq bq kt (ix2 p c) = Net.softmax (Net.scores (Net.affine (X x0) (Wq wq) (Bq bq)) (Kk kt)) p c := by
  unfold pB
  show Ideal.div (eB x0 wq bq kt (ix2 p c)) (broadcastTo S512x4096 (shapeCast S512x1 (lB x0 wq bq kt) shapeCasts_S512_S512x1) broadcasts_S512x1_S512x4096 (ix2 p c)) = _
  rw [broadcastTo_a1_ab_apply, shapeCast_a_a1_apply, lB_apply, eB_apply]
  rfl

theorem cB_apply (p : Fin 512) (j : Fin 128) :
    cB x0 wq bq kt vv (ix2 p j)
      = Net.mix (Net.softmax (Net.scores (Net.affine (X x0) (Wq wq) (Bq bq)) (Kk kt))) (Vv vv) p j := by
  unfold cB
  rw [mixv_apply]
  unfold Net.mix
  refine Finset.sum_congr rfl fun c _ => ?_
  show pB x0 wq bq kt (ix2 p c) * vv (ix2 c j) = _
  rw [pB_apply]
  rfl

theorem dB_apply (p : Fin 512) (j : Fin 128) :
    dB x0 wq bq kt vv wd bd (ix2 p j) = Net.preNorm (X x0) (Kk kt) (Vv vv) (Wq wq) (Wd wd) (Bq bq) (Bd bd) p j := by
  unfold dB
  show (matmul (F := Ideal) _ none _ _ _ (ix2 p j) + broadcastTo S512x128 bd broadcasts_S1x128_S512x128 (ix2 p j)) + x0 (ix2 p j) = _
  rw [proj_apply, broadcastTo_1b_ab_apply]
  unfold Net.preNorm Net.affine
  refine congrArg (· + x0 (ix2 p j)) (congrArg (· + bd (ix2 (0 : Fin 1) j)) (Finset.sum_congr rfl fun k _ => ?_))
  show cB x0 wq bq kt vv (ix2 p k) * wd (ix2 k j) = _
  rw [cB_apply]
  rfl

end Stages

/-! ## The normalization -/

section Norm

variable (y : FVec Ideal S512x128 .f32) (ys : FVec Ideal S512 .f32) (g b : FVec Ideal S1x128 .f32)

def Y : Fin 512 → Fin 128 → EReal := fun p j => y (ix2 p j)
def G : Fin 128 → EReal := fun j => g (ix2 (0 : Fin 1) j)
def B : Fin 128 → EReal := fun j => b (ix2 (0 : Fin 1) j)

/-- Each row's mean, from the row sums `ys`. -/
def meanB : FVec Ideal S512x1 .f32 :=
  divf (shapeCast S512x1 ys shapeCasts_S512_S512x1) (broadcast S512x1 (Scalar.ofBits (F := Ideal) .f32 0x43000000#32))
/-- The centred rows. -/
def cenB : FVec Ideal S512x128 .f32 := subf y (broadcastTo S512x128 (meanB ys) broadcasts_S512x1_S512x128)
/-- Each row's variance. -/
def varB : FVec Ideal S512x1 .f32 :=
  divf (shapeCast S512x1 (multiReduction (F := Ideal) .add [1] S512 (mulf (cenB y ys) (cenB y ys)) 0x00000000#32 reduces_S512x128_S512 (.inl rfl) rfl) shapeCasts_S512_S512x1)
    (broadcast S512x1 (Scalar.ofBits (F := Ideal) .f32 0x43000000#32))
/-- The normalized, scaled and shifted rows. -/
def outB : FVec Ideal S512x128 .f32 :=
  addf (mulf (mulf (cenB y ys) (broadcastTo S512x128 (rsqrt (addf (varB y ys) (broadcast S512x1 (Scalar.ofBits (F := Ideal) .f32 0x3727C5AC#32)))) broadcasts_S512x1_S512x128))
    (broadcastTo S512x128 g broadcasts_S1x128_S512x128)) (broadcastTo S512x128 b broadcasts_S1x128_S512x128)

/-- The printed payload takes the row sums itself. -/
theorem pay1_eq : k3_pay1 (F := Ideal) y g b
    = outB y (multiReduction (F := Ideal) .add [1] S512 y 0x00000000#32 reduces_S512x128_S512 (.inl rfl) rfl) g b := by
  unfold k3_pay1 outB varB cenB meanB
  simp only [shapeCast_self]

variable (hys : ∀ p : Fin 512, ys (ix1 p) = ∑ j : Fin 128, y (ix2 p j))
include hys

theorem meanB_apply (p : Fin 512) : meanB ys (ix2 p (0 : Fin 1)) = Net.mean n128 (Y y) p := by
  unfold meanB
  show Ideal.div (shapeCast S512x1 ys shapeCasts_S512_S512x1 (ix2 p (0 : Fin 1))) (Ideal.ofBits .f32 0x43000000#32) = _
  rw [shapeCast_a_a1_apply, hys]
  rfl

theorem cenB_apply (p : Fin 512) (j : Fin 128) : cenB y ys (ix2 p j) = Net.centered n128 (Y y) p j := by
  unfold cenB
  show y (ix2 p j) - broadcastTo S512x128 (meanB ys) broadcasts_S512x1_S512x128 (ix2 p j) = _
  rw [broadcastTo_a1_ab_apply, meanB_apply y ys hys]
  rfl

theorem varB_apply (p : Fin 512) : varB y ys (ix2 p (0 : Fin 1)) = Net.variance n128 (Y y) p := by
  unfold varB
  show Ideal.div (shapeCast S512x1 _ shapeCasts_S512_S512x1 (ix2 p (0 : Fin 1))) (Ideal.ofBits .f32 0x43000000#32) = _
  rw [shapeCast_a_a1_apply]
  unfold Net.variance
  refine congrArg (Ideal.div · n128) ((rowSum_apply (mulf (cenB y ys) (cenB y ys)) _ reduces_S512x128_S512 (.inl rfl) rfl p).trans (Finset.sum_congr rfl fun j _ => ?_))
  show cenB y ys (ix2 p j) * cenB y ys (ix2 p j) = _
  rw [cenB_apply y ys hys]

theorem outB_apply (p : Fin 512) (j : Fin 128) :
    outB y ys g b (ix2 p j) = Net.normMul n128 eps (Y y) (G g) (B b) p j := by
  unfold outB
  show (cenB y ys (ix2 p j) * broadcastTo S512x128 (rsqrt (addf (varB y ys) (broadcast S512x1 (Scalar.ofBits (F := Ideal) .f32 0x3727C5AC#32)))) broadcasts_S512x1_S512x128 (ix2 p j))
      * broadcastTo S512x128 g broadcasts_S1x128_S512x128 (ix2 p j) + broadcastTo S512x128 b broadcasts_S1x128_S512x128 (ix2 p j) = _
  rw [broadcastTo_a1_ab_apply, broadcastTo_1b_ab_apply, broadcastTo_1b_ab_apply, cenB_apply y ys hys]
  show (Net.centered n128 (Y y) p j * Ideal.rsqrt (varB y ys (ix2 p (0 : Fin 1)) + Ideal.ofBits .f32 0x3727C5AC#32)) * g (ix2 (0 : Fin 1) j) + b (ix2 (0 : Fin 1) j) = _
  rw [varB_apply y ys hys]
  rfl

end Norm

/-- THE BLOCK'S RESULT at `(p, j)`: the normalization (reciprocal-root form) of the attention rows. -/
theorem block_apply (x0 : FVec Ideal S512x128 .f32) (kt : FVec Ideal S128x4096 .bf16) (vv : FVec Ideal S4096x128 .bf16)
    (wq : FVec Ideal S128x128 .f32) (bq : FVec Ideal S1x128 .f32) (wd : FVec Ideal S128x128 .f32) (bd : FVec Ideal S1x128 .f32)
    (g b : FVec Ideal S1x128 .f32) (p : Fin 512) (j : Fin 128) :
    k3_pay1 (F := Ideal) (k3_pay2 x0 wq bq kt vv wd bd) g b (ix2 p j)
      = Net.normMul n128 eps (Net.preNorm (X x0) (Kk kt) (Vv vv) (Wq wq) (Wd wd) (Bq bq) (Bd bd)) (G g) (B b) p j := by
  have hs : ∀ p : Fin 512, (multiReduction (F := Ideal) .add [1] S512 (k3_pay2 (F := Ideal) x0 wq bq kt vv wd bd) 0x00000000#32 reduces_S512x128_S512 (.inl rfl) rfl) (ix1 p)
      = ∑ j : Fin 128, k3_pay2 (F := Ideal) x0 wq bq kt vv wd bd (ix2 p j) := fun p => rowSum_apply _ _ _ _ _ p
  rw [pay1_eq, outB_apply _ _ g b hs p j]
  have hY : Y (k3_pay2 (F := Ideal) x0 wq bq kt vv wd bd) = Net.preNorm (X x0) (Kk kt) (Vv vv) (Wq wq) (Wd wd) (Bq bq) (Bd bd) := by
    funext p j
    unfold Y
    rw [pay2_eq, dB_apply]
  rw [hY]

end Cert.AttnBody3

end
-- ==== Proof.AttnArray3.lean ====
/-
  An attention layer's result array, from its blocks of query rows.

  The grid has eight points; point `t` reads rows `512 t … 512 t + 511` of the layer's input and the whole of the keys,
  the values, the weights and the parameter rows, and writes back rows `512 t … 512 t + 511` of the result.  Since
  every stage acts row by row, what point `t` writes is the whole-array function read on its rows; the eight blocks
  tile the array, so the array ends holding that function.
-/
import proofs.«173113_j3470333575730_2_alg».proof.Proof.Gen.KernelIdeal.Frame
import proofs.«173113_j3470333575730_2_alg».proof.Proof.AttnBody3
import Idealize.ShloMosaic.Lib.Pipeline.Value

set_option maxRecDepth 16384

noncomputable section

namespace Cert.AttnArray3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `512 t + p` of the array. -/
def row (t : Fin 8) (p : Fin 512) : Fin 4096 := ⟨512 * t.val + p.val, by have := t.isLt; have := p.isLt; omega⟩

/-- The layer's result as one function of the arrays the region finds. -/
def result (c : Dev nD) : S4096x128.Idx → EReal := fun i =>
  Net.normMul AttnBody3.n128 AttnBody3.eps
    (Net.preNorm (fun r k => (V c main_v31 : S4096x128.Idx → EReal) (ix2 r k)) (AttnBody3.Kk (V c main_v62_0)) (AttnBody3.Vv (V c main_v62_1))
      (AttnBody3.Wq (V c main_v34)) (AttnBody3.Wd (V c main_v43)) (AttnBody3.Bq (V c main_v56)) (AttnBody3.Bd (V c main_v57)))
    (AttnBody3.G (V c main_v58)) (AttnBody3.B (V c main_v59)) (i 0) (i 1)

/-! ## The printed index maps, decided over the grid -/

theorem idx0 : ∀ t : Fin cfg3.N, win3_0.index t (0 : Fin 2) = t.val ∧ win3_0.index t (1 : Fin 2) = 0 :=
  (by decide +kernel : ∀ t : Fin grid3.N, _)
theorem idx9 : ∀ t : Fin cfg3.N, win3_9.index t (0 : Fin 2) = t.val ∧ win3_9.index t (1 : Fin 2) = 0 :=
  (by decide +kernel : ∀ t : Fin grid3.N, _)
theorem idx1 : ∀ t : Fin cfg3.N, win3_1.index t (0 : Fin 2) = 0 ∧ win3_1.index t (1 : Fin 2) = 0 :=
  (by decide +kernel : ∀ t : Fin grid3.N, _)
theorem idx2 : ∀ t : Fin cfg3.N, win3_2.index t (0 : Fin 2) = 0 ∧ win3_2.index t (1 : Fin 2) = 0 :=
  (by decide +kernel : ∀ t : Fin grid3.N, _)
theorem idx3 : ∀ t : Fin cfg3.N, win3_3.index t (0 : Fin 2) = 0 ∧ win3_3.index t (1 : Fin 2) = 0 :=
  (by decide +kernel : ∀ t : Fin grid3.N, _)
theorem idx4 : ∀ t : Fin cfg3.N, win3_4.index t (0 : Fin 2) = 0 ∧ win3_4.index t (1 : Fin 2) = 0 :=
  (by decide +kernel : ∀ t : Fin grid3.N, _)
theorem idx5 : ∀ t : Fin cfg3.N, win3_5.index t (0 : Fin 2) = 0 ∧ win3_5.index t (1 : Fin 2) = 0 :=
  (by decide +kernel : ∀ t : Fin grid3.N, _)
theorem idx6 : ∀ t : Fin cfg3.N, win3_6.index t (0 : Fin 2) = 0 ∧ win3_6.index t (1 : Fin 2) = 0 :=
  (by decide +kernel : ∀ t : Fin grid3.N, _)
theorem idx7 : ∀ t : Fin cfg3.N, win3_7.index t (0 : Fin 2) = 0 ∧ win3_7.index t (1 : Fin 2) = 0 :=
  (by decide +kernel : ∀ t : Fin grid3.N, _)
theorem idx8 : ∀ t : Fin cfg3.N, win3_8.index t (0 : Fin 2) = 0 ∧ win3_8.index t (1 : Fin 2) = 0 :=
  (by decide +kernel : ∀ t : Fin grid3.N, _)

/-! ## Each window's block -/

/-- The query block's row `p` is the input's row `512 t + p`. -/
theorem blk0 (c : Dev nD) (t : Fin cfg3.N) :
    AttnBody3.X (iblk3 V c 0 t) = fun p k => (V c main_v31 : S4096x128.Idx → EReal) (ix2 (row t p) k) := by
  obtain ⟨e0, e1⟩ := idx0 t
  funext p k
  unfold AttnBody3.X iblk3
  rw [View.read_apply]
  show V c main_v31 (((cfg3.win 0).blk t).view.emb (ix2 p k)) = V c main_v31 (ix2 (row t p) k)
  refine congrArg (V c main_v31) (funext fun a => Fin.ext ?_)
  match a with
  | ⟨0, _⟩ => show win3_0.index t (0 : Fin 2) * 512 + 1 * p.val = 512 * t.val + p.val; rw [e0]; omega
  | ⟨1, _⟩ => show win3_0.index t (1 : Fin 2) * 128 + 1 * k.val = k.val; rw [e1]; omega
/-- Window 1's block is its whole array at every point. -/
theorem blk1 (c : Dev nD) (t : Fin cfg3.N) : (iblk3 V c 1 t : S128x4096.Idx → EReal) = V c main_v62_0 := by
  obtain ⟨e0, e1⟩ := idx1 t
  funext j
  unfold iblk3
  rw [View.read_apply]
  show V c main_v62_0 (((cfg3.win 1).blk t).view.emb j) = V c main_v62_0 j
  refine congrArg (V c main_v62_0) (funext fun a => Fin.ext ?_)
  match a with
  | ⟨0, _⟩ => show win3_1.index t (0 : Fin 2) * 128 + 1 * (j 0).val = (j 0).val; rw [e0]; omega
  | ⟨1, _⟩ => show win3_1.index t (1 : Fin 2) * 4096 + 1 * (j 1).val = (j 1).val; rw [e1]; omega
/-- Window 2's block is its whole array at every point. -/
theorem blk2 (c : Dev nD) (t : Fin cfg3.N) : (iblk3 V c 2 t : S4096x128.Idx → EReal) = V c main_v62_1 := by
  obtain ⟨e0, e1⟩ := idx2 t
  funext j
  unfold iblk3
  rw [View.read_apply]
  show V c main_v62_1 (((cfg3.win 2).blk t).view.emb j) = V c main_v62_1 j
  refine congrArg (V c main_v62_1) (funext fun a => Fin.ext ?_)
  match a with
  | ⟨0, _⟩ => show win3_2.index t (0 : Fin 2) * 4096 + 1 * (j 0).val = (j 0).val; rw [e0]; omega
  | ⟨1, _⟩ => show win3_2.index t (1 : Fin 2) * 128 + 1 * (j 1).val = (j 1).val; rw [e1]; omega
/-- Window 3's block is its whole array at every point. -/
theorem blk3 (c : Dev nD) (t : Fin cfg3.N) : (iblk3 V c 3 t : S128x128.Idx → EReal) = V c main_v34 := by
  obtain ⟨e0, e1⟩ := idx3 t
  funext j
  unfold iblk3
  rw [View.read_apply]
  show V c main_v34 (((cfg3.win 3).blk t).view.emb j) = V c main_v34 j
  refine congrArg (V c main_v34) (funext fun a => Fin.ext ?_)
  match a with
  | ⟨0, _⟩ => show win3_3.index t (0 : Fin 2) * 128 + 1 * (j 0).val = (j 0).val; rw [e0]; omega
  | ⟨1, _⟩ => show win3_3.index t (1 : Fin 2) * 128 + 1 * (j 1).val = (j 1).val; rw [e1]; omega
/-- Window 4's block is its whole array at every point. -/
theorem blk4 (c : Dev nD) (t : Fin cfg3.N) : (iblk3 V c 4 t : S1x128.Idx → EReal) = V c main_v56 := by
  obtain ⟨e0, e1⟩ := idx4 t
  funext j
  unfold iblk3
  rw [View.read_apply]
  show V c main_v56 (((cfg3.win 4).blk t).view.emb j) = V c main_v56 j
  refine congrArg (V c main_v56) (funext fun a => Fin.ext ?_)
  match a with
  | ⟨0, _⟩ => show win3_4.index t (0 : Fin 2) * 1 + 1 * (j 0).val = (j 0).val; rw [e0]; omega
  | ⟨1, _⟩ => show win3_4.index t (1 : Fin 2) * 128 + 1 * (j 1).val = (j 1).val; rw [e1]; omega
/-- Window 5's block is its whole array at every point. -/
theorem blk5 (c : Dev nD) (t : Fin cfg3.N) : (iblk3 V c 5 t : S128x128.Idx → EReal) = V c main_v43 := by
  obtain ⟨e0, e1⟩ := idx5 t
  funext j
  unfold iblk3
  rw [View.read_apply]
  show V c main_v43 (((cfg3.win 5).blk t).view.emb j) = V c main_v43 j
  refine congrArg (V c main_v43) (funext fun a => Fin.ext ?_)
  match a with
  | ⟨0, _⟩ => show win3_5.index t (0 : Fin 2) * 128 + 1 * (j 0).val = (j 0).val; rw [e0]; omega
  | ⟨1, _⟩ => show win3_5.index t (1 : Fin 2) * 128 + 1 * (j 1).val = (j 1).val; rw [e1]; omega
/-- Window 6's block is its whole array at every point. -/
theorem blk6 (c : Dev nD) (t : Fin cfg3.N) : (iblk3 V c 6 t : S1x128.Idx → EReal) = V c main_v57 := by
  obtain ⟨e0, e1⟩ := idx6 t
  funext j
  unfold iblk3
  rw [View.read_apply]
  show V c main_v57 (((cfg3.win 6).blk t).view.emb j) = V c main_v57 j
  refine congrArg (V c main_v57) (funext fun a => Fin.ext ?_)
  match a with
  | ⟨0, _⟩ => show win3_6.index t (0 : Fin 2) * 1 + 1 * (j 0).val = (j 0).val; rw [e0]; omega
  | ⟨1, _⟩ => show win3_6.index t (1 : Fin 2) * 128 + 1 * (j 1).val = (j 1).val; rw [e1]; omega
/-- Window 7's block is its whole array at every point. -/
theorem blk7 (c : Dev nD) (t : Fin cfg3.N) : (iblk3 V c 7 t : S1x128.Idx → EReal) = V c main_v58 := by
  obtain ⟨e0, e1⟩ := idx7 t
  funext j
  unfold iblk3
  rw [View.read_apply]
  show V c main_v58 (((cfg3.win 7).blk t).view.emb j) = V c main_v58 j
  refine congrArg (V c main_v58) (funext fun a => Fin.ext ?_)
  match a with
  | ⟨0, _⟩ => show win3_7.index t (0 : Fin 2) * 1 + 1 * (j 0).val = (j 0).val; rw [e0]; omega
  | ⟨1, _⟩ => show win3_7.index t (1 : Fin 2) * 128 + 1 * (j 1).val = (j 1).val; rw [e1]; omega
/-- Window 8's block is its whole array at every point. -/
theorem blk8 (c : Dev nD) (t : Fin cfg3.N) : (iblk3 V c 8 t : S1x128.Idx → EReal) = V c main_v59 := by
  obtain ⟨e0, e1⟩ := idx8 t
  funext j
  unfold iblk3
  rw [View.read_apply]
  show V c main_v59 (((cfg3.win 8).blk t).view.emb j) = V c main_v59 j
  refine congrArg (V c main_v59) (funext fun a => Fin.ext ?_)
  match a with
  | ⟨0, _⟩ => show win3_8.index t (0 : Fin 2) * 1 + 1 * (j 0).val = (j 0).val; rw [e0]; omega
  | ⟨1, _⟩ => show win3_8.index t (1 : Fin 2) * 128 + 1 * (j 1).val = (j 1).val; rw [e1]; omega

/-! ## What a point writes back, the cover, the array -/

/-- WHAT POINT `t` WRITES BACK is block `t` of `result`. -/
theorem flushed_eq (c : Dev nD) (t : Fin cfg3.N) :
    (dat3 V c).flushed 9 t = ((cfg3.win 9).blk t).view.read (Elt Ideal) (result V c) := by
  show (cfg3.win 9).cut (grid3.coords t) ((dat3 V c).after 9 t) = _
  rw [after3_9]
  unfold out3_9
  rw [View.canon_unit_zero hz]
  simp only [View.ld_unit_zero (S := S512x128) hz, View.ld_unit_zero (S := S128x128) hz, View.ld_unit_zero (S := S1x128) hz,
    View.ld_unit_zero (S := S128x4096) hz, View.ld_unit_zero (S := S4096x128) hz]
  obtain ⟨e0, e1⟩ := idx9 t
  funext j
  obtain ⟨p, q, rfl⟩ : ∃ (p : Fin 512) (q : Fin 128), j = ix2 p q := ⟨j 0, j 1, eq_ix2 j⟩
  have he : ((cfg3.win 9).blk t).view.emb (ix2 p q) = ix2 (row t p) q := funext fun a => Fin.ext (by
    match a with
    | ⟨0, _⟩ => show win3_9.index t (0 : Fin 2) * 512 + 1 * p.val = 512 * t.val + p.val; rw [e0]; omega
    | ⟨1, _⟩ => show win3_9.index t (1 : Fin 2) * 128 + 1 * q.val = q.val; rw [e1]; omega)
  rw [View.read_apply, he]
  refine (AttnBody3.block_apply (iblk3 V c 0 t) (iblk3 V c 1 t) (iblk3 V c 2 t) (iblk3 V c 3 t) (iblk3 V c 4 t)
    (iblk3 V c 5 t) (iblk3 V c 6 t) (iblk3 V c 7 t) (iblk3 V c 8 t) p q).trans ?_
  rw [blk0 V c t, blk1 V c t, blk2 V c t, blk3 V c t, blk4 V c t, blk5 V c t, blk6 V c t, blk7 V c t, blk8 V c t]
  rfl

/-- An index of the array is in point `t`'s block iff each coordinate is in the block's range on its axis. -/
theorem mem_blk (t : Fin cfg3.N) (i : S4096x128.Idx) :
    i ∈ ((cfg3.win 9).blk t).view.set ↔ ∀ a : Fin 2, win3_9.index t a * S512x128.size a ≤ (i a).val ∧ (i a).val < win3_9.index t a * S512x128.size a + S512x128.size a := by
  show i ∈ ((View.whole main_v63).slice (win3_9.rect t)).set ↔ _
  rw [View.set_slice_whole, Rect.mem_set_unit]
  exact Iff.rfl

/-- Row `r` is in the block of point `r / 512`. -/
theorem cover (i : S4096x128.Idx) : ∃ t : Fin cfg3.N, (cfg3.win 9).flush t = true ∧ i ∈ ((cfg3.win 9).blk t).view.set := by
  have hi0 : (i 0).val < 4096 := (i 0).isLt
  have hi1 : (i 1).val < 128 := (i 1).isLt
  have ht : (i 0).val / 512 < 8 := by omega
  refine ⟨⟨(i 0).val / 512, ht⟩, flush3_9 _, ?_⟩
  obtain ⟨e0, e1⟩ := idx9 ⟨(i 0).val / 512, ht⟩
  rw [mem_blk]
  intro a
  match a with
  | ⟨0, _⟩ =>
    show win3_9.index ⟨(i 0).val / 512, ht⟩ (0 : Fin 2) * 512 ≤ (i 0).val ∧ (i 0).val < win3_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win3_9.index ⟨(i 0).val / 512, ht⟩ (1 : Fin 2) * 128 ≤ (i 1).val ∧ (i 1).val < win3_9.index ⟨(i 0).val / 512, ht⟩ (1 : Fin 2) * 128 + 128
    rw [e1]; omega

/-- THE ARRAY after the region. -/
theorem final (c : Dev nD) : (dat3 V c).arrAt 9 cfg3.N = result V c :=
  (dat3 V c).arrAt_eq_of_cover 9 (result V c) (fun t _ => flushed_eq V c t) (cover)

end Cert.AttnArray3

end
-- ==== Proof.Chain2.lean ====
/-
  Attention layer 2 of the network, from the launch memory to its result array.

  The layer's weights are entry `1` of the stacked parameter arrays, transposed by host operations before the
  layer's two regions; its bias and scale rows are row `1` of the two-row parameter arrays.  The first region
  leaves the keys and values as linear layers of the layer's input, the second the attention rows normalized; read
  back through the buffers' contents at each boundary, the result array is the one function `Layer.mul 1` of the
  layer's input and the parameter arrays.
-/
import proofs.«173113_j3470333575730_2_alg».proof.Proof.Gen.KernelIdeal.Frame
import proofs.«173113_j3470333575730_2_alg».proof.Proof.KvArray2
import proofs.«173113_j3470333575730_2_alg».proof.Proof.AttnArray3
import proofs.«173113_j3470333575730_2_alg».proof.Proof.Layer
import proofs.«173113_j3470333575730_2_alg».proof.Proof.Layouts
import Idealize.ShloMosaic.Lib.StableHlo.Run

set_option maxRecDepth 16384

noncomputable section

namespace Cert.Chain2

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The parameter arrays where the layer's host operations read them -/

theorem win_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem win_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem win_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem win_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem win_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem win_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem win_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem win_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem win_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem win_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## What the host operations hand the two regions -/

theorem x_entry (c : Dev nD) : (V4 m ρ c main_v31 : S4096x128.Idx → EReal) = (V3 m ρ c main_v31 : S4096x128.Idx → EReal) := by
  show W4 m ρ c (Proc.devRef .tc main_v31) = W3 m ρ c (Proc.devRef .tc main_v31)
  exact StableHlo.after_of_forall_not_mem (b := Proc.devRef .tc main_v31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The transposed weight at `(k, o)` is the stack at `(1, o, k)`. -/
theorem wq_read (c : Dev nD) (k o : Fin 128) :
    (V4 m ρ c main_v34 : S128x128.Idx → EReal) (ix2 k o) = (m ((c : Thread nD τ).loc main_arg2) : S2x128x128.Idx → EReal) (ix3 (1 : Fin 2) o k) := by
  show StableHlo.after hostOps2 (W3 m ρ c) (Proc.devRef .tc main_v34) (ix2 k o) = _
  after_results
  rw [win_arg2 m ρ c]
  exact Layouts.stackT_apply _ (1 : Fin 2) _ _ _ k o

/-- The transposed weight at `(k, o)` is the stack at `(1, o, k)`. -/
theorem wk_read (c : Dev nD) (k o : Fin 128) :
    (V4 m ρ c main_v37 : S128x128.Idx → EReal) (ix2 k o) = (m ((c : Thread nD τ).loc main_arg4) : S2x128x128.Idx → EReal) (ix3 (1 : Fin 2) o k) := by
  show StableHlo.after hostOps2 (W3 m ρ c) (Proc.devRef .tc main_v37) (ix2 k o) = _
  after_results
  rw [win_arg4 m ρ c]
  exact Layouts.stackT_apply _ (1 : Fin 2) _ _ _ k o

/-- The transposed weight at `(k, o)` is the stack at `(1, o, k)`. -/
theorem wv_read (c : Dev nD) (k o : Fin 128) :
    (V4 m ρ c main_v40 : S128x128.Idx → EReal) (ix2 k o) = (m ((c : Thread nD τ).loc main_arg6) : S2x128x128.Idx → EReal) (ix3 (1 : Fin 2) o k) := by
  show StableHlo.after hostOps2 (W3 m ρ c) (Proc.devRef .tc main_v40) (ix2 k o) = _
  after_results
  rw [win_arg6 m ρ c]
  exact Layouts.stackT_apply _ (1 : Fin 2) _ _ _ k o

/-- The transposed weight at `(k, o)` is the stack at `(1, o, k)`. -/
theorem wd_read (c : Dev nD) (k o : Fin 128) :
    (V4 m ρ c main_v43 : S128x128.Idx → EReal) (ix2 k o) = (m ((c : Thread nD τ).loc main_arg8) : S2x128x128.Idx → EReal) (ix3 (1 : Fin 2) o k) := by
  show StableHlo.after hostOps2 (W3 m ρ c) (Proc.devRef .tc main_v43) (ix2 k o) = _
  after_results
  rw [win_arg8 m ρ c]
  exact Layouts.stackT_apply _ (1 : Fin 2) _ _ _ k o

/-- The parameter row at `(0, o)` is the two-row array at `(1, o)`. -/
theorem bq_read (c : Dev nD) (o : Fin 128) :
    (V4 m ρ c main_v56 : S1x128.Idx → EReal) (ix2 (0 : Fin 1) o) = (m ((c : Thread nD τ).loc main_arg3) : S2x128.Idx → EReal) (ix2 (1 : Fin 2) o) := by
  show StableHlo.after hostOps2 (W3 m ρ c) (Proc.devRef .tc main_v56) (ix2 (0 : Fin 1) o) = _
  after_results
  rw [win_arg3 m ρ c]
  exact Layouts.rowOf_apply _ (1 : Fin 2) _ _ _ o

/-- The parameter row at `(0, o)` is the two-row array at `(1, o)`. -/
theorem bk_read (c : Dev nD) (o : Fin 128) :
    (V4 m ρ c main_v60 : S1x128.Idx → EReal) (ix2 (0 : Fin 1) o) = (m ((c : Thread nD τ).loc main_arg5) : S2x128.Idx → EReal) (ix2 (1 : Fin 2) o) := by
  show StableHlo.after hostOps2 (W3 m ρ c) (Proc.devRef .tc main_v60) (ix2 (0 : Fin 1) o) = _
  after_results
  rw [win_arg5 m ρ c]
  exact Layouts.rowOf_apply _ (1 : Fin 2) _ _ _ o

/-- The parameter row at `(0, o)` is the two-row array at `(1, o)`. -/
theorem bv_read (c : Dev nD) (o : Fin 128) :
    (V4 m ρ c main_v61 : S1x128.Idx → EReal) (ix2 (0 : Fin 1) o) = (m ((c : Thread nD τ).loc main_arg7) : S2x128.Idx → EReal) (ix2 (1 : Fin 2) o) := by
  show StableHlo.after hostOps2 (W3 m ρ c) (Proc.devRef .tc main_v61) (ix2 (0 : Fin 1) o) = _
  after_results
  rw [win_arg7 m ρ c]
  exact Layouts.rowOf_apply _ (1 : Fin 2) _ _ _ o

/-- The parameter row at `(0, o)` is the two-row array at `(1, o)`. -/
theorem bd_read (c : Dev nD) (o : Fin 128) :
    (V4 m ρ c main_v57 : S1x128.Idx → EReal) (ix2 (0 : Fin 1) o) = (m ((c : Thread nD τ).loc main_arg9) : S2x128.Idx → EReal) (ix2 (1 : Fin 2) o) := by
  show StableHlo.after hostOps2 (W3 m ρ c) (Proc.devRef .tc main_v57) (ix2 (0 : Fin 1) o) = _
  after_results
  rw [win_arg9 m ρ c]
  exact Layouts.rowOf_apply _ (1 : Fin 2) _ _ _ o

/-- The parameter row at `(0, o)` is the two-row array at `(1, o)`. -/
theorem g_read (c : Dev nD) (o : Fin 128) :
    (V4 m ρ c main_v58 : S1x128.Idx → EReal) (ix2 (0 : Fin 1) o) = (m ((c : Thread nD τ).loc main_arg10) : S2x128.Idx → EReal) (ix2 (1 : Fin 2) o) := by
  show StableHlo.after hostOps2 (W3 m ρ c) (Proc.devRef .tc main_v58) (ix2 (0 : Fin 1) o) = _
  after_results
  rw [win_arg10 m ρ c]
  exact Layouts.rowOf_apply _ (1 : Fin 2) _ _ _ o

/-- The parameter row at `(0, o)` is the two-row array at `(1, o)`. -/
theorem b_read (c : Dev nD) (o : Fin 128) :
    (V4 m ρ c main_v59 : S1x128.Idx → EReal) (ix2 (0 : Fin 1) o) = (m ((c : Thread nD τ).loc main_arg11) : S2x128.Idx → EReal) (ix2 (1 : Fin 2) o) := by
  show StableHlo.after hostOps2 (W3 m ρ c) (Proc.devRef .tc main_v59) (ix2 (0 : Fin 1) o) = _
  after_results
  rw [win_arg11 m ρ c]
  exact Layouts.rowOf_apply _ (1 : Fin 2) _ _ _ o

/-! ## The first region: keys and values -/

/-- The layer's input rows. -/
abbrev X (c : Dev nD) : Fin 4096 → Fin 128 → EReal := fun r k => (V3 m ρ c main_v31 : S4096x128.Idx → EReal) (ix2 r k)

theorem eX (c : Dev nD) : KvBody2.X (V4 m ρ c main_v31) = X m ρ c := by
  funext r k
  unfold KvBody2.X
  rw [x_entry m ρ c]
theorem eWk (c : Dev nD) : KvBody2.W (V4 m ρ c main_v37) = fun o k => (m ((c : Thread nD τ).loc main_arg4) : S2x128x128.Idx → EReal) (ix3 (1 : Fin 2) o k) := by
  funext o k; unfold KvBody2.W; exact wk_read m ρ c k o
theorem eWv (c : Dev nD) : KvBody2.W (V4 m ρ c main_v40) = fun o k => (m ((c : Thread nD τ).loc main_arg6) : S2x128x128.Idx → EReal) (ix3 (1 : Fin 2) o k) := by
  funext o k; unfold KvBody2.W; exact wv_read m ρ c k o
theorem eBk (c : Dev nD) : KvBody2.Bi (V4 m ρ c main_v60) = fun o => (m ((c : Thread nD τ).loc main_arg5) : S2x128.Idx → EReal) (ix2 (1 : Fin 2) o) := by
  funext o; unfold KvBody2.Bi; exact bk_read m ρ c o
theorem eBv (c : Dev nD) : KvBody2.Bi (V4 m ρ c main_v61) = fun o => (m ((c : Thread nD τ).loc main_arg7) : S2x128.Idx → EReal) (ix2 (1 : Fin 2) o) := by
  funext o; unfold KvBody2.Bi; exact bv_read m ρ c o

/-- The keys the second region finds. -/
theorem hK (c : Dev nD) : AttnBody3.Kk (V5 m ρ c main_v62_0)
    = Net.affine (X m ρ c) (fun o k => (m ((c : Thread nD τ).loc main_arg4) : S2x128x128.Idx → EReal) (ix3 (1 : Fin 2) o k)) (fun o => (m ((c : Thread nD τ).loc main_arg5) : S2x128.Idx → EReal) (ix2 (1 : Fin 2) o)) := by
  have h : V5 m ρ c main_v62_0 = KvArray2.keys (V4 m ρ) c := (hF2 m ρ c 5).symm.trans (KvArray2.final5 (V4 m ρ) c)
  funext cc j
  unfold AttnBody3.Kk
  rw [h]
  unfold KvArray2.keys
  rw [eX m ρ c, eWk m ρ c, eBk m ρ c]
/-- The values the second region finds. -/
theorem hV (c : Dev nD) : AttnBody3.Vv (V5 m ρ c main_v62_1)
    = Net.affine (X m ρ c) (fun o k => (m ((c : Thread nD τ).loc main_arg6) : S2x128x128.Idx → EReal) (ix3 (1 : Fin 2) o k)) (fun o => (m ((c : Thread nD τ).loc main_arg7) : S2x128.Idx → EReal) (ix2 (1 : Fin 2) o)) := by
  have h : V5 m ρ c main_v62_1 = KvArray2.values (V4 m ρ) c := (hF2 m ρ c 6).symm.trans (KvArray2.final6 (V4 m ρ) c)
  funext cc j
  unfold AttnBody3.Vv
  rw [h]
  unfold KvArray2.values
  rw [eX m ρ c, eWv m ρ c, eBv m ρ c]

/-! ## The second region's other operands: untouched by the first -/

theorem keep_wq (c : Dev nD) : W5 m ρ c (Proc.devRef .tc main_v34) = W4 m ρ c (Proc.devRef .tc main_v34) := W5_of_ne m ρ c main_v34 (by decide)
theorem keep_wd (c : Dev nD) : W5 m ρ c (Proc.devRef .tc main_v43) = W4 m ρ c (Proc.devRef .tc main_v43) := W5_of_ne m ρ c main_v43 (by decide)
theorem keep_bq (c : Dev nD) : W5 m ρ c (Proc.devRef .tc main_v56) = W4 m ρ c (Proc.devRef .tc main_v56) := W5_of_ne m ρ c main_v56 (by decide)
theorem keep_bd (c : Dev nD) : W5 m ρ c (Proc.devRef .tc main_v57) = W4 m ρ c (Proc.devRef .tc main_v57) := W5_of_ne m ρ c main_v57 (by decide)
theorem keep_g (c : Dev nD) : W5 m ρ c (Proc.devRef .tc main_v58) = W4 m ρ c (Proc.devRef .tc main_v58) := W5_of_ne m ρ c main_v58 (by decide)
theorem keep_b (c : Dev nD) : W5 m ρ c (Proc.devRef .tc main_v59) = W4 m ρ c (Proc.devRef .tc main_v59) := W5_of_ne m ρ c main_v59 (by decide)

theorem keep_x (c : Dev nD) : W5 m ρ c (Proc.devRef .tc main_v31) = W4 m ρ c (Proc.devRef .tc main_v31) :=
  (W5_arr m ρ c 0).trans (((dat2 (V4 m ρ) c).arrAt_in 0 rfl _).trans (A_eq2 (V4 m ρ) c 0))

theorem hX (c : Dev nD) : (fun r k => (V5 m ρ c main_v31 : S4096x128.Idx → EReal) (ix2 r k)) = X m ρ c := by
  funext r k
  show W5 m ρ c (Proc.devRef .tc main_v31) (ix2 r k) = _
  rw [keep_x m ρ c]
  show (V4 m ρ c main_v31 : S4096x128.Idx → EReal) (ix2 r k) = _
  rw [x_entry m ρ c]
theorem hWq (c : Dev nD) : AttnBody3.Wq (V5 m ρ c main_v34) = fun o k => (m ((c : Thread nD τ).loc main_arg2) : S2x128x128.Idx → EReal) (ix3 (1 : Fin 2) o k) := by
  funext o k; unfold AttnBody3.Wq
  show W5 m ρ c (Proc.devRef .tc main_v34) (ix2 k o) = _
  rw [keep_wq m ρ c]; exact wq_read m ρ c k o
theorem hWd (c : Dev nD) : AttnBody3.Wd (V5 m ρ c main_v43) = fun o k => (m ((c : Thread nD τ).loc main_arg8) : S2x128x128.Idx → EReal) (ix3 (1 : Fin 2) o k) := by
  funext o k; unfold AttnBody3.Wd
  show W5 m ρ c (Proc.devRef .tc main_v43) (ix2 k o) = _
  rw [keep_wd m ρ c]; exact wd_read m ρ c k o
theorem hBq (c : Dev nD) : AttnBody3.Bq (V5 m ρ c main_v56) = fun o => (m ((c : Thread nD τ).loc main_arg3) : S2x128.Idx → EReal) (ix2 (1 : Fin 2) o) := by
  funext o; unfold AttnBody3.Bq
  show W5 m ρ c (Proc.devRef .tc main_v56) (ix2 (0 : Fin 1) o) = _
  rw [keep_bq m ρ c]; exact bq_read m ρ c o
theorem hBd (c : Dev nD) : AttnBody3.Bd (V5 m ρ c main_v57) = fun o => (m ((c : Thread nD τ).loc main_arg9) : S2x128.Idx → EReal) (ix2 (1 : Fin 2) o) := by
  funext o; unfold AttnBody3.Bd
  show W5 m ρ c (Proc.devRef .tc main_v57) (ix2 (0 : Fin 1) o) = _
  rw [keep_bd m ρ c]; exact bd_read m ρ c o
theorem hG (c : Dev nD) : AttnBody3.G (V5 m ρ c main_v58) = fun o => (m ((c : Thread nD τ).loc main_arg10) : S2x128.Idx → EReal) (ix2 (1 : Fin 2) o) := by
  funext o; unfold AttnBody3.G
  show W5 m ρ c (Proc.devRef .tc main_v58) (ix2 (0 : Fin 1) o) = _
  rw [keep_g m ρ c]; exact g_read m ρ c o
theorem hB (c : Dev nD) : AttnBody3.B (V5 m ρ c main_v59) = fun o => (m ((c : Thread nD τ).loc main_arg11) : S2x128.Idx → EReal) (ix2 (1 : Fin 2) o) := by
  funext o; unfold AttnBody3.B
  show W5 m ρ c (Proc.devRef .tc main_v59) (ix2 (0 : Fin 1) o) = _
  rw [keep_b m ρ c]; exact b_read m ρ c o

/-! ## The layer's result array -/

/-- THE LAYER: its result array at `(r, j)` is `Layer.mul 1` of its input rows and the parameter arrays. -/
theorem layer_eq (c : Dev nD) (r : Fin 4096) (j : Fin 128) :
    (V6 m ρ c main_v63 : S4096x128.Idx → EReal) (ix2 r j)
      = Layer.mul (1 : Fin 2) (X m ρ c) (m ((c : Thread nD τ).loc main_arg2) : S2x128x128.Idx → EReal) (m ((c : Thread nD τ).loc main_arg4) : S2x128x128.Idx → EReal) (m ((c : Thread nD τ).loc main_arg6) : S2x128x128.Idx → EReal) (m ((c : Thread nD τ).loc main_arg8) : S2x128x128.Idx → EReal)
          (m ((c : Thread nD τ).loc main_arg3) : S2x128.Idx → EReal) (m ((c : Thread nD τ).loc main_arg5) : S2x128.Idx → EReal) (m ((c : Thread nD τ).loc main_arg7) : S2x128.Idx → EReal) (m ((c : Thread nD τ).loc main_arg9) : S2x128.Idx → EReal) (m ((c : Thread nD τ).loc main_arg10) : S2x128.Idx → EReal) (m ((c : Thread nD τ).loc main_arg11) : S2x128.Idx → EReal) r j := by
  have h : V6 m ρ c main_v63 = AttnArray3.result (V5 m ρ) c := (hF3 m ρ c 9).symm.trans (AttnArray3.final (V5 m ρ) c)
  rw [h]
  unfold AttnArray3.result
  rw [hX m ρ c, hK m ρ c, hV m ρ c, hWq m ρ c, hWd m ρ c, hBq m ρ c, hBd m ρ c, hG m ρ c, hB m ρ c]
  rfl

end Cert.Chain2

end
-- ==== Proof.EdgeBody.lean ====
/-
  The edge network's body, read at an index, on the extended reals.

  The body holds each weight matrix transposed (`k×n` for a layer from `k` features to `n`), so a layer is the plain
  product of the rows with that array into a zero accumulator, plus the bias row repeated down the rows: `x Wᵀ + b`.
  A change of format is the identity on the extended reals, and the maximum with the zero splat is `max · 0`.
  Reading the three values the body computes — the first residual block, the second block's hidden layer, and the
  stored result — at an index gives the network `Cert.Net.edgeMlp` of the rows.
-/
import proofs.«173113_j3470333575730_2_alg».proof.Proof.Gen.KernelIdeal.Skeleton
import proofs.«173113_j3470333575730_2_alg».proof.Proof.Net
import Idealize.ShloMosaic.Lib.ValueIdx
import Idealize.ShloMosaic.Lib.Pipeline.Value
import Idealize.ShloMosaic.Lib.ValueLayout
import Idealize.ShloMosaic.PureOps.Ideal.Laws

noncomputable section

namespace Cert.EdgeBody

open Idealize.ShloMosaic Idealize.ShloMosaic.ValueIdx Cert.KernelIdeal Cert.KernelIdeal.Gen

/-! ## A plain product read at an index -/

/-- The left operand's index of a plain `m×k` by `k×n` product keeps the output's row … -/
theorem plain_lhs_row {m k n : Nat} (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- … and the right operand's index the output's column. -/
theorem plain_rhs_col {m k n : Nat} (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- At output `(p, o)` and contraction position `c` the left operand is read at `(p, c)`. -/
theorem plain_lhsIdx {m k n : Nat} (p : Fin m) (o : Fin n) (c : Fin k) :
    (DotDims.plain m k n).lhsIdx (ix2 p o) ((contrEquiv1 (DotDims.plain m k n) k rfl rfl).symm c) = ix2 p c :=
  funext fun ax => Fin.ext (by
    match ax with
    | ⟨0, _⟩ => exact plain_lhs_row _ _
    | ⟨1, _⟩ =>
      exact ((DotDims.plain m k n).lhsIdx_val_of_single rfl _ _).trans (contrEquiv1_symm_val (DotDims.plain m k n) k rfl rfl c))

/-- There the right operand is read at `(c, o)`. -/
theorem plain_rhsIdx {m k n : Nat} (p : Fin m) (o : Fin n) (c : Fin k) :
    (DotDims.plain m k n).rhsIdx (ix2 p o) ((contrEquiv1 (DotDims.plain m k n) k rfl rfl).symm c) = ix2 c o :=
  funext fun ax => Fin.ext (by
    match ax with
    | ⟨0, _⟩ =>
      exact ((DotDims.plain m k n).rhsIdx_val_of_single rfl _ _).trans (contrEquiv1_symm_val (DotDims.plain m k n) k rfl rfl c)
    | ⟨1, _⟩ => exact plain_rhs_col _ _)

/-- A plain `m×k` by `k×n` product accumulated into the zero splat, read at `(p, o)`: the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (p : Fin m) (o : Fin n) :
    matmul (DotDims.plain m k n) prec A B (constant (F := Ideal) ⟨2, ![m, n]⟩ .f32 0x00000000#32) (ix2 p o)
      = ∑ c : Fin k, A (ix2 p c) * B (ix2 c o) := by
  show FloatOps.matmul _ prec A B _ (ix2 p o) = _
  rw [Ideal.matmul_constant_zero_apply, ← Equiv.sum_comp (contrEquiv1 (DotDims.plain m k n) k rfl rfl).symm]
  refine Finset.sum_congr rfl fun c _ => ?_
  rw [plain_lhsIdx, plain_rhsIdx]

/-- The two products of the edge network are plain ones. -/
theorem dot256_eq : dot_S1008x256_S256x256_S1008x256_1_0_0_1_n_n = DotDims.plain 1008 256 256 := rfl
theorem dot4_eq : dot_S1008x256_S256x4_S1008x4_1_0_0_1_n_n = DotDims.plain 1008 256 4 := rfl

/-! ## A linear layer and the rectifier read at an index -/

/-- A linear layer read at `(p, o)`: the product of the rows `X` with the weights `W` (held as `k×n`, the
    transposed matrix) into the zero accumulator, plus the bias row broadcast down the rows, is `x Wᵀ + b` there. -/
theorem linear_apply {m k n : Nat} (X : FVec Ideal ⟨2, ![m, k]⟩ .bf16) (W : FVec Ideal ⟨2, ![k, n]⟩ .f32)
    (bias : FVec Ideal ⟨2, ![1, n]⟩ .f32) (hB : (⟨2, ![1, n]⟩ : Shape).Broadcasts ⟨2, ![m, n]⟩)
    (hlt : FTy.bits .bf16 < FTy.bits .f32) (p : Fin m) (o : Fin n) :
    addf (matmul (DotDims.plain m k n) none X (truncf .bf16 W hlt)
        (constant (F := Ideal) ⟨2, ![m, n]⟩ .f32 0x00000000#32))
      (broadcastTo ⟨2, ![m, n]⟩ bias hB) (ix2 p o)
    = Cert.Net.affine (fun p c => X (ix2 p c)) (fun o c => W (ix2 c o)) (fun o => bias (ix2 (0 : Fin 1) o)) p o := by
  rw [addf_apply, matmul_plain_zero_apply, broadcastTo_1b_ab_apply]
  rfl

/-- The maximum with the zero splat, read at an index, is `max · 0`. -/
theorem max_zero_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A rectified 256→256 layer of the edge network, read at `(p, o)`. -/
theorem layer_apply (X : FVec Ideal S1008x256 .bf16) (W : Vec Ideal S256x256 .f32) (b : Vec Ideal S1x256 .f32)
    (p : Fin 1008) (o : Fin 256) :
    maximumf (addf (matmul dot_S1008x256_S256x256_S1008x256_1_0_0_1_n_n none X (truncf .bf16 W bitsLt_bf16_f32)
          (constant (F := Ideal) S1008x256 .f32 0x00000000#32))
        (broadcastTo S1008x256 b broadcasts_S1x256_S1008x256))
      (broadcast S1008x256 (Scalar.ofBits (F := Ideal) .f32 0x00000000#32)) (ix2 p o)
    = Cert.Net.relu (Cert.Net.affine (fun p c => X (ix2 p c)) (fun o c => W (ix2 c o)) (fun o => b (ix2 (0 : Fin 1) o))) p o := by
  rw [max_zero_apply, dot256_eq]
  exact congrArg (max · 0) (linear_apply X W b _ _ p o)

/-- The final 256→4 layer, read at `(p, o)`. -/
theorem final_apply (X : FVec Ideal S1008x256 .bf16) (W : Vec Ideal S256x4 .f32) (b : Vec Ideal S1x4 .f32)
    (p : Fin 1008) (o : Fin 4) :
    addf (matmul dot_S1008x256_S256x4_S1008x4_1_0_0_1_n_n none X (truncf .bf16 W bitsLt_bf16_f32)
        (constant (F := Ideal) S1008x4 .f32 0x00000000#32))
      (broadcastTo S1008x4 b broadcasts_S1x4_S1008x4) (ix2 p o)
    = Cert.Net.affine (fun p c => X (ix2 p c)) (fun o c => W (ix2 c o)) (fun o => b (ix2 (0 : Fin 1) o)) p o := by
  rw [dot4_eq]
  exact linear_apply X W b _ _ p o

/-! ## The body's three payloads -/

/-- The first residual block, read at `(p, j)`. -/
theorem pay2_apply (f : Vec Ideal S1008x256 .f32) (w11 : Vec Ideal S256x256 .f32) (b11 : Vec Ideal S1x256 .f32)
    (w12 : Vec Ideal S256x256 .f32) (b12 : Vec Ideal S1x256 .f32) (p : Fin 1008) (j : Fin 256) :
    k4_pay2 f w11 b11 w12 b12 (ix2 p j)
      = Cert.Net.resBlock (fun p k => f (ix2 p k)) (fun o k => w11 (ix2 k o)) (fun o k => w12 (ix2 k o))
          (fun o => b11 (ix2 (0 : Fin 1) o)) (fun o => b12 (ix2 (0 : Fin 1) o)) p j := by
  unfold k4_pay2
  simp only [shapeCast_self]
  simp only [addf_apply, layer_apply, truncf_apply]
  rfl

/-- The second block's hidden layer, read at `(p, j)`. -/
theorem pay3_apply (f : Vec Ideal S1008x256 .f32) (w11 : Vec Ideal S256x256 .f32) (b11 : Vec Ideal S1x256 .f32)
    (w12 : Vec Ideal S256x256 .f32) (b12 : Vec Ideal S1x256 .f32) (w21 : Vec Ideal S256x256 .f32)
    (b21 : Vec Ideal S1x256 .f32) (p : Fin 1008) (j : Fin 256) :
    k4_pay3 f w11 b11 w12 b12 w21 b21 (ix2 p j)
      = Cert.Net.relu (Cert.Net.affine
          (Cert.Net.resBlock (fun p k => f (ix2 p k)) (fun o k => w11 (ix2 k o)) (fun o k => w12 (ix2 k o))
            (fun o => b11 (ix2 (0 : Fin 1) o)) (fun o => b12 (ix2 (0 : Fin 1) o)))
          (fun o k => w21 (ix2 k o)) (fun o => b21 (ix2 (0 : Fin 1) o))) p j := by
  unfold k4_pay3
  simp only [shapeCast_self]
  simp only [layer_apply, truncf_apply, pay2_apply]

/-- The stored value, read at `(p, o)`, from the first block's value `g` and the second block's hidden layer `h`. -/
theorem pay1_apply (g : FVec Ideal S1008x256 .f32) (h : FVec Ideal S1008x256 .bf16) (w22 : Vec Ideal S256x256 .f32)
    (b22 : Vec Ideal S1x256 .f32) (wf : Vec Ideal S256x4 .f32) (bf : Vec Ideal S1x4 .f32) (p : Fin 1008) (o : Fin 4) :
    k4_pay1 g h w22 b22 wf bf (ix2 p o)
      = Cert.Net.affine
          (fun p j => Cert.Net.relu (Cert.Net.affine (fun p c => h (ix2 p c)) (fun o k => w22 (ix2 k o))
            (fun o => b22 (ix2 (0 : Fin 1) o))) p j + g (ix2 p j))
          (fun o k => wf (ix2 k o)) (fun o => bf (ix2 (0 : Fin 1) o)) p o := by
  unfold k4_pay1
  simp only [shapeCast_self]
  rw [final_apply]
  simp only [truncf_apply, addf_apply, layer_apply]

/-- THE STORE'S PAYLOAD AT AN INDEX: the edge network of the rows `f`. -/
theorem edge_payload (f : Vec Ideal S1008x256 .f32) (w11 : Vec Ideal S256x256 .f32) (b11 : Vec Ideal S1x256 .f32)
    (w12 : Vec Ideal S256x256 .f32) (b12 : Vec Ideal S1x256 .f32) (w21 : Vec Ideal S256x256 .f32)
    (b21 : Vec Ideal S1x256 .f32) (w22 : Vec Ideal S256x256 .f32) (b22 : Vec Ideal S1x256 .f32)
    (wf : Vec Ideal S256x4 .f32) (bf : Vec Ideal S1x4 .f32) (p : Fin 1008) (o : Fin 4) :
    k4_pay1 (k4_pay2 f w11 b11 w12 b12) (k4_pay3 f w11 b11 w12 b12 w21 b21) w22 b22 wf bf (ix2 p o)
      = Cert.Net.edgeMlp (fun p k => f (ix2 p k)) (fun o k => w11 (ix2 k o)) (fun o k => w12 (ix2 k o))
          (fun o k => w21 (ix2 k o)) (fun o k => w22 (ix2 k o)) (fun o => b11 (ix2 (0 : Fin 1) o))
          (fun o => b12 (ix2 (0 : Fin 1) o)) (fun o => b21 (ix2 (0 : Fin 1) o)) (fun o => b22 (ix2 (0 : Fin 1) o))
          (fun o k => wf (ix2 k o)) (fun o => bf (ix2 (0 : Fin 1) o)) p o := by
  rw [pay1_apply]
  simp only [pay2_apply, pay3_apply]
  rfl

end Cert.EdgeBody

end
-- ==== Proof.EdgeArray.lean ====
/-
  The edge network's result array, from its blocks of rows.

  The grid has eight points; point `t` reads rows `1008 t … 1008 t + 1007` of the edge features and the whole of the
  five weight arrays and five bias rows, and writes back rows `1008 t … 1008 t + 1007` of the result.  Every stage of
  the network acts row by row, so what point `t` writes is the whole-array function read on its rows; the eight
  blocks tile the array, so the array ends holding that function.
-/
import proofs.«173113_j3470333575730_2_alg».proof.Proof.Gen.KernelIdeal.Frame
import proofs.«173113_j3470333575730_2_alg».proof.Proof.EdgeBody
import Idealize.ShloMosaic.Lib.Pipeline.Value

set_option maxRecDepth 16384

noncomputable section

namespace Cert.EdgeArray

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `t` is row `1008 t + p` of the array. -/
def row (t : Fin 8) (p : Fin 1008) : Fin 8064 := ⟨1008 * t.val + p.val, by have := t.isLt; have := p.isLt; omega⟩

/-- The region's result as one function of the arrays it finds: the edge network of the feature rows. -/
def logits (c : Dev nD) : S8064x4.Idx → EReal := fun i =>
  Cert.Net.edgeMlp (fun e k => (V c main_v82 : S8064x256.Idx → EReal) (ix2 e k))
    (fun o k => (V c main_v83 : S256x256.Idx → EReal) (ix2 k o)) (fun o k => (V c main_v84 : S256x256.Idx → EReal) (ix2 k o))
    (fun o k => (V c main_v85 : S256x256.Idx → EReal) (ix2 k o)) (fun o k => (V c main_v86 : S256x256.Idx → EReal) (ix2 k o))
    (fun o => (V c main_v88 : S1x256.Idx → EReal) (ix2 (0 : Fin 1) o)) (fun o => (V c main_v89 : S1x256.Idx → EReal) (ix2 (0 : Fin 1) o))
    (fun o => (V c main_v90 : S1x256.Idx → EReal) (ix2 (0 : Fin 1) o)) (fun o => (V c main_v91 : S1x256.Idx → EReal) (ix2 (0 : Fin 1) o))
    (fun o k => (V c main_v87 : S256x4.Idx → EReal) (ix2 k o)) (fun o => (V c main_v92 : S1x4.Idx → EReal) (ix2 (0 : Fin 1) o))
    (i 0) (i 1)

/-! ## The printed index maps, decided over the grid -/

theorem idx0 : ∀ t : Fin cfg4.N, win4_0.index t (0 : Fin 2) = t.val ∧ win4_0.index t (1 : Fin 2) = 0 :=
  (by decide +kernel : ∀ t : Fin grid4.N, _)
theorem idx11 : ∀ t : Fin cfg4.N, win4_11.index t (0 : Fin 2) = t.val ∧ win4_11.index t (1 : Fin 2) = 0 :=
  (by decide +kernel : ∀ t : Fin grid4.N, _)
theorem idx1 : ∀ t : Fin cfg4.N, win4_1.index t (0 : Fin 2) = 0 ∧ win4_1.index t (1 : Fin 2) = 0 :=
  (by decide +kernel : ∀ t : Fin grid4.N, _)
theorem idx2 : ∀ t : Fin cfg4.N, win4_2.index t (0 : Fin 2) = 0 ∧ win4_2.index t (1 : Fin 2) = 0 :=
  (by decide +kernel : ∀ t : Fin grid4.N, _)
theorem idx3 : ∀ t : Fin cfg4.N, win4_3.index t (0 : Fin 2) = 0 ∧ win4_3.index t (1 : Fin 2) = 0 :=
  (by decide +kernel : ∀ t : Fin grid4.N, _)
theorem idx4 : ∀ t : Fin cfg4.N, win4_4.index t (0 : Fin 2) = 0 ∧ win4_4.index t (1 : Fin 2) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 2) = 0 ∧ win4_6.index t (1 : Fin 2) = 0 :=
  (by decide +kernel : ∀ t : Fin grid4.N, _)
theorem idx7 : ∀ t : Fin cfg4.N, win4_7.index t (0 : Fin 2) = 0 ∧ win4_7.index t (1 : Fin 2) = 0 :=
  (by decide +kernel : ∀ t : Fin grid4.N, _)
theorem idx8 : ∀ t : Fin cfg4.N, win4_8.index t (0 : Fin 2) = 0 ∧ win4_8.index t (1 : Fin 2) = 0 :=
  (by decide +kernel : ∀ t : Fin grid4.N, _)
theorem idx9 : ∀ t : Fin cfg4.N, win4_9.index t (0 : Fin 2) = 0 ∧ win4_9.index t (1 : Fin 2) = 0 :=
  (by decide +kernel : ∀ t : Fin grid4.N, _)
theorem idx10 : ∀ t : Fin cfg4.N, win4_10.index t (0 : Fin 2) = 0 ∧ win4_10.index t (1 : Fin 2) = 0 :=
  (by decide +kernel : ∀ t : Fin grid4.N, _)

/-! ## Each window's block -/

/-- The feature block's row `p` is the array's row `1008 t + p`. -/
theorem blk0 (c : Dev nD) (t : Fin cfg4.N) :
    (fun (p : Fin 1008) (k : Fin 256) => (iblk4 V c 0 t : S1008x256.Idx → EReal) (ix2 p k))
      = fun p k => (V c main_v82 : S8064x256.Idx → EReal) (ix2 (row t p) k) := by
  obtain ⟨e0, e1⟩ := idx0 t
  funext p k
  unfold iblk4
  rw [View.read_apply]
  show V c main_v82 (((cfg4.win 0).blk t).view.emb (ix2 p k)) = V c main_v82 (ix2 (row t p) k)
  refine congrArg (V c main_v82) (funext fun a => Fin.ext ?_)
  match a with
  | ⟨0, _⟩ => show win4_0.index t (0 : Fin 2) * 1008 + 1 * p.val = 1008 * t.val + p.val; rw [e0]; omega
  | ⟨1, _⟩ => show win4_0.index t (1 : Fin 2) * 256 + 1 * k.val = k.val; rw [e1]; omega
/-- Window 1's block is its whole array at every point. -/
theorem blk1 (c : Dev nD) (t : Fin cfg4.N) : (iblk4 V c 1 t : S256x256.Idx → EReal) = V c main_v83 := by
  obtain ⟨e0, e1⟩ := idx1 t
  funext j
  unfold iblk4
  rw [View.read_apply]
  show V c main_v83 (((cfg4.win 1).blk t).view.emb j) = V c main_v83 j
  refine congrArg (V c main_v83) (funext fun a => Fin.ext ?_)
  match a with
  | ⟨0, _⟩ => show win4_1.index t (0 : Fin 2) * 256 + 1 * (j 0).val = (j 0).val; rw [e0]; omega
  | ⟨1, _⟩ => show win4_1.index t (1 : Fin 2) * 256 + 1 * (j 1).val = (j 1).val; rw [e1]; omega
/-- Window 2's block is its whole array at every point. -/
theorem blk2 (c : Dev nD) (t : Fin cfg4.N) : (iblk4 V c 2 t : S1x256.Idx → EReal) = V c main_v88 := by
  obtain ⟨e0, e1⟩ := idx2 t
  funext j
  unfold iblk4
  rw [View.read_apply]
  show V c main_v88 (((cfg4.win 2).blk t).view.emb j) = V c main_v88 j
  refine congrArg (V c main_v88) (funext fun a => Fin.ext ?_)
  match a with
  | ⟨0, _⟩ => show win4_2.index t (0 : Fin 2) * 1 + 1 * (j 0).val = (j 0).val; rw [e0]; omega
  | ⟨1, _⟩ => show win4_2.index t (1 : Fin 2) * 256 + 1 * (j 1).val = (j 1).val; rw [e1]; omega
/-- Window 3's block is its whole array at every point. -/
theorem blk3 (c : Dev nD) (t : Fin cfg4.N) : (iblk4 V c 3 t : S256x256.Idx → EReal) = V c main_v84 := by
  obtain ⟨e0, e1⟩ := idx3 t
  funext j
  unfold iblk4
  rw [View.read_apply]
  show V c main_v84 (((cfg4.win 3).blk t).view.emb j) = V c main_v84 j
  refine congrArg (V c main_v84) (funext fun a => Fin.ext ?_)
  match a with
  | ⟨0, _⟩ => show win4_3.index t (0 : Fin 2) * 256 + 1 * (j 0).val = (j 0).val; rw [e0]; omega
  | ⟨1, _⟩ => show win4_3.index t (1 : Fin 2) * 256 + 1 * (j 1).val = (j 1).val; rw [e1]; omega
/-- Window 4's block is its whole array at every point. -/
theorem blk4 (c : Dev nD) (t : Fin cfg4.N) : (iblk4 V c 4 t : S1x256.Idx → EReal) = V c main_v89 := by
  obtain ⟨e0, e1⟩ := idx4 t
  funext j
  unfold iblk4
  rw [View.read_apply]
  show V c main_v89 (((cfg4.win 4).blk t).view.emb j) = V c main_v89 j
  refine congrArg (V c main_v89) (funext fun a => Fin.ext ?_)
  match a with
  | ⟨0, _⟩ => show win4_4.index t (0 : Fin 2) * 1 + 1 * (j 0).val = (j 0).val; rw [e0]; omega
  | ⟨1, _⟩ => show win4_4.index t (1 : Fin 2) * 256 + 1 * (j 1).val = (j 1).val; rw [e1]; omega
/-- Window 5's block is its whole array at every point. -/
theorem blk5 (c : Dev nD) (t : Fin cfg4.N) : (iblk4 V c 5 t : S256x256.Idx → EReal) = V c main_v85 := by
  obtain ⟨e0, e1⟩ := idx5 t
  funext j
  unfold iblk4
  rw [View.read_apply]
  show V c main_v85 (((cfg4.win 5).blk t).view.emb j) = V c main_v85 j
  refine congrArg (V c main_v85) (funext fun a => Fin.ext ?_)
  match a with
  | ⟨0, _⟩ => show win4_5.index t (0 : Fin 2) * 256 + 1 * (j 0).val = (j 0).val; rw [e0]; omega
  | ⟨1, _⟩ => show win4_5.index t (1 : Fin 2) * 256 + 1 * (j 1).val = (j 1).val; rw [e1]; omega
/-- Window 6's block is its whole array at every point. -/
theorem blk6 (c : Dev nD) (t : Fin cfg4.N) : (iblk4 V c 6 t : S1x256.Idx → EReal) = V c main_v90 := by
  obtain ⟨e0, e1⟩ := idx6 t
  funext j
  unfold iblk4
  rw [View.read_apply]
  show V c main_v90 (((cfg4.win 6).blk t).view.emb j) = V c main_v90 j
  refine congrArg (V c main_v90) (funext fun a => Fin.ext ?_)
  match a with
  | ⟨0, _⟩ => show win4_6.index t (0 : Fin 2) * 1 + 1 * (j 0).val = (j 0).val; rw [e0]; omega
  | ⟨1, _⟩ => show win4_6.index t (1 : Fin 2) * 256 + 1 * (j 1).val = (j 1).val; rw [e1]; omega
/-- Window 7's block is its whole array at every point. -/
theorem blk7 (c : Dev nD) (t : Fin cfg4.N) : (iblk4 V c 7 t : S256x256.Idx → EReal) = V c main_v86 := by
  obtain ⟨e0, e1⟩ := idx7 t
  funext j
  unfold iblk4
  rw [View.read_apply]
  show V c main_v86 (((cfg4.win 7).blk t).view.emb j) = V c main_v86 j
  refine congrArg (V c main_v86) (funext fun a => Fin.ext ?_)
  match a with
  | ⟨0, _⟩ => show win4_7.index t (0 : Fin 2) * 256 + 1 * (j 0).val = (j 0).val; rw [e0]; omega
  | ⟨1, _⟩ => show win4_7.index t (1 : Fin 2) * 256 + 1 * (j 1).val = (j 1).val; rw [e1]; omega
/-- Window 8's block is its whole array at every point. -/
theorem blk8 (c : Dev nD) (t : Fin cfg4.N) : (iblk4 V c 8 t : S1x256.Idx → EReal) = V c main_v91 := by
  obtain ⟨e0, e1⟩ := idx8 t
  funext j
  unfold iblk4
  rw [View.read_apply]
  show V c main_v91 (((cfg4.win 8).blk t).view.emb j) = V c main_v91 j
  refine congrArg (V c main_v91) (funext fun a => Fin.ext ?_)
  match a with
  | ⟨0, _⟩ => show win4_8.index t (0 : Fin 2) * 1 + 1 * (j 0).val = (j 0).val; rw [e0]; omega
  | ⟨1, _⟩ => show win4_8.index t (1 : Fin 2) * 256 + 1 * (j 1).val = (j 1).val; rw [e1]; omega
/-- Window 9's block is its whole array at every point. -/
theorem blk9 (c : Dev nD) (t : Fin cfg4.N) : (iblk4 V c 9 t : S256x4.Idx → EReal) = V c main_v87 := by
  obtain ⟨e0, e1⟩ := idx9 t
  funext j
  unfold iblk4
  rw [View.read_apply]
  show V c main_v87 (((cfg4.win 9).blk t).view.emb j) = V c main_v87 j
  refine congrArg (V c main_v87) (funext fun a => Fin.ext ?_)
  match a with
  | ⟨0, _⟩ => show win4_9.index t (0 : Fin 2) * 256 + 1 * (j 0).val = (j 0).val; rw [e0]; omega
  | ⟨1, _⟩ => show win4_9.index t (1 : Fin 2) * 4 + 1 * (j 1).val = (j 1).val; rw [e1]; omega
/-- Window 10's block is its whole array at every point. -/
theorem blk10 (c : Dev nD) (t : Fin cfg4.N) : (iblk4 V c 10 t : S1x4.Idx → EReal) = V c main_v92 := by
  obtain ⟨e0, e1⟩ := idx10 t
  funext j
  unfold iblk4
  rw [View.read_apply]
  show V c main_v92 (((cfg4.win 10).blk t).view.emb j) = V c main_v92 j
  refine congrArg (V c main_v92) (funext fun a => Fin.ext ?_)
  match a with
  | ⟨0, _⟩ => show win4_10.index t (0 : Fin 2) * 1 + 1 * (j 0).val = (j 0).val; rw [e0]; omega
  | ⟨1, _⟩ => show win4_10.index t (1 : Fin 2) * 4 + 1 * (j 1).val = (j 1).val; rw [e1]; omega

/-! ## What a point writes back, the cover, the array -/

/-- WHAT POINT `t` WRITES BACK is block `t` of `logits`. -/
theorem flushed_eq (c : Dev nD) (t : Fin cfg4.N) :
    (dat4 V c).flushed 11 t = ((cfg4.win 11).blk t).view.read (Elt Ideal) (logits V c) := by
  show (cfg4.win 11).cut (grid4.coords t) ((dat4 V c).after 11 t) = _
  rw [after4_11]
  unfold out4_11
  rw [View.canon_unit_zero hz]
  simp only [View.ld_unit_zero (S := S1008x256) hz, View.ld_unit_zero (S := S256x256) hz, View.ld_unit_zero (S := S1x256) hz,
    View.ld_unit_zero (S := S256x4) hz, View.ld_unit_zero (S := S1x4) hz]
  obtain ⟨e0, e1⟩ := idx11 t
  funext j
  obtain ⟨p, q, rfl⟩ : ∃ (p : Fin 1008) (q : Fin 4), j = ix2 p q := ⟨j 0, j 1, eq_ix2 j⟩
  have he : ((cfg4.win 11).blk t).view.emb (ix2 p q) = ix2 (row t p) q := funext fun a => Fin.ext (by
    match a with
    | ⟨0, _⟩ => show win4_11.index t (0 : Fin 2) * 1008 + 1 * p.val = 1008 * t.val + p.val; rw [e0]; omega
    | ⟨1, _⟩ => show win4_11.index t (1 : Fin 2) * 4 + 1 * q.val = q.val; rw [e1]; omega)
  rw [View.read_apply, he]
  refine (Cert.EdgeBody.edge_payload (iblk4 V c 0 t) (iblk4 V c 1 t) (iblk4 V c 2 t) (iblk4 V c 3 t) (iblk4 V c 4 t)
    (iblk4 V c 5 t) (iblk4 V c 6 t) (iblk4 V c 7 t) (iblk4 V c 8 t) (iblk4 V c 9 t) (iblk4 V c 10 t) p q).trans ?_
  rw [blk0 V c t, blk1 V c t, blk2 V c t, blk3 V c t, blk4 V c t, blk5 V c t, blk6 V c t, blk7 V c t, blk8 V c t,
    blk9 V c t, blk10 V c t]
  rfl

/-- An index of the array is in point `t`'s block iff each coordinate is in the block's range on its axis. -/
theorem mem_blk (t : Fin cfg4.N) (i : S8064x4.Idx) :
    i ∈ ((cfg4.win 11).blk t).view.set ↔ ∀ a : Fin 2, win4_11.index t a * S1008x4.size a ≤ (i a).val ∧ (i a).val < win4_11.index t a * S1008x4.size a + S1008x4.size a := by
  show i ∈ ((View.whole main_v93).slice (win4_11.rect t)).set ↔ _
  rw [View.set_slice_whole, Rect.mem_set_unit]
  exact Iff.rfl

/-- Row `r` is in the block of point `r / 1008`. -/
theorem cover (i : S8064x4.Idx) : ∃ t : Fin cfg4.N, (cfg4.win 11).flush t = true ∧ i ∈ ((cfg4.win 11).blk t).view.set := by
  have hi0 : (i 0).val < 8064 := (i 0).isLt
  have hi1 : (i 1).val < 4 := (i 1).isLt
  have ht : (i 0).val / 1008 < 8 := by omega
  refine ⟨⟨(i 0).val / 1008, ht⟩, flush4_11 _, ?_⟩
  obtain ⟨e0, e1⟩ := idx11 ⟨(i 0).val / 1008, ht⟩
  rw [mem_blk]
  intro a
  match a with
  | ⟨0, _⟩ =>
    show win4_11.index ⟨(i 0).val / 1008, ht⟩ (0 : Fin 2) * 1008 ≤ (i 0).val ∧ (i 0).val < win4_11.index ⟨(i 0).val / 1008, ht⟩ (0 : Fin 2) * 1008 + 1008
    rw [e0]; show (i 0).val / 1008 * 1008 ≤ (i 0).val ∧ (i 0).val < (i 0).val / 1008 * 1008 + 1008; omega
  | ⟨1, _⟩ =>
    show win4_11.index ⟨(i 0).val / 1008, ht⟩ (1 : Fin 2) * 4 ≤ (i 1).val ∧ (i 1).val < win4_11.index ⟨(i 0).val / 1008, ht⟩ (1 : Fin 2) * 4 + 4
    rw [e1]; omega

/-- THE ARRAY after the region: the edge network of the feature rows. -/
theorem final (c : Dev nD) : (dat4 V c).arrAt 11 cfg4.N = logits V c :=
  (dat4 V c).arrAt_eq_of_cover 11 (logits V c) (fun t _ => flushed_eq V c t) (cover)

end Cert.EdgeArray

end
-- ==== Proof.ChainEdge.lean ====
/-
  The edge network's operands, read back to the launch memory.

  The region finds its five weight arrays as the transposes of the launched weight matrices and its five bias rows as
  the launched bias vectors seen as one-row arrays; nothing before that writes a launched array.  So the region's
  result is the edge network of the gathered feature rows with the launched weights `W` (a layer is `x Wᵀ + b`, entry
  `(o, k)` of `W`) and biases `b` (entry `o`).
-/
import proofs.«173113_j3470333575730_2_alg».proof.Proof.Gen.KernelIdeal.Frame
import proofs.«173113_j3470333575730_2_alg».proof.Proof.EdgeArray
import Idealize.ShloMosaic.Lib.ValueLayout
import Idealize.ShloMosaic.Lib.StableHlo.Run

set_option maxRecDepth 16384

noncomputable section

namespace Cert.ChainEdge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The launched weights and biases are untouched up to the region's last host stretch

No host operation before that stretch writes one of them, and no earlier region stages one: the fold of the buffer
contents at such a reference walks back to the launch memory. -/

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
theorem W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := W5_of_ne m ρ c main_arg18 (by decide)
    _ = W3 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
theorem W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := W5_of_ne m ρ c main_arg19 (by decide)
    _ = W3 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
theorem W6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := W5_of_ne m ρ c main_arg20 (by decide)
    _ = W3 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl
theorem W6_main_arg21 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := W5_of_ne m ρ c main_arg21 (by decide)
    _ = W3 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-! ## The region's weight arrays: the launched matrices transposed -/

/-- The region finds `main_v83` as the transpose of the launched `main_arg12`. -/
theorem v83_eq (c : Dev nD) : (V7 m ρ c main_v83 : S256x256.Idx → EReal)
    = transpose (s := S256x256) S256x256 [1, 0] (m ((c : Thread nD τ).loc main_arg12) : S256x256.Idx → EReal) transposes_S256x256_S256x256_1_0 := by
  have e : (V7 m ρ c main_v83 : S256x256.Idx → EReal)
      = transpose (s := S256x256) S256x256 [1, 0] (W6 m ρ c (Proc.devRef .tc main_arg12) : S256x256.Idx → EReal) transposes_S256x256_S256x256_1_0 := by
    show StableHlo.after hostOps4 (W6 m ρ c) (Proc.devRef .tc main_v83) = _
    after_results <;> rfl
  rw [e, W6_main_arg12 m ρ c]
/-- So its entry `(k, o)` is the launched matrix's entry `(o, k)`. -/
theorem w11_eq (c : Dev nD) :
    (fun (o : Fin 256) (k : Fin 256) => (V7 m ρ c main_v83 : S256x256.Idx → EReal) (ix2 k o))
      = fun o k => (m ((c : Thread nD τ).loc main_arg12) : S256x256.Idx → EReal) (ix2 o k) :=
  funext fun o => funext fun k => by
    rw [v83_eq m ρ c]
    exact transpose_ix2_apply (m ((c : Thread nD τ).loc main_arg12) : S256x256.Idx → EReal) transposes_S256x256_S256x256_1_0 k o
/-- The region finds `main_v84` as the transpose of the launched `main_arg14`. -/
theorem v84_eq (c : Dev nD) : (V7 m ρ c main_v84 : S256x256.Idx → EReal)
    = transpose (s := S256x256) S256x256 [1, 0] (m ((c : Thread nD τ).loc main_arg14) : S256x256.Idx → EReal) transposes_S256x256_S256x256_1_0 := by
  have e : (V7 m ρ c main_v84 : S256x256.Idx → EReal)
      = transpose (s := S256x256) S256x256 [1, 0] (W6 m ρ c (Proc.devRef .tc main_arg14) : S256x256.Idx → EReal) transposes_S256x256_S256x256_1_0 := by
    show StableHlo.after hostOps4 (W6 m ρ c) (Proc.devRef .tc main_v84) = _
    after_results <;> rfl
  rw [e, W6_main_arg14 m ρ c]
/-- So its entry `(k, o)` is the launched matrix's entry `(o, k)`. -/
theorem w12_eq (c : Dev nD) :
    (fun (o : Fin 256) (k : Fin 256) => (V7 m ρ c main_v84 : S256x256.Idx → EReal) (ix2 k o))
      = fun o k => (m ((c : Thread nD τ).loc main_arg14) : S256x256.Idx → EReal) (ix2 o k) :=
  funext fun o => funext fun k => by
    rw [v84_eq m ρ c]
    exact transpose_ix2_apply (m ((c : Thread nD τ).loc main_arg14) : S256x256.Idx → EReal) transposes_S256x256_S256x256_1_0 k o
/-- The region finds `main_v85` as the transpose of the launched `main_arg16`. -/
theorem v85_eq (c : Dev nD) : (V7 m ρ c main_v85 : S256x256.Idx → EReal)
    = transpose (s := S256x256) S256x256 [1, 0] (m ((c : Thread nD τ).loc main_arg16) : S256x256.Idx → EReal) transposes_S256x256_S256x256_1_0 := by
  have e : (V7 m ρ c main_v85 : S256x256.Idx → EReal)
      = transpose (s := S256x256) S256x256 [1, 0] (W6 m ρ c (Proc.devRef .tc main_arg16) : S256x256.Idx → EReal) transposes_S256x256_S256x256_1_0 := by
    show StableHlo.after hostOps4 (W6 m ρ c) (Proc.devRef .tc main_v85) = _
    after_results <;> rfl
  rw [e, W6_main_arg16 m ρ c]
/-- So its entry `(k, o)` is the launched matrix's entry `(o, k)`. -/
theorem w21_eq (c : Dev nD) :
    (fun (o : Fin 256) (k : Fin 256) => (V7 m ρ c main_v85 : S256x256.Idx → EReal) (ix2 k o))
      = fun o k => (m ((c : Thread nD τ).loc main_arg16) : S256x256.Idx → EReal) (ix2 o k) :=
  funext fun o => funext fun k => by
    rw [v85_eq m ρ c]
    exact transpose_ix2_apply (m ((c : Thread nD τ).loc main_arg16) : S256x256.Idx → EReal) transposes_S256x256_S256x256_1_0 k o
/-- The region finds `main_v86` as the transpose of the launched `main_arg18`. -/
theorem v86_eq (c : Dev nD) : (V7 m ρ c main_v86 : S256x256.Idx → EReal)
    = transpose (s := S256x256) S256x256 [1, 0] (m ((c : Thread nD τ).loc main_arg18) : S256x256.Idx → EReal) transposes_S256x256_S256x256_1_0 := by
  have e : (V7 m ρ c main_v86 : S256x256.Idx → EReal)
      = transpose (s := S256x256) S256x256 [1, 0] (W6 m ρ c (Proc.devRef .tc main_arg18) : S256x256.Idx → EReal) transposes_S256x256_S256x256_1_0 := by
    show StableHlo.after hostOps4 (W6 m ρ c) (Proc.devRef .tc main_v86) = _
    after_results <;> rfl
  rw [e, W6_main_arg18 m ρ c]
/-- So its entry `(k, o)` is the launched matrix's entry `(o, k)`. -/
theorem w22_eq (c : Dev nD) :
    (fun (o : Fin 256) (k : Fin 256) => (V7 m ρ c main_v86 : S256x256.Idx → EReal) (ix2 k o))
      = fun o k => (m ((c : Thread nD τ).loc main_arg18) : S256x256.Idx → EReal) (ix2 o k) :=
  funext fun o => funext fun k => by
    rw [v86_eq m ρ c]
    exact transpose_ix2_apply (m ((c : Thread nD τ).loc main_arg18) : S256x256.Idx → EReal) transposes_S256x256_S256x256_1_0 k o
/-- The region finds `main_v87` as the transpose of the launched `main_arg20`. -/
theorem v87_eq (c : Dev nD) : (V7 m ρ c main_v87 : S256x4.Idx → EReal)
    = transpose (s := S4x256) S256x4 [1, 0] (m ((c : Thread nD τ).loc main_arg20) : S4x256.Idx → EReal) transposes_S4x256_S256x4_1_0 := by
  have e : (V7 m ρ c main_v87 : S256x4.Idx → EReal)
      = transpose (s := S4x256) S256x4 [1, 0] (W6 m ρ c (Proc.devRef .tc main_arg20) : S4x256.Idx → EReal) transposes_S4x256_S256x4_1_0 := by
    show StableHlo.after hostOps4 (W6 m ρ c) (Proc.devRef .tc main_v87) = _
    after_results <;> rfl
  rw [e, W6_main_arg20 m ρ c]
/-- So its entry `(k, o)` is the launched matrix's entry `(o, k)`. -/
theorem wf_eq (c : Dev nD) :
    (fun (o : Fin 4) (k : Fin 256) => (V7 m ρ c main_v87 : S256x4.Idx → EReal) (ix2 k o))
      = fun o k => (m ((c : Thread nD τ).loc main_arg20) : S4x256.Idx → EReal) (ix2 o k) :=
  funext fun o => funext fun k => by
    rw [v87_eq m ρ c]
    exact transpose_ix2_apply (m ((c : Thread nD τ).loc main_arg20) : S4x256.Idx → EReal) transposes_S4x256_S256x4_1_0 k o

/-! ## The region's bias rows: the launched vectors as one-row arrays -/

/-- The region finds `main_v88` as the launched `main_arg13` seen as a one-row array. -/
theorem v88_eq (c : Dev nD) : (V7 m ρ c main_v88 : S1x256.Idx → EReal)
    = shapeCast (s := S256) S1x256 (m ((c : Thread nD τ).loc main_arg13) : S256.Idx → EReal) shapeCasts_S256_S1x256 := by
  have e : (V7 m ρ c main_v88 : S1x256.Idx → EReal)
      = shapeCast (s := S256) S1x256 (W6 m ρ c (Proc.devRef .tc main_arg13) : S256.Idx → EReal) shapeCasts_S256_S1x256 := by
    show StableHlo.after hostOps4 (W6 m ρ c) (Proc.devRef .tc main_v88) = _
    after_results <;> rfl
  rw [e, W6_main_arg13 m ρ c]
/-- So its entry `(0, o)` is the launched vector's entry `o`. -/
theorem b11_eq (c : Dev nD) :
    (fun (o : Fin 256) => (V7 m ρ c main_v88 : S1x256.Idx → EReal) (ix2 (0 : Fin 1) o))
      = fun o => (m ((c : Thread nD τ).loc main_arg13) : S256.Idx → EReal) (ix1 o) :=
  funext fun o => by
    rw [v88_eq m ρ c]
    exact shapeCast_a_1a_apply (m ((c : Thread nD τ).loc main_arg13) : S256.Idx → EReal) shapeCasts_S256_S1x256 (0 : Fin 1) o
/-- The region finds `main_v89` as the launched `main_arg15` seen as a one-row array. -/
theorem v89_eq (c : Dev nD) : (V7 m ρ c main_v89 : S1x256.Idx → EReal)
    = shapeCast (s := S256) S1x256 (m ((c : Thread nD τ).loc main_arg15) : S256.Idx → EReal) shapeCasts_S256_S1x256 := by
  have e : (V7 m ρ c main_v89 : S1x256.Idx → EReal)
      = shapeCast (s := S256) S1x256 (W6 m ρ c (Proc.devRef .tc main_arg15) : S256.Idx → EReal) shapeCasts_S256_S1x256 := by
    show StableHlo.after hostOps4 (W6 m ρ c) (Proc.devRef .tc main_v89) = _
    after_results <;> rfl
  rw [e, W6_main_arg15 m ρ c]
/-- So its entry `(0, o)` is the launched vector's entry `o`. -/
theorem b12_eq (c : Dev nD) :
    (fun (o : Fin 256) => (V7 m ρ c main_v89 : S1x256.Idx → EReal) (ix2 (0 : Fin 1) o))
      = fun o => (m ((c : Thread nD τ).loc main_arg15) : S256.Idx → EReal) (ix1 o) :=
  funext fun o => by
    rw [v89_eq m ρ c]
    exact shapeCast_a_1a_apply (m ((c : Thread nD τ).loc main_arg15) : S256.Idx → EReal) shapeCasts_S256_S1x256 (0 : Fin 1) o
/-- The region finds `main_v90` as the launched `main_arg17` seen as a one-row array. -/
theorem v90_eq (c : Dev nD) : (V7 m ρ c main_v90 : S1x256.Idx → EReal)
    = shapeCast (s := S256) S1x256 (m ((c : Thread nD τ).loc main_arg17) : S256.Idx → EReal) shapeCasts_S256_S1x256 := by
  have e : (V7 m ρ c main_v90 : S1x256.Idx → EReal)
      = shapeCast (s := S256) S1x256 (W6 m ρ c (Proc.devRef .tc main_arg17) : S256.Idx → EReal) shapeCasts_S256_S1x256 := by
    show StableHlo.after hostOps4 (W6 m ρ c) (Proc.devRef .tc main_v90) = _
    after_results <;> rfl
  rw [e, W6_main_arg17 m ρ c]
/-- So its entry `(0, o)` is the launched vector's entry `o`. -/
theorem b21_eq (c : Dev nD) :
    (fun (o : Fin 256) => (V7 m ρ c main_v90 : S1x256.Idx → EReal) (ix2 (0 : Fin 1) o))
      = fun o => (m ((c : Thread nD τ).loc main_arg17) : S256.Idx → EReal) (ix1 o) :=
  funext fun o => by
    rw [v90_eq m ρ c]
    exact shapeCast_a_1a_apply (m ((c : Thread nD τ).loc main_arg17) : S256.Idx → EReal) shapeCasts_S256_S1x256 (0 : Fin 1) o
/-- The region finds `main_v91` as the launched `main_arg19` seen as a one-row array. -/
theorem v91_eq (c : Dev nD) : (V7 m ρ c main_v91 : S1x256.Idx → EReal)
    = shapeCast (s := S256) S1x256 (m ((c : Thread nD τ).loc main_arg19) : S256.Idx → EReal) shapeCasts_S256_S1x256 := by
  have e : (V7 m ρ c main_v91 : S1x256.Idx → EReal)
      = shapeCast (s := S256) S1x256 (W6 m ρ c (Proc.devRef .tc main_arg19) : S256.Idx → EReal) shapeCasts_S256_S1x256 := by
    show StableHlo.after hostOps4 (W6 m ρ c) (Proc.devRef .tc main_v91) = _
    after_results <;> rfl
  rw [e, W6_main_arg19 m ρ c]
/-- So its entry `(0, o)` is the launched vector's entry `o`. -/
theorem b22_eq (c : Dev nD) :
    (fun (o : Fin 256) => (V7 m ρ c main_v91 : S1x256.Idx → EReal) (ix2 (0 : Fin 1) o))
      = fun o => (m ((c : Thread nD τ).loc main_arg19) : S256.Idx → EReal) (ix1 o) :=
  funext fun o => by
    rw [v91_eq m ρ c]
    exact shapeCast_a_1a_apply (m ((c : Thread nD τ).loc main_arg19) : S256.Idx → EReal) shapeCasts_S256_S1x256 (0 : Fin 1) o
/-- The region finds `main_v92` as the launched `main_arg21` seen as a one-row array. -/
theorem v92_eq (c : Dev nD) : (V7 m ρ c main_v92 : S1x4.Idx → EReal)
    = shapeCast (s := S4) S1x4 (m ((c : Thread nD τ).loc main_arg21) : S4.Idx → EReal) shapeCasts_S4_S1x4 := by
  have e : (V7 m ρ c main_v92 : S1x4.Idx → EReal)
      = shapeCast (s := S4) S1x4 (W6 m ρ c (Proc.devRef .tc main_arg21) : S4.Idx → EReal) shapeCasts_S4_S1x4 := by
    show StableHlo.after hostOps4 (W6 m ρ c) (Proc.devRef .tc main_v92) = _
    after_results <;> rfl
  rw [e, W6_main_arg21 m ρ c]
/-- So its entry `(0, o)` is the launched vector's entry `o`. -/
theorem bf_eq (c : Dev nD) :
    (fun (o : Fin 4) => (V7 m ρ c main_v92 : S1x4.Idx → EReal) (ix2 (0 : Fin 1) o))
      = fun o => (m ((c : Thread nD τ).loc main_arg21) : S4.Idx → EReal) (ix1 o) :=
  funext fun o => by
    rw [v92_eq m ρ c]
    exact shapeCast_a_1a_apply (m ((c : Thread nD τ).loc main_arg21) : S4.Idx → EReal) shapeCasts_S4_S1x4 (0 : Fin 1) o

/-! ## The region's result from the launch memory -/

/-- THE REGION'S RESULT: the edge network of the gathered feature rows, with the launched weights (entry `(o, k)`)
    and biases (entry `o`). -/
theorem logits_eq (c : Dev nD) : (V8 m ρ c main_v93 : S8064x4.Idx → EReal) = fun i =>
    Cert.Net.edgeMlp (fun e k => (V7 m ρ c main_v82 : S8064x256.Idx → EReal) (ix2 e k))
      (fun o k => (m ((c : Thread nD τ).loc main_arg12) : S256x256.Idx → EReal) (ix2 o k)) (fun o k => (m ((c : Thread nD τ).loc main_arg14) : S256x256.Idx → EReal) (ix2 o k))
      (fun o k => (m ((c : Thread nD τ).loc main_arg16) : S256x256.Idx → EReal) (ix2 o k)) (fun o k => (m ((c : Thread nD τ).loc main_arg18) : S256x256.Idx → EReal) (ix2 o k))
      (fun o => (m ((c : Thread nD τ).loc main_arg13) : S256.Idx → EReal) (ix1 o)) (fun o => (m ((c : Thread nD τ).loc main_arg15) : S256.Idx → EReal) (ix1 o))
      (fun o => (m ((c : Thread nD τ).loc main_arg17) : S256.Idx → EReal) (ix1 o)) (fun o => (m ((c : Thread nD τ).loc main_arg19) : S256.Idx → EReal) (ix1 o))
      (fun o k => (m ((c : Thread nD τ).loc main_arg20) : S4x256.Idx → EReal) (ix2 o k)) (fun o => (m ((c : Thread nD τ).loc main_arg21) : S4.Idx → EReal) (ix1 o))
      (i 0) (i 1) := by
  have h1 : (V8 m ρ c main_v93 : S8064x4.Idx → EReal) = Cert.EdgeArray.logits (V7 m ρ) c :=
    ((hF4 m ρ c 11).symm).trans (Cert.EdgeArray.final (V7 m ρ) c)
  rw [h1]
  unfold Cert.EdgeArray.logits
  rw [w11_eq m ρ c, w12_eq m ρ c, w21_eq m ρ c, w22_eq m ρ c, b11_eq m ρ c, b12_eq m ρ c, b21_eq m ρ c, b22_eq m ρ c,
    wf_eq m ρ c, bf_eq m ρ c]
  rfl

end Cert.ChainEdge

end
-- ==== Proof.RefNet.lean ====
/-
  The reference program's stages read as the network's functions.

  Each stage of the reference is read at an index from its operands: a linear layer `x Wᵀ + b` is a transposed
  weight slice contracted with the rows plus a bias broadcast down the rows; the softmax subtracts from each score
  the row's maximum (the maximum of `-∞` and a `max`-reduction from `-∞`, which is the fold of `max` from `⊥` over
  the row's coordinates), exponentiates and divides by the row's sum from a zero initial value; the normalization
  takes the mean and the variance of a row as sums from zero divided by the literal 128. Chaining these readings
  identifies the two attention layers with `Net.normDiv` of `Net.preNorm` and the edge stages with `Net.edgeMlp`.
-/
import proofs.«173113_j3470333575730_2_alg».proof.Proof.RefRead
import proofs.«173113_j3470333575730_2_alg».proof.Proof.Net
import Idealize.ShloMosaic.Lib.ValueIdx
import Idealize.ShloMosaic.Lib.Pipeline.Value
import Idealize.ShloMosaic.PureOps.Ideal.Laws
import Idealize.ShloMosaic.PureOps.Reduce

noncomputable section

namespace Cert.RefNet

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## Indices by their coordinates -/

/-- A rank-1 index is determined by the value of its coordinate. -/
theorem idx1_eq {n0 : Nat} (f : (⟨1, ![n0]⟩ : Shape).Idx) (a : Fin n0) (h0 : (f 0).val = a.val) : f = ix1 a :=
  funext fun d => Fin.ext (by match d with | ⟨0, _⟩ => exact h0)

/-- A rank-2 index is determined by the values of its two coordinates. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-3 index is determined by the values of its three coordinates. -/
theorem idx3_eq {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => Fin.ext (by match d with | ⟨0, _⟩ => exact h0 | ⟨1, _⟩ => exact h1 | ⟨2, _⟩ => exact h2)

/-! ## The softmax's maximum -/

/-- The word of `-∞` denotes the bottom of the extended reals. -/
theorem ofBits_neg_inf : Ideal.ofBits .f32 0xFF800000#32 = (⊥ : EReal) := by simp [Ideal.ofBits, Ideal.ieee]

/-- A `max`-reduction of a square array along its rows, from the constant `-∞`, read at row `r`: the fold of
    `max` from `⊥` over the row's coordinates. -/
theorem rowMax_read (y : (⟨S4096x4096, .f32⟩ : BufTy).Contents (Elt Ideal)) (r : Fin 4096) :
    Host.reduce FloatOps.maximumf y (constant (F := Ideal) S_ .f32 0xFF800000#32) reducesTo_S4096x4096_S4096_d1 h_S_ (ix1 r)
      = (Finset.univ : Finset (Fin 4096)).fold max ⊥ (fun c => y (ix2 r c)) := by
  have h : Shape.Reduces S4096x4096 [1] S4096 := by decide
  have e1 := Host.reduce_eq_fold_single (α := Ideal .f32) (FloatOps.maximumf (F := Ideal) (φ := .f32)) y
    (constant (F := Ideal) S_ .f32 0xFF800000#32) reducesTo_S4096x4096_S4096_d1 h h_S_ (ix1 r)
  refine e1.trans ?_
  have hinit : (constant (F := Ideal) S_ .f32 0xFF800000#32) (Shape.Idx.first h_S_) = (⊥ : EReal) := ofBits_neg_inf
  have hf : (y ∘ h.lift (ix1 r)) = fun c => y (ix2 r c) := funext fun c => congrArg y (idx2_eq _ _ _ rfl rfl)
  rw [hinit, hf]
  rfl

variable
  (x0 : (⟨S8064x2, .i32⟩ : BufTy).Contents (Elt Ideal))
  (x1 : (⟨S4096x128, .f32⟩ : BufTy).Contents (Elt Ideal))
  (x2 : (⟨S2x128x128, .f32⟩ : BufTy).Contents (Elt Ideal))
  (x3 : (⟨S2x128, .f32⟩ : BufTy).Contents (Elt Ideal))
  (x4 : (⟨S2x128x128, .f32⟩ : BufTy).Contents (Elt Ideal))
  (x5 : (⟨S2x128, .f32⟩ : BufTy).Contents (Elt Ideal))
  (x6 : (⟨S2x128x128, .f32⟩ : BufTy).Contents (Elt Ideal))
  (x7 : (⟨S2x128, .f32⟩ : BufTy).Contents (Elt Ideal))
  (x8 : (⟨S2x128x128, .f32⟩ : BufTy).Contents (Elt Ideal))
  (x9 : (⟨S2x128, .f32⟩ : BufTy).Contents (Elt Ideal))
  (x10 : (⟨S2x128, .f32⟩ : BufTy).Contents (Elt Ideal))
  (x11 : (⟨S2x128, .f32⟩ : BufTy).Contents (Elt Ideal))
  (x12 : (⟨S256x256, .f32⟩ : BufTy).Contents (Elt Ideal))
  (x13 : (⟨S256, .f32⟩ : BufTy).Contents (Elt Ideal))
  (x14 : (⟨S256x256, .f32⟩ : BufTy).Contents (Elt Ideal))
  (x15 : (⟨S256, .f32⟩ : BufTy).Contents (Elt Ideal))
  (x16 : (⟨S256x256, .f32⟩ : BufTy).Contents (Elt Ideal))
  (x17 : (⟨S256, .f32⟩ : BufTy).Contents (Elt Ideal))
  (x18 : (⟨S256x256, .f32⟩ : BufTy).Contents (Elt Ideal))
  (x19 : (⟨S256, .f32⟩ : BufTy).Contents (Elt Ideal))
  (x20 : (⟨S4x256, .f32⟩ : BufTy).Contents (Elt Ideal))
  (x21 : (⟨S4, .f32⟩ : BufTy).Contents (Elt Ideal))

/-! ## The edge network: two residual blocks of rectified linear layers and a final linear layer -/

section Mlp

/-- The transposed weight at `(k, o)` is the weight at `(o, k)`. -/
theorem wt177 (k : Fin 256) (o : Fin 256) : val_main_v177 x12 (ix2 k o) = x12 (ix2 o k) := by
  rw [val_main_v177_apply]
  exact congrArg x12 (idx2_eq _ _ _ rfl rfl)

/-- The bias broadcast down the rows, at `(e, o)`, is its entry `o`. -/
theorem bs180 (e : Fin 8064) (o : Fin 256) : val_main_v180 x13 (ix2 e o) = x13 (ix1 o) := by
  rw [val_main_v180_apply, val_main_v179_apply]
  exact congrArg x13 (idx1_eq _ _ rfl)

/-- A linear layer of the edge network. -/
theorem aff181 (e : Fin 8064) (o : Fin 256) :
    (val_main_v181 x0 x1 x2 x3 x4 x5 x6 x7 x8 x9 x10 x11 x12 x13) (ix2 e o) = Net.affine (fun (e : Fin 8064) (k : Fin 256) => (val_main_v176 x0 x1 x2 x3 x4 x5 x6 x7 x8 x9 x10 x11) (ix2 e k)) (fun (o : Fin 256) (k : Fin 256) => x12 (ix2 o k)) (fun (o : Fin 256) => x13 (ix1 o)) e o := by
  rw [val_main_v181_apply, val_main_v178_apply, bs180]
  simp only [Ideal.addf_def, Net.affine]
  refine congrArg (· + _) (Finset.sum_congr rfl fun k _ => ?_)
  rw [show lidx_main_v178 (ix2 e o) k = ix2 e k from idx2_eq _ _ _ rfl rfl,
    show ridx_main_v178 (ix2 e o) k = ix2 k o from idx2_eq _ _ _ rfl rfl, wt177]

/-- The transposed weight at `(k, o)` is the weight at `(o, k)`. -/
theorem wt183 (k : Fin 256) (o : Fin 256) : val_main_v183 x14 (ix2 k o) = x14 (ix2 o k) := by
  rw [val_main_v183_apply]
  exact congrArg x14 (idx2_eq _ _ _ rfl rfl)

/-- The bias broadcast down the rows, at `(e, o)`, is its entry `o`. -/
theorem bs186 (e : Fin 8064) (o : Fin 256) : val_main_v186 x15 (ix2 e o) = x15 (ix1 o) := by
  rw [val_main_v186_apply, val_main_v185_apply]
  exact congrArg x15 (idx1_eq _ _ rfl)

/-- A linear layer of the edge network. -/
theorem aff187 (e : Fin 8064) (o : Fin 256) :
    (val_main_v187 x0 x1 x2 x3 x4 x5 x6 x7 x8 x9 x10 x11 x12 x13 x14 x15) (ix2 e o) = Net.affine (fun (e : Fin 8064) (k : Fin 256) => (val_main_v182 x0 x1 x2 x3 x4 x5 x6 x7 x8 x9 x10 x11 x12 x13) (ix2 e k)) (fun (o : Fin 256) (k : Fin 256) => x14 (ix2 o k)) (fun (o : Fin 256) => x15 (ix1 o)) e o := by
  rw [val_main_v187_apply, val_main_v184_apply, bs186]
  simp only [Ideal.addf_def, Net.affine]
  refine congrArg (· + _) (Finset.sum_congr rfl fun k _ => ?_)
  rw [show lidx_main_v184 (ix2 e o) k = ix2 e k from idx2_eq _ _ _ rfl rfl,
    show ridx_main_v184 (ix2 e o) k = ix2 k o from idx2_eq _ _ _ rfl rfl, wt183]

/-- The transposed weight at `(k, o)` is the weight at `(o, k)`. -/
theorem wt190 (k : Fin 256) (o : Fin 256) : val_main_v190 x16 (ix2 k o) = x16 (ix2 o k) := by
  rw [val_main_v190_apply]
  exact congrArg x16 (idx2_eq _ _ _ rfl rfl)

/-- The bias broadcast down the rows, at `(e, o)`, is its entry `o`. -/
theorem bs193 (e : Fin 8064) (o : Fin 256) : val_main_v193 x17 (ix2 e o) = x17 (ix1 o) := by
  rw [val_main_v193_apply, val_main_v192_apply]
  exact congrArg x17 (idx1_eq _ _ rfl)

/-- A linear layer of the edge network. -/
theorem aff194 (e : Fin 8064) (o : Fin 256) :
    (val_main_v194 x0 x1 x2 x3 x4 x5 x6 x7 x8 x9 x10 x11 x12 x13 x14 x15 x16 x17) (ix2 e o) = Net.affine (fun (e : Fin 8064) (k : Fin 256) => (val_main_v189 x0 x1 x2 x3 x4 x5 x6 x7 x8 x9 x10 x11 x12 x13 x14 x15) (ix2 e k)) (fun (o : Fin 256) (k : Fin 256) => x16 (ix2 o k)) (fun (o : Fin 256) => x17 (ix1 o)) e o := by
  rw [val_main_v194_apply, val_main_v191_apply, bs193]
  simp only [Ideal.addf_def, Net.affine]
  refine congrArg (· + _) (Finset.sum_congr rfl fun k _ => ?_)
  rw [show lidx_main_v191 (ix2 e o) k = ix2 e k from idx2_eq _ _ _ rfl rfl,
    show ridx_main_v191 (ix2 e o) k = ix2 k o from idx2_eq _ _ _ rfl rfl, wt190]

/-- The transposed weight at `(k, o)` is the weight at `(o, k)`. -/
theorem wt196 (k : Fin 256) (o : Fin 256) : val_main_v196 x18 (ix2 k o) = x18 (ix2 o k) := by
  rw [val_main_v196_apply]
  exact congrArg x18 (idx2_eq _ _ _ rfl rfl)

/-- The bias broadcast down the rows, at `(e, o)`, is its entry `o`. -/
theorem bs199 (e : Fin 8064) (o : Fin 256) : val_main_v199 x19 (ix2 e o) = x19 (ix1 o) := by
  rw [val_main_v199_apply, val_main_v198_apply]
  exact congrArg x19 (idx1_eq _ _ rfl)

/-- A linear layer of the edge network. -/
theorem aff200 (e : Fin 8064) (o : Fin 256) :
    (val_main_v200 x0 x1 x2 x3 x4 x5 x6 x7 x8 x9 x10 x11 x12 x13 x14 x15 x16 x17 x18 x19) (ix2 e o) = Net.affine (fun (e : Fin 8064) (k : Fin 256) => (val_main_v195 x0 x1 x2 x3 x4 x5 x6 x7 x8 x9 x10 x11 x12 x13 x14 x15 x16 x17) (ix2 e k)) (fun (o : Fin 256) (k : Fin 256) => x18 (ix2 o k)) (fun (o : Fin 256) => x19 (ix1 o)) e o := by
  rw [val_main_v200_apply, val_main_v197_apply, bs199]
  simp only [Ideal.addf_def, Net.affine]
  refine congrArg (· + _) (Finset.sum_congr rfl fun k _ => ?_)
  rw [show lidx_main_v197 (ix2 e o) k = ix2 e k from idx2_eq _ _ _ rfl rfl,
    show ridx_main_v197 (ix2 e o) k = ix2 k o from idx2_eq _ _ _ rfl rfl, wt196]

/-- The transposed weight at `(k, o)` is the weight at `(o, k)`. -/
theorem wt203 (k : Fin 256) (o : Fin 4) : val_main_v203 x20 (ix2 k o) = x20 (ix2 o k) := by
  rw [val_main_v203_apply]
  exact congrArg x20 (idx2_eq _ _ _ rfl rfl)

/-- The bias broadcast down the rows, at `(e, o)`, is its entry `o`. -/
theorem bs206 (e : Fin 8064) (o : Fin 4) : val_main_v206 x21 (ix2 e o) = x21 (ix1 o) := by
  rw [val_main_v206_apply, val_main_v205_apply]
  exact congrArg x21 (idx1_eq _ _ rfl)

/-- A linear layer of the edge network. -/
theorem aff207 (e : Fin 8064) (o : Fin 4) :
    (val_main_v207 x0 x1 x2 x3 x4 x5 x6 x7 x8 x9 x10 x11 x12 x13 x14 x15 x16 x17 x18 x19 x20 x21) (ix2 e o) = Net.affine (fun (e : Fin 8064) (k : Fin 256) => (val_main_v202 x0 x1 x2 x3 x4 x5 x6 x7 x8 x9 x10 x11 x12 x13 x14 x15 x16 x17 x18 x19) (ix2 e k)) (fun (o : Fin 4) (k : Fin 256) => x20 (ix2 o k)) (fun (o : Fin 4) => x21 (ix1 o)) e o := by
  rw [val_main_v207_apply, val_main_v204_apply, bs206]
  simp only [Ideal.addf_def, Net.affine]
  refine congrArg (· + _) (Finset.sum_congr rfl fun k _ => ?_)
  rw [show lidx_main_v204 (ix2 e o) k = ix2 e k from idx2_eq _ _ _ rfl rfl,
    show ridx_main_v204 (ix2 e o) k = ix2 k o from idx2_eq _ _ _ rfl rfl, wt203]

/-- The rectifier: the maximum with the zero literal. -/
theorem rl182 (e : Fin 8064) (o : Fin 256) : (val_main_v182 x0 x1 x2 x3 x4 x5 x6 x7 x8 x9 x10 x11 x12 x13) (ix2 e o) = Net.relu (fun (e : Fin 8064) (k : Fin 256) => (val_main_v181 x0 x1 x2 x3 x4 x5 x6 x7 x8 x9 x10 x11 x12 x13) (ix2 e k)) e o := by
  rw [val_main_v182_apply, val_main_call0_v0_apply, val_main_call0_cst_apply]
  simp only [Ideal.maximumf_def, Ideal.ofBits_def, Ideal.ofBits_zero_f32, Net.relu]

/-- The rectifier: the maximum with the zero literal. -/
theorem rl188 (e : Fin 8064) (o : Fin 256) : (val_main_v188 x0 x1 x2 x3 x4 x5 x6 x7 x8 x9 x10 x11 x12 x13 x14 x15) (ix2 e o) = Net.relu (fun (e : Fin 8064) (k : Fin 256) => (val_main_v187 x0 x1 x2 x3 x4 x5 x6 x7 x8 x9 x10 x11 x12 x13 x14 x15) (ix2 e k)) e o := by
  rw [val_main_v188_apply, val_main_call1_v0_apply, val_main_call1_cst_apply]
  simp only [Ideal.maximumf_def, Ideal.ofBits_def, Ideal.ofBits_zero_f32, Net.relu]

/-- The rectifier: the maximum with the zero literal. -/
theorem rl195 (e : Fin 8064) (o : Fin 256) : (val_main_v195 x0 x1 x2 x3 x4 x5 x6 x7 x8 x9 x10 x11 x12 x13 x14 x15 x16 x17) (ix2 e o) = Net.relu (fun (e : Fin 8064) (k : Fin 256) => (val_main_v194 x0 x1 x2 x3 x4 x5 x6 x7 x8 x9 x10 x11 x12 x13 x14 x15 x16 x17) (ix2 e k)) e o := by
  rw [val_main_v195_apply, val_main_call2_v0_apply, val_main_call2_cst_apply]
  simp only [Ideal.maximumf_def, Ideal.ofBits_def, Ideal.ofBits_zero_f32, Net.relu]

/-- The rectifier: the maximum with the zero literal. -/
theorem rl201 (e : Fin 8064) (o : Fin 256) : (val_main_v201 x0 x1 x2 x3 x4 x5 x6 x7 x8 x9 x10 x11 x12 x13 x14 x15 x16 x17 x18 x19) (ix2 e o) = Net.relu (fun (e : Fin 8064) (k : Fin 256) => (val_main_v200 x0 x1 x2 x3 x4 x5 x6 x7 x8 x9 x10 x11 x12 x13 x14 x15 x16 x17 x18 x19) (ix2 e k)) e o := by
  rw [val_main_v201_apply, val_main_call3_v0_apply, val_main_call3_cst_apply]
  simp only [Ideal.maximumf_def, Ideal.ofBits_def, Ideal.ofBits_zero_f32, Net.relu]

/-- A linear layer's rows, as a function. -/
theorem Af181 :
    (fun (e : Fin 8064) (k : Fin 256) => (val_main_v181 x0 x1 x2 x3 x4 x5 x6 x7 x8 x9 x10 x11 x12 x13) (ix2 e k))
      = (Net.affine (fun (e : Fin 8064) (k : Fin 256) => (val_main_v176 x0 x1 x2 x3 x4 x5 x6 x7 x8 x9 x10 x11) (ix2 e k)) (fun (o : Fin 256) (k : Fin 256) => x12 (ix2 o k)) (fun (o : Fin 256) => x13 (ix1 o))) := by
  funext e o
  rw [aff181]

/-- A rectified layer's rows, as a function. -/
theorem Rf182 :
    (fun (e : Fin 8064) (k : Fin 256) => (val_main_v182 x0 x1 x2 x3 x4 x5 x6 x7 x8 x9 x10 x11 x12 x13) (ix2 e k))
      = (Net.relu (Net.affine (fun (e : Fin 8064) (k : Fin 256) => (val_main_v176 x0 x1 x2 x3 x4 x5 x6 x7 x8 x9 x10 x11) (ix2 e k)) (fun (o : Fin 256) (k : Fin 256) => x12 (ix2 o k)) (fun (o : Fin 256) => x13 (ix1 o)))) := by
  funext e o
  rw [rl182, Af181]

/-- A linear layer's rows, as a function. -/
theorem Af187 :
    (fun (e : Fin 8064) (k : Fin 256) => (val_main_v187 x0 x1 x2 x3 x4 x5 x6 x7 x8 x9 x10 x11 x12 x13 x14 x15) (ix2 e k))
      = (Net.affine (Net.relu (Net.affine (fun (e : Fin 8064) (k : Fin 256) => (val_main_v176 x0 x1 x2 x3 x4 x5 x6 x7 x8 x9 x10 x11) (ix2 e k)) (fun (o : Fin 256) (k : Fin 256) => x12 (ix2 o k)) (fun (o : Fin 256) => x13 (ix1 o)))) (fun (o : Fin 256) (k : Fin 256) => x14 (ix2 o k)) (fun (o : Fin 256) => x15 (ix1 o))) := by
  funext e o
  rw [aff187, Rf182]

/-- The first residual block. -/
theorem blk189 (e : Fin 8064) (o : Fin 256) :
    (val_main_v189 x0 x1 x2 x3 x4 x5 x6 x7 x8 x9 x10 x11 x12 x13 x14 x15) (ix2 e o)
      = (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) e o := by
  rw [val_main_v189_apply, rl188, Af187]
  simp only [Ideal.addf_def, Net.resBlock]

/-- A residual block's rows, as a function. -/
theorem Bf189 :
    (fun (e : Fin 8064) (k : Fin 256) => (val_main_v189 x0 x1 x2 x3 x4 x5 x6 x7 x8 x9 x10 x11 x12 x13 x14 x15) (ix2 e k))
      = (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) := by
  funext e o
  rw [blk189]

/-- A linear layer's rows, as a function. -/
theorem Af194 :
    (fun (e : Fin 8064) (k : Fin 256) => (val_main_v194 x0 x1 x2 x3 x4 x5 x6 x7 x8 x9 x10 x11 x12 x13 x14 x15 x16 x17) (ix2 e k))
      = (Net.affine (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) (fun (o : Fin 256) (k : Fin 256) => x16 (ix2 o k)) (fun (o : Fin 256) => x17 (ix1 o))) := by
  funext e o
  rw [aff194, Bf189]

/-- A rectified layer's rows, as a function. -/
theorem Rf195 :
    (fun (e : Fin 8064) (k : Fin 256) => (val_main_v195 x0 x1 x2 x3 x4 x5 x6 x7 x8 x9 x10 x11 x12 x13 x14 x15 x16 x17) (ix2 e k))
      = (Net.relu (Net.affine (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) (fun (o : Fin 256) (k : Fin 256) => x16 (ix2 o k)) (fun (o : Fin 256) => x17 (ix1 o)))) := by
  funext e o
  rw [rl195, Af194]

/-- A linear layer's rows, as a function. -/
theorem Af200 :
    (fun (e : Fin 8064) (k : Fin 256) => (val_main_v200 x0 x1 x2 x3 x4 x5 x6 x7 x8 x9 x10 x11 x12 x13 x14 x15 x16 x17 x18 x19) (ix2 e k))
      = (Net.affine (Net.relu (Net.affine (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) (fun (o : Fin 256) (k : Fin 256) => x16 (ix2 o k)) (fun (o : Fin 256) => x17 (ix1 o)))) (fun (o : Fin 256) (k : Fin 256) => x18 (ix2 o k)) (fun (o : Fin 256) => x19 (ix1 o))) := by
  funext e o
  rw [aff200, Rf195]

/-- The second residual block. -/
theorem blk202 (e : Fin 8064) (o : Fin 256) :
    (val_main_v202 x0 x1 x2 x3 x4 x5 x6 x7 x8 x9 x10 x11 x12 x13 x14 x15 x16 x17 x18 x19) (ix2 e o)
      = (Net.resBlock (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) (fun (o : Fin 256) (k : Fin 256) => x16 (ix2 o k)) (fun (o : Fin 256) (k : Fin 256) => x18 (ix2 o k)) (fun (o : Fin 256) => x17 (ix1 o)) (fun (o : Fin 256) => x19 (ix1 o))) e o := by
  rw [val_main_v202_apply, rl201, Af200, blk189]
  simp only [Ideal.addf_def, Net.resBlock]

/-- A residual block's rows, as a function. -/
theorem Bf202 :
    (fun (e : Fin 8064) (k : Fin 256) => (val_main_v202 x0 x1 x2 x3 x4 x5 x6 x7 x8 x9 x10 x11 x12 x13 x14 x15 x16 x17 x18 x19) (ix2 e k))
      = (Net.resBlock (Net.resBlock (fun (e : Fin 8064) (k : Fin 256) => (val_main_v176 x0 x1 x2 x3 x4 x5 x6 x7 x8 x9 x10 x11) (ix2 e k)) (fun (o : Fin 256) (k : Fin 256) => x12 (ix2 o k)) (fun (o : Fin 256) (k : Fin 256) => x14 (ix2 o k)) (fun (o : Fin 256) => x13 (ix1 o)) (fun (o : Fin 256) => x15 (ix1 o))) (fun (o : Fin 256) (k : Fin 256) => x16 (ix2 o k)) (fun (o : Fin 256) (k : Fin 256) => x18 (ix2 o k)) (fun (o : Fin 256) => x17 (ix1 o)) (fun (o : Fin 256) => x19 (ix1 o))) := by
  funext e o
  rw [blk202]

/-- The reference's edge stages are the network's edge function of the gathered rows. -/
theorem mlp (e : Fin 8064) (o : Fin 4) :
    (val_main_v207 x0 x1 x2 x3 x4 x5 x6 x7 x8 x9 x10 x11 x12 x13 x14 x15 x16 x17 x18 x19 x20 x21) (ix2 e o)
      = Net.edgeMlp (fun (e : Fin 8064) (k : Fin 256) => (val_main_v176 x0 x1 x2 x3 x4 x5 x6 x7 x8 x9 x10 x11) (ix2 e k))
          (fun (o : Fin 256) (k : Fin 256) => x12 (ix2 o k)) (fun (o : Fin 256) (k : Fin 256) => x14 (ix2 o k)) (fun (o : Fin 256) (k : Fin 256) => x16 (ix2 o k)) (fun (o : Fin 256) (k : Fin 256) => x18 (ix2 o k))
          (fun (o : Fin 256) => x13 (ix1 o)) (fun (o : Fin 256) => x15 (ix1 o)) (fun (o : Fin 256) => x17 (ix1 o)) (fun (o : Fin 256) => x19 (ix1 o))
          (fun (o : Fin 4) (k : Fin 256) => x20 (ix2 o k)) (fun (o : Fin 4) => x21 (ix1 o)) e o := by
  rw [aff207, Bf202]
  rfl

end Mlp

/-! ## Layer 1: the attention block reading the input rows, weight slice 0 -/

section Layer1

/-- The transposed slice 0 of a weight array at `(k, o)` is the weight at `(0, o, k)`. -/
theorem wt4 (k o : Fin 128) : val_main_v4 x2 (ix2 k o) = x2 (ix3 (0 : Fin 2) o k) := by
  rw [val_main_v4_apply, val_main_v1_apply, val_main_v0_apply]
  refine congrArg x2 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 0 of a weight array at `(k, o)` is the weight at `(0, o, k)`. -/
theorem wt13 (k o : Fin 128) : val_main_v13 x4 (ix2 k o) = x4 (ix3 (0 : Fin 2) o k) := by
  rw [val_main_v13_apply, val_main_v10_apply, val_main_v9_apply]
  refine congrArg x4 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 0 of a weight array at `(k, o)` is the weight at `(0, o, k)`. -/
theorem wt22 (k o : Fin 128) : val_main_v22 x6 (ix2 k o) = x6 (ix3 (0 : Fin 2) o k) := by
  rw [val_main_v22_apply, val_main_v19_apply, val_main_v18_apply]
  refine congrArg x6 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 0 of a weight array at `(k, o)` is the weight at `(0, o, k)`. -/
theorem wt45 (k o : Fin 128) : val_main_v45 x8 (ix2 k o) = x8 (ix3 (0 : Fin 2) o k) := by
  rw [val_main_v45_apply, val_main_v42_apply, val_main_v41_apply]
  refine congrArg x8 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- Slice 0 of a vector array broadcast down the rows, at `(r, o)`, is the vector's entry `(0, o)`. -/
theorem bs7 (r : Fin 4096) (o : Fin 128) : val_main_v7 x3 (ix2 r o) = x3 (ix2 (0 : Fin 2) o) := by
  rw [val_main_v7_apply, val_main_v6_apply, val_main_v3_apply, val_main_v2_apply]
  refine congrArg x3 (idx2_eq _ _ _ ?_ ?_)
  · rfl
  · show o.val % 128 = o.val
    exact Nat.mod_eq_of_lt o.isLt

/-- Slice 0 of a vector array broadcast down the rows, at `(r, o)`, is the vector's entry `(0, o)`. -/
theorem bs16 (r : Fin 4096) (o : Fin 128) : val_main_v16 x5 (ix2 r o) = x5 (ix2 (0 : Fin 2) o) := by
  rw [val_main_v16_apply, val_main_v15_apply, val_main_v12_apply, val_main_v11_apply]
  refine congrArg x5 (idx2_eq _ _ _ ?_ ?_)
  · rfl
  · show o.val % 128 = o.val
    exact Nat.mod_eq_of_lt o.isLt

/-- Slice 0 of a vector array broadcast down the rows, at `(r, o)`, is the vector's entry `(0, o)`. -/
theorem bs25 (r : Fin 4096) (o : Fin 128) : val_main_v25 x7 (ix2 r o) = x7 (ix2 (0 : Fin 2) o) := by
  rw [val_main_v25_apply, val_main_v24_apply, val_main_v21_apply, val_main_v20_apply]
  refine congrArg x7 (idx2_eq _ _ _ ?_ ?_)
  · rfl
  · show o.val % 128 = o.val
    exact Nat.mod_eq_of_lt o.isLt

/-- Slice 0 of a vector array broadcast down the rows, at `(r, o)`, is the vector's entry `(0, o)`. -/
theorem bs48 (r : Fin 4096) (o : Fin 128) : val_main_v48 x9 (ix2 r o) = x9 (ix2 (0 : Fin 2) o) := by
  rw [val_main_v48_apply, val_main_v47_apply, val_main_v44_apply, val_main_v43_apply]
  refine congrArg x9 (idx2_eq _ _ _ ?_ ?_)
  · rfl
  · show o.val % 128 = o.val
    exact Nat.mod_eq_of_lt o.isLt

/-- Slice 0 of a vector array broadcast down the rows, at `(r, o)`, is the vector's entry `(0, o)`. -/
theorem bs74 (r : Fin 4096) (o : Fin 128) : val_main_v74 x10 (ix2 r o) = x10 (ix2 (0 : Fin 2) o) := by
  rw [val_main_v74_apply, val_main_v73_apply, val_main_v52_apply, val_main_v51_apply]
  refine congrArg x10 (idx2_eq _ _ _ ?_ ?_)
  · rfl
  · show o.val % 128 = o.val
    exact Nat.mod_eq_of_lt o.isLt

/-- Slice 0 of a vector array broadcast down the rows, at `(r, o)`, is the vector's entry `(0, o)`. -/
theorem bs77 (r : Fin 4096) (o : Fin 128) : val_main_v77 x11 (ix2 r o) = x11 (ix2 (0 : Fin 2) o) := by
  rw [val_main_v77_apply, val_main_v76_apply, val_main_v54_apply, val_main_v53_apply]
  refine congrArg x11 (idx2_eq _ _ _ ?_ ?_)
  · rfl
  · show o.val % 128 = o.val
    exact Nat.mod_eq_of_lt o.isLt

/-- The query rows: a linear layer of the input rows. -/
theorem aff8 (r : Fin 4096) (o : Fin 128) :
    (val_main_v8 x1 x2 x3) (ix2 r o) = Net.affine (fun (r : Fin 4096) (k : Fin 128) => x1 (ix2 r k)) (fun (o k : Fin 128) => x2 (ix3 (0 : Fin 2) o k)) (fun (o : Fin 128) => x3 (ix2 (0 : Fin 2) o)) r o := by
  rw [val_main_v8_apply, val_main_v5_apply, bs7]
  simp only [Ideal.addf_def, Net.affine]
  refine congrArg (· + _) (Finset.sum_congr rfl fun k _ => ?_)
  rw [show lidx_main_v5 (ix2 r o) k = ix2 r k from idx2_eq _ _ _ rfl rfl,
    show ridx_main_v5 (ix2 r o) k = ix2 k o from idx2_eq _ _ _ rfl rfl, wt4]

/-- The key rows. -/
theorem aff17 (r : Fin 4096) (o : Fin 128) :
    (val_main_v17 x1 x4 x5) (ix2 r o) = Net.affine (fun (r : Fin 4096) (k : Fin 128) => x1 (ix2 r k)) (fun (o k : Fin 128) => x4 (ix3 (0 : Fin 2) o k)) (fun (o : Fin 128) => x5 (ix2 (0 : Fin 2) o)) r o := by
  rw [val_main_v17_apply, val_main_v14_apply, bs16]
  simp only [Ideal.addf_def, Net.affine]
  refine congrArg (· + _) (Finset.sum_congr rfl fun k _ => ?_)
  rw [show lidx_main_v14 (ix2 r o) k = ix2 r k from idx2_eq _ _ _ rfl rfl,
    show ridx_main_v14 (ix2 r o) k = ix2 k o from idx2_eq _ _ _ rfl rfl, wt13]

/-- The value rows. -/
theorem aff26 (r : Fin 4096) (o : Fin 128) :
    (val_main_v26 x1 x6 x7) (ix2 r o) = Net.affine (fun (r : Fin 4096) (k : Fin 128) => x1 (ix2 r k)) (fun (o k : Fin 128) => x6 (ix3 (0 : Fin 2) o k)) (fun (o : Fin 128) => x7 (ix2 (0 : Fin 2) o)) r o := by
  rw [val_main_v26_apply, val_main_v23_apply, bs25]
  simp only [Ideal.addf_def, Net.affine]
  refine congrArg (· + _) (Finset.sum_congr rfl fun k _ => ?_)
  rw [show lidx_main_v23 (ix2 r o) k = ix2 r k from idx2_eq _ _ _ rfl rfl,
    show ridx_main_v23 (ix2 r o) k = ix2 k o from idx2_eq _ _ _ rfl rfl, wt22]

/-- The scores: query row `r` against key row `c`. -/
theorem sc28 (r c : Fin 4096) :
    (val_main_v28 x1 x2 x3 x4 x5) (ix2 r c) = Net.scores (fun (r : Fin 4096) (k : Fin 128) => (val_main_v8 x1 x2 x3) (ix2 r k)) (fun (c : Fin 4096) (k : Fin 128) => (val_main_v17 x1 x4 x5) (ix2 c k)) r c := by
  rw [val_main_v28_apply]
  simp only [Net.scores]
  refine Finset.sum_congr rfl fun k _ => ?_
  rw [val_main_v27_apply, show lidx_main_v28 (ix2 r c) k = ix2 r k from idx2_eq _ _ _ rfl rfl,
    show idx_main_v27 (ridx_main_v28 (ix2 r c) k) = ix2 c k from idx2_eq _ _ _ rfl rfl]

/-- The reduction of a score row by `max` from `-∞` is the fold over the row's coordinates. -/
theorem rm29 (r : Fin 4096) :
    (val_main_v29 x1 x2 x3 x4 x5) (ix1 r) = (Finset.univ : Finset (Fin 4096)).fold max ⊥ (fun c => (val_main_v28 x1 x2 x3 x4 x5) (ix2 r c)) :=
  rowMax_read (val_main_v28 x1 x2 x3 x4 x5) r

/-- The row maximum broadcast along the row: `max (-∞)` of the fold is the fold. -/
theorem mx33 (r c : Fin 4096) : (val_main_v33 x1 x2 x3 x4 x5) (ix2 r c) = Net.rowMax (fun (r : Fin 4096) (c : Fin 4096) => (val_main_v28 x1 x2 x3 x4 x5) (ix2 r c)) r := by
  rw [val_main_v33_apply, val_main_v32_apply, val_main_v31_apply, val_main_v30_apply,
    val_main_cst_0_apply, show idx_main_v32 (idx_main_v33 (ix2 r c)) = ix1 r from idx1_eq _ _ rfl, rm29]
  simp only [Ideal.maximumf_def, Ideal.ofBits_def, ofBits_neg_inf, max_bot_left, Net.rowMax]

/-- The exponential of the shifted score. -/
theorem ex35 (r c : Fin 4096) : (val_main_v35 x1 x2 x3 x4 x5) (ix2 r c) = Net.expShift (fun (r : Fin 4096) (c : Fin 4096) => (val_main_v28 x1 x2 x3 x4 x5) (ix2 r c)) r c := by
  rw [val_main_v35_apply, val_main_v34_apply, mx33]
  simp only [Ideal.hostUnary_exp_def, Ideal.subf_def, Net.expShift]

/-- The row's sum of exponentials, from a zero initial value, broadcast along the row. -/
theorem se38 (r c : Fin 4096) : (val_main_v38 x1 x2 x3 x4 x5) (ix2 r c) = ∑ c' : Fin 4096, Net.expShift (fun (r : Fin 4096) (c : Fin 4096) => (val_main_v28 x1 x2 x3 x4 x5) (ix2 r c)) r c' := by
  rw [val_main_v38_apply, val_main_v37_apply, val_main_v36_apply, val_main_cst_1_apply]
  simp only [Ideal.ofBits_def, Ideal.ofBits_zero_f32, zero_add]
  refine Finset.sum_congr rfl fun k _ => ?_
  rw [show idx_main_v36 (idx_main_v37 (idx_main_v38 (ix2 r c))) k = ix2 r k from idx2_eq _ _ _ rfl rfl, ex35]

/-- The softmax weights. -/
theorem sm39 (r c : Fin 4096) : (val_main_v39 x1 x2 x3 x4 x5) (ix2 r c) = Net.softmax (fun (r : Fin 4096) (c : Fin 4096) => (val_main_v28 x1 x2 x3 x4 x5) (ix2 r c)) r c := by
  rw [val_main_v39_apply, ex35, se38]
  simp only [Ideal.hostDivf_def, Net.softmax]

/-- The weights mixing the value rows. -/
theorem mi40 (r : Fin 4096) (j : Fin 128) :
    (val_main_v40 x1 x2 x3 x4 x5 x6 x7) (ix2 r j) = Net.mix (fun (r : Fin 4096) (c : Fin 4096) => (val_main_v39 x1 x2 x3 x4 x5) (ix2 r c)) (fun (c : Fin 4096) (j : Fin 128) => (val_main_v26 x1 x6 x7) (ix2 c j)) r j := by
  rw [val_main_v40_apply]
  simp only [Net.mix]
  refine Finset.sum_congr rfl fun k _ => ?_
  rw [show lidx_main_v40 (ix2 r j) k = ix2 r k from idx2_eq _ _ _ rfl rfl,
    show ridx_main_v40 (ix2 r j) k = ix2 k j from idx2_eq _ _ _ rfl rfl]

/-- The output projection of the mixed rows. -/
theorem aff49 (r : Fin 4096) (o : Fin 128) :
    (val_main_v49 x1 x2 x3 x4 x5 x6 x7 x8 x9) (ix2 r o) = Net.affine (fun (r : Fin 4096) (k : Fin 128) => (val_main_v40 x1 x2 x3 x4 x5 x6 x7) (ix2 r k)) (fun (o k : Fin 128) => x8 (ix3 (0 : Fin 2) o k)) (fun (o : Fin 128) => x9 (ix2 (0 : Fin 2) o)) r o := by
  rw [val_main_v49_apply, val_main_v46_apply, bs48]
  simp only [Ideal.addf_def, Net.affine]
  refine congrArg (· + _) (Finset.sum_congr rfl fun k _ => ?_)
  rw [show lidx_main_v46 (ix2 r o) k = ix2 r k from idx2_eq _ _ _ rfl rfl,
    show ridx_main_v46 (ix2 r o) k = ix2 k o from idx2_eq _ _ _ rfl rfl, wt45]

/-- The query rows, as a function of row and column. -/
theorem Qf8 :
    (fun (r : Fin 4096) (k : Fin 128) => (val_main_v8 x1 x2 x3) (ix2 r k))
      = (Net.affine (fun (r : Fin 4096) (k : Fin 128) => x1 (ix2 r k)) (fun (o k : Fin 128) => x2 (ix3 (0 : Fin 2) o k)) (fun (o : Fin 128) => x3 (ix2 (0 : Fin 2) o))) := by
  funext r k
  rw [aff8]

/-- The key rows, as a function of row and column. -/
theorem Kf17 :
    (fun (c : Fin 4096) (k : Fin 128) => (val_main_v17 x1 x4 x5) (ix2 c k))
      = (Net.affine (fun (r : Fin 4096) (k : Fin 128) => x1 (ix2 r k)) (fun (o k : Fin 128) => x4 (ix3 (0 : Fin 2) o k)) (fun (o : Fin 128) => x5 (ix2 (0 : Fin 2) o))) := by
  funext r k
  rw [aff17]

/-- The value rows, as a function of row and column. -/
theorem Vf26 :
    (fun (c : Fin 4096) (j : Fin 128) => (val_main_v26 x1 x6 x7) (ix2 c j))
      = (Net.affine (fun (r : Fin 4096) (k : Fin 128) => x1 (ix2 r k)) (fun (o k : Fin 128) => x6 (ix3 (0 : Fin 2) o k)) (fun (o : Fin 128) => x7 (ix2 (0 : Fin 2) o))) := by
  funext r k
  rw [aff26]

/-- The score matrix, as a function. -/
theorem Sf28 :
    (fun (r : Fin 4096) (c : Fin 4096) => (val_main_v28 x1 x2 x3 x4 x5) (ix2 r c))
      = (Net.scores (Net.affine (fun (r : Fin 4096) (k : Fin 128) => x1 (ix2 r k)) (fun (o k : Fin 128) => x2 (ix3 (0 : Fin 2) o k)) (fun (o : Fin 128) => x3 (ix2 (0 : Fin 2) o))) (Net.affine (fun (r : Fin 4096) (k : Fin 128) => x1 (ix2 r k)) (fun (o k : Fin 128) => x4 (ix3 (0 : Fin 2) o k)) (fun (o : Fin 128) => x5 (ix2 (0 : Fin 2) o)))) := by
  funext r c
  rw [sc28, Qf8, Kf17]

/-- The softmax weights, as a function. -/
theorem Pf39 :
    (fun (r : Fin 4096) (c : Fin 4096) => (val_main_v39 x1 x2 x3 x4 x5) (ix2 r c))
      = (Net.softmax (Net.scores (Net.affine (fun (r : Fin 4096) (k : Fin 128) => x1 (ix2 r k)) (fun (o k : Fin 128) => x2 (ix3 (0 : Fin 2) o k)) (fun (o : Fin 128) => x3 (ix2 (0 : Fin 2) o))) (Net.affine (fun (r : Fin 4096) (k : Fin 128) => x1 (ix2 r k)) (fun (o k : Fin 128) => x4 (ix3 (0 : Fin 2) o k)) (fun (o : Fin 128) => x5 (ix2 (0 : Fin 2) o))))) := by
  funext r c
  rw [sm39, Sf28]

/-- The mixed rows, as a function. -/
theorem Mf40 :
    (fun (r : Fin 4096) (k : Fin 128) => (val_main_v40 x1 x2 x3 x4 x5 x6 x7) (ix2 r k))
      = (Net.mix (Net.softmax (Net.scores (Net.affine (fun (r : Fin 4096) (k : Fin 128) => x1 (ix2 r k)) (fun (o k : Fin 128) => x2 (ix3 (0 : Fin 2) o k)) (fun (o : Fin 128) => x3 (ix2 (0 : Fin 2) o))) (Net.affine (fun (r : Fin 4096) (k : Fin 128) => x1 (ix2 r k)) (fun (o k : Fin 128) => x4 (ix3 (0 : Fin 2) o k)) (fun (o : Fin 128) => x5 (ix2 (0 : Fin 2) o))))) (Net.affine (fun (r : Fin 4096) (k : Fin 128) => x1 (ix2 r k)) (fun (o k : Fin 128) => x6 (ix3 (0 : Fin 2) o k)) (fun (o : Fin 128) => x7 (ix2 (0 : Fin 2) o)))) := by
  funext r k
  rw [mi40, Pf39, Vf26]

/-- The row before normalization: the projected attention plus the input row. -/
theorem pre50 (r : Fin 4096) (j : Fin 128) :
    (val_main_v50 x1 x2 x3 x4 x5 x6 x7 x8 x9) (ix2 r j)
      = (Net.preNorm (fun (r : Fin 4096) (k : Fin 128) => x1 (ix2 r k)) (Net.affine (fun (r : Fin 4096) (k : Fin 128) => x1 (ix2 r k)) (fun (o k : Fin 128) => x4 (ix3 (0 : Fin 2) o k)) (fun (o : Fin 128) => x5 (ix2 (0 : Fin 2) o))) (Net.affine (fun (r : Fin 4096) (k : Fin 128) => x1 (ix2 r k)) (fun (o k : Fin 128) => x6 (ix3 (0 : Fin 2) o k)) (fun (o : Fin 128) => x7 (ix2 (0 : Fin 2) o))) (fun (o k : Fin 128) => x2 (ix3 (0 : Fin 2) o k)) (fun (o k : Fin 128) => x8 (ix3 (0 : Fin 2) o k)) (fun (o : Fin 128) => x3 (ix2 (0 : Fin 2) o)) (fun (o : Fin 128) => x9 (ix2 (0 : Fin 2) o))) r j := by
  rw [val_main_v50_apply, aff49, Mf40]
  simp only [Ideal.addf_def, Net.preNorm]

/-- The row mean: the sum from a zero initial value, divided by the literal 128. -/
theorem mean58 (r : Fin 4096) : (val_main_v58 x1 x2 x3 x4 x5 x6 x7 x8 x9) (ix2 r (0 : Fin 1)) = Net.mean (Ideal.ofBits .f32 0x43000000#32) (fun (r : Fin 4096) (j : Fin 128) => (val_main_v50 x1 x2 x3 x4 x5 x6 x7 x8 x9) (ix2 r j)) r := by
  rw [val_main_v58_apply, val_main_v56_apply, val_main_v55_apply, val_main_v57_apply,
    val_main_cst_2_apply, val_main_cst_3_apply]
  simp only [Ideal.hostDivf_def, Ideal.ofBits_def, Ideal.ofBits_zero_f32, zero_add, Net.mean]
  refine congrArg (Ideal.div · _) (Finset.sum_congr rfl fun k _ => ?_)
  rw [show idx_main_v55 (idx_main_v56 (ix2 r (0 : Fin 1))) k = ix2 r k from idx2_eq _ _ _ rfl rfl]

/-- The centred row. -/
theorem cen60 (r : Fin 4096) (j : Fin 128) : (val_main_v60 x1 x2 x3 x4 x5 x6 x7 x8 x9) (ix2 r j) = Net.centered (Ideal.ofBits .f32 0x43000000#32) (fun (r : Fin 4096) (j : Fin 128) => (val_main_v50 x1 x2 x3 x4 x5 x6 x7 x8 x9) (ix2 r j)) r j := by
  rw [val_main_v60_apply, val_main_v59_apply,
    show idx_main_v59 (ix2 r j) = ix2 r (0 : Fin 1) from idx2_eq _ _ _ rfl rfl, mean58]
  simp only [Ideal.subf_def, Net.centered]

/-- The centred row. -/
theorem cen67 (r : Fin 4096) (j : Fin 128) : (val_main_v67 x1 x2 x3 x4 x5 x6 x7 x8 x9) (ix2 r j) = Net.centered (Ideal.ofBits .f32 0x43000000#32) (fun (r : Fin 4096) (j : Fin 128) => (val_main_v50 x1 x2 x3 x4 x5 x6 x7 x8 x9) (ix2 r j)) r j := by
  rw [val_main_v67_apply, val_main_v66_apply,
    show idx_main_v66 (ix2 r j) = ix2 r (0 : Fin 1) from idx2_eq _ _ _ rfl rfl, mean58]
  simp only [Ideal.subf_def, Net.centered]

/-- The row variance: the sum of the centred squares, divided by the literal 128. -/
theorem var65 (r : Fin 4096) : (val_main_v65 x1 x2 x3 x4 x5 x6 x7 x8 x9) (ix2 r (0 : Fin 1)) = Net.variance (Ideal.ofBits .f32 0x43000000#32) (fun (r : Fin 4096) (j : Fin 128) => (val_main_v50 x1 x2 x3 x4 x5 x6 x7 x8 x9) (ix2 r j)) r := by
  rw [val_main_v65_apply, val_main_v63_apply, val_main_v62_apply, val_main_v64_apply,
    val_main_cst_4_apply, val_main_cst_5_apply]
  simp only [Ideal.hostDivf_def, Ideal.ofBits_def, Ideal.ofBits_zero_f32, zero_add, Net.variance]
  refine congrArg (Ideal.div · _) (Finset.sum_congr rfl fun k _ => ?_)
  rw [show idx_main_v62 (idx_main_v63 (ix2 r (0 : Fin 1))) k = ix2 r k from idx2_eq _ _ _ rfl rfl,
    val_main_v61_apply, cen60]
  simp only [Ideal.mulf_def]

/-- The normalized row: centred, divided by the root of the variance plus the literal, scaled and shifted. -/
theorem nrm78 (r : Fin 4096) (j : Fin 128) :
    (val_main_v78 x1 x2 x3 x4 x5 x6 x7 x8 x9 x10 x11) (ix2 r j) = Net.normDiv (Ideal.ofBits .f32 0x43000000#32) (Ideal.ofBits .f32 0x3727C5AC#32) (fun (r : Fin 4096) (j : Fin 128) => (val_main_v50 x1 x2 x3 x4 x5 x6 x7 x8 x9) (ix2 r j)) (fun (o : Fin 128) => x10 (ix2 (0 : Fin 2) o)) (fun (o : Fin 128) => x11 (ix2 (0 : Fin 2) o)) r j := by
  rw [val_main_v78_apply, val_main_v75_apply, val_main_v72_apply, cen67, val_main_v71_apply,
    show idx_main_v71 (ix2 r j) = ix2 r (0 : Fin 1) from idx2_eq _ _ _ rfl rfl,
    val_main_v70_apply, val_main_v69_apply, var65, val_main_v68_apply, val_main_cst_6_apply,
    bs74, bs77]
  simp only [Ideal.addf_def, Ideal.mulf_def, Ideal.hostDivf_def, Ideal.hostUnary_sqrt_def, Ideal.ofBits_def, Net.normDiv]

/-- Layer 1 of the reference is the network's attention block with the normalization by division. -/
theorem layer1 (r : Fin 4096) (j : Fin 128) :
    (val_main_v78 x1 x2 x3 x4 x5 x6 x7 x8 x9 x10 x11) (ix2 r j)
      = Net.normDiv (Ideal.ofBits .f32 0x43000000#32) (Ideal.ofBits .f32 0x3727C5AC#32)
          (Net.preNorm (fun (r : Fin 4096) (k : Fin 128) => x1 (ix2 r k)) (Net.affine (fun (r : Fin 4096) (k : Fin 128) => x1 (ix2 r k)) (fun (o k : Fin 128) => x4 (ix3 (0 : Fin 2) o k)) (fun (o : Fin 128) => x5 (ix2 (0 : Fin 2) o))) (Net.affine (fun (r : Fin 4096) (k : Fin 128) => x1 (ix2 r k)) (fun (o k : Fin 128) => x6 (ix3 (0 : Fin 2) o k)) (fun (o : Fin 128) => x7 (ix2 (0 : Fin 2) o))) (fun (o k : Fin 128) => x2 (ix3 (0 : Fin 2) o k)) (fun (o k : Fin 128) => x8 (ix3 (0 : Fin 2) o k)) (fun (o : Fin 128) => x3 (ix2 (0 : Fin 2) o)) (fun (o : Fin 128) => x9 (ix2 (0 : Fin 2) o)))
          (fun (o : Fin 128) => x10 (ix2 (0 : Fin 2) o)) (fun (o : Fin 128) => x11 (ix2 (0 : Fin 2) o)) r j := by
  rw [nrm78, show (fun (r : Fin 4096) (j : Fin 128) => (val_main_v50 x1 x2 x3 x4 x5 x6 x7 x8 x9) (ix2 r j)) = (Net.preNorm (fun (r : Fin 4096) (k : Fin 128) => x1 (ix2 r k)) (Net.affine (fun (r : Fin 4096) (k : Fin 128) => x1 (ix2 r k)) (fun (o k : Fin 128) => x4 (ix3 (0 : Fin 2) o k)) (fun (o : Fin 128) => x5 (ix2 (0 : Fin 2) o))) (Net.affine (fun (r : Fin 4096) (k : Fin 128) => x1 (ix2 r k)) (fun (o k : Fin 128) => x6 (ix3 (0 : Fin 2) o k)) (fun (o : Fin 128) => x7 (ix2 (0 : Fin 2) o))) (fun (o k : Fin 128) => x2 (ix3 (0 : Fin 2) o k)) (fun (o k : Fin 128) => x8 (ix3 (0 : Fin 2) o k)) (fun (o : Fin 128) => x3 (ix2 (0 : Fin 2) o)) (fun (o : Fin 128) => x9 (ix2 (0 : Fin 2) o))) from by funext r j; rw [pre50]]

end Layer1

/-! ## Layer 2: the attention block reading layer 1's rows, weight slice 1 -/

section Layer2

/-- The transposed slice 1 of a weight array at `(k, o)` is the weight at `(1, o, k)`. -/
theorem wt83 (k o : Fin 128) : val_main_v83 x2 (ix2 k o) = x2 (ix3 (1 : Fin 2) o k) := by
  rw [val_main_v83_apply, val_main_v80_apply, val_main_v79_apply]
  refine congrArg x2 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 1 of a weight array at `(k, o)` is the weight at `(1, o, k)`. -/
theorem wt92 (k o : Fin 128) : val_main_v92 x4 (ix2 k o) = x4 (ix3 (1 : Fin 2) o k) := by
  rw [val_main_v92_apply, val_main_v89_apply, val_main_v88_apply]
  refine congrArg x4 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 1 of a weight array at `(k, o)` is the weight at `(1, o, k)`. -/
theorem wt101 (k o : Fin 128) : val_main_v101 x6 (ix2 k o) = x6 (ix3 (1 : Fin 2) o k) := by
  rw [val_main_v101_apply, val_main_v98_apply, val_main_v97_apply]
  refine congrArg x6 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- The transposed slice 1 of a weight array at `(k, o)` is the weight at `(1, o, k)`. -/
theorem wt124 (k o : Fin 128) : val_main_v124 x8 (ix2 k o) = x8 (ix3 (1 : Fin 2) o k) := by
  rw [val_main_v124_apply, val_main_v121_apply, val_main_v120_apply]
  refine congrArg x8 (idx3_eq _ _ _ _ ?_ ?_ ?_)
  · rfl
  · show (o.val * 128 + k.val) / 128 % 128 = o.val
    have := o.isLt; have := k.isLt; omega
  · show (o.val * 128 + k.val) % 128 = k.val
    have := o.isLt; have := k.isLt; omega

/-- Slice 1 of a vector array broadcast down the rows, at `(r, o)`, is the vector's entry `(1, o)`. -/
theorem bs86 (r : Fin 4096) (o : Fin 128) : val_main_v86 x3 (ix2 r o) = x3 (ix2 (1 : Fin 2) o) := by
  rw [val_main_v86_apply, val_main_v85_apply, val_main_v82_apply, val_main_v81_apply]
  refine congrArg x3 (idx2_eq _ _ _ ?_ ?_)
  · rfl
  · show o.val % 128 = o.val
    exact Nat.mod_eq_of_lt o.isLt

/-- Slice 1 of a vector array broadcast down the rows, at `(r, o)`, is the vector's entry `(1, o)`. -/
theorem bs95 (r : Fin 4096) (o : Fin 128) : val_main_v95 x5 (ix2 r o) = x5 (ix2 (1 : Fin 2) o) := by
  rw [val_main_v95_apply, val_main_v94_apply, val_main_v91_apply, val_main_v90_apply]
  refine congrArg x5 (idx2_eq _ _ _ ?_ ?_)
  · rfl
  · show o.val % 128 = o.val
    exact Nat.mod_eq_of_lt o.isLt

/-- Slice 1 of a vector array broadcast down the rows, at `(r, o)`, is the vector's entry `(1, o)`. -/
theorem bs104 (r : Fin 4096) (o : Fin 128) : val_main_v104 x7 (ix2 r o) = x7 (ix2 (1 : Fin 2) o) := by
  rw [val_main_v104_apply, val_main_v103_apply, val_main_v100_apply, val_main_v99_apply]
  refine congrArg x7 (idx2_eq _ _ _ ?_ ?_)
  · rfl
  · show o.val % 128 = o.val
    exact Nat.mod_eq_of_lt o.isLt

/-- Slice 1 of a vector array broadcast down the rows, at `(r, o)`, is the vector's entry `(1, o)`. -/
theorem bs127 (r : Fin 4096) (o : Fin 128) : val_main_v127 x9 (ix2 r o) = x9 (ix2 (1 : Fin 2) o) := by
  rw [val_main_v127_apply, val_main_v126_apply, val_main_v123_apply, val_main_v122_apply]
  refine congrArg x9 (idx2_eq _ _ _ ?_ ?_)
  · rfl
  · show o.val % 128 = o.val
    exact Nat.mod_eq_of_lt o.isLt

/-- Slice 1 of a vector array broadcast down the rows, at `(r, o)`, is the vector's entry `(1, o)`. -/
theorem bs153 (r : Fin 4096) (o : Fin 128) : val_main_v153 x10 (ix2 r o) = x10 (ix2 (1 : Fin 2) o) := by
  rw [val_main_v153_apply, val_main_v152_apply, val_main_v131_apply, val_main_v130_apply]
  refine congrArg x10 (idx2_eq _ _ _ ?_ ?_)
  · rfl
  · show o.val % 128 = o.val
    exact Nat.mod_eq_of_lt o.isLt

/-- Slice 1 of a vector array broadcast down the rows, at `(r, o)`, is the vector's entry `(1, o)`. -/
theorem bs156 (r : Fin 4096) (o : Fin 128) : val_main_v156 x11 (ix2 r o) = x11 (ix2 (1 : Fin 2) o) := by
  rw [val_main_v156_apply, val_main_v155_apply, val_main_v133_apply, val_main_v132_apply]
  refine congrArg x11 (idx2_eq _ _ _ ?_ ?_)
  · rfl
  · show o.val % 128 = o.val
    exact Nat.mod_eq_of_lt o.isLt

/-- The query rows: a linear layer of the input rows. -/
theorem aff87 (r : Fin 4096) (o : Fin 128) :
    (val_main_v87 x1 x2 x3 x4 x5 x6 x7 x8 x9 x10 x11) (ix2 r o) = Net.affine (fun (r : Fin 4096) (k : Fin 128) => (val_main_v78 x1 x2 x3 x4 x5 x6 x7 x8 x9 x10 x11) (ix2 r k)) (fun (o k : Fin 128) => x2 (ix3 (1 : Fin 2) o k)) (fun (o : Fin 128) => x3 (ix2 (1 : Fin 2) o)) r o := by
  rw [val_main_v87_apply, val_main_v84_apply, bs86]
  simp only [Ideal.addf_def, Net.affine]
  refine congrArg (· + _) (Finset.sum_congr rfl fun k _ => ?_)
  rw [show lidx_main_v84 (ix2 r o) k = ix2 r k from idx2_eq _ _ _ rfl rfl,
    show ridx_main_v84 (ix2 r o) k = ix2 k o from idx2_eq _ _ _ rfl rfl, wt83]

/-- The key rows. -/
theorem aff96 (r : Fin 4096) (o : Fin 128) :
    (val_main_v96 x1 x2 x3 x4 x5 x6 x7 x8 x9 x10 x11) (ix2 r o) = Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o)) r o := by
  rw [val_main_v96_apply, val_main_v93_apply, bs95]
  simp only [Ideal.addf_def, Net.affine]
  refine congrArg (· + _) (Finset.sum_congr rfl fun k _ => ?_)
  rw [show lidx_main_v93 (ix2 r o) k = ix2 r k from idx2_eq _ _ _ rfl rfl,
    show ridx_main_v93 (ix2 r o) k = ix2 k o from idx2_eq _ _ _ rfl rfl, wt92]

/-- The value rows. -/
theorem aff105 (r : Fin 4096) (o : Fin 128) :
    (val_main_v105 x1 x2 x3 x4 x5 x6 x7 x8 x9 x10 x11) (ix2 r o) = Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o)) r o := by
  rw [val_main_v105_apply, val_main_v102_apply, bs104]
  simp only [Ideal.addf_def, Net.affine]
  refine congrArg (· + _) (Finset.sum_congr rfl fun k _ => ?_)
  rw [show lidx_main_v102 (ix2 r o) k = ix2 r k from idx2_eq _ _ _ rfl rfl,
    show ridx_main_v102 (ix2 r o) k = ix2 k o from idx2_eq _ _ _ rfl rfl, wt101]

/-- The scores: query row `r` against key row `c`. -/
theorem sc107 (r c : Fin 4096) :
    (val_main_v107 x1 x2 x3 x4 x5 x6 x7 x8 x9 x10 x11) (ix2 r c) = Net.scores (fun (r : Fin 4096) (k : Fin 128) => (val_main_v87 x1 x2 x3 x4 x5 x6 x7 x8 x9 x10 x11) (ix2 r k)) (fun (c : Fin 4096) (k : Fin 128) => (val_main_v96 x1 x2 x3 x4 x5 x6 x7 x8 x9 x10 x11) (ix2 c k)) r c := by
  rw [val_main_v107_apply]
  simp only [Net.scores]
  refine Finset.sum_congr rfl fun k _ => ?_
  rw [val_main_v106_apply, show lidx_main_v107 (ix2 r c) k = ix2 r k from idx2_eq _ _ _ rfl rfl,
    show idx_main_v106 (ridx_main_v107 (ix2 r c) k) = ix2 c k from idx2_eq _ _ _ rfl rfl]

/-- The reduction of a score row by `max` from `-∞` is the fold over the row's coordinates. -/
theorem rm108 (r : Fin 4096) :
    (val_main_v108 x1 x2 x3 x4 x5 x6 x7 x8 x9 x10 x11) (ix1 r) = (Finset.univ : Finset (Fin 4096)).fold max ⊥ (fun c => (val_main_v107 x1 x2 x3 x4 x5 x6 x7 x8 x9 x10 x11) (ix2 r c)) :=
  rowMax_read (val_main_v107 x1 x2 x3 x4 x5 x6 x7 x8 x9 x10 x11) r

/-- The row maximum broadcast along the row: `max (-∞)` of the fold is the fold. -/
theorem mx112 (r c : Fin 4096) : (val_main_v112 x1 x2 x3 x4 x5 x6 x7 x8 x9 x10 x11) (ix2 r c) = Net.rowMax (fun (r : Fin 4096) (c : Fin 4096) => (val_main_v107 x1 x2 x3 x4 x5 x6 x7 x8 x9 x10 x11) (ix2 r c)) r := by
  rw [val_main_v112_apply, val_main_v111_apply, val_main_v110_apply, val_main_v109_apply,
    val_main_cst_8_apply, show idx_main_v111 (idx_main_v112 (ix2 r c)) = ix1 r from idx1_eq _ _ rfl, rm108]
  simp only [Ideal.maximumf_def, Ideal.ofBits_def, ofBits_neg_inf, max_bot_left, Net.rowMax]

/-- The exponential of the shifted score. -/
theorem ex114 (r c : Fin 4096) : (val_main_v114 x1 x2 x3 x4 x5 x6 x7 x8 x9 x10 x11) (ix2 r c) = Net.expShift (fun (r : Fin 4096) (c : Fin 4096) => (val_main_v107 x1 x2 x3 x4 x5 x6 x7 x8 x9 x10 x11) (ix2 r c)) r c := by
  rw [val_main_v114_apply, val_main_v113_apply, mx112]
  simp only [Ideal.hostUnary_exp_def, Ideal.subf_def, Net.expShift]

/-- The row's sum of exponentials, from a zero initial value, broadcast along the row. -/
theorem se117 (r c : Fin 4096) : (val_main_v117 x1 x2 x3 x4 x5 x6 x7 x8 x9 x10 x11) (ix2 r c) = ∑ c' : Fin 4096, Net.expShift (fun (r : Fin 4096) (c : Fin 4096) => (val_main_v107 x1 x2 x3 x4 x5 x6 x7 x8 x9 x10 x11) (ix2 r c)) r c' := by
  rw [val_main_v117_apply, val_main_v116_apply, val_main_v115_apply, val_main_cst_9_apply]
  simp only [Ideal.ofBits_def, Ideal.ofBits_zero_f32, zero_add]
  refine Finset.sum_congr rfl fun k _ => ?_
  rw [show idx_main_v115 (idx_main_v116 (idx_main_v117 (ix2 r c))) k = ix2 r k from idx2_eq _ _ _ rfl rfl, ex114]

/-- The softmax weights. -/
theorem sm118 (r c : Fin 4096) : (val_main_v118 x1 x2 x3 x4 x5 x6 x7 x8 x9 x10 x11) (ix2 r c) = Net.softmax (fun (r : Fin 4096) (c : Fin 4096) => (val_main_v107 x1 x2 x3 x4 x5 x6 x7 x8 x9 x10 x11) (ix2 r c)) r c := by
  rw [val_main_v118_apply, ex114, se117]
  simp only [Ideal.hostDivf_def, Net.softmax]

/-- The weights mixing the value rows. -/
theorem mi119 (r : Fin 4096) (j : Fin 128) :
    (val_main_v119 x1 x2 x3 x4 x5 x6 x7 x8 x9 x10 x11) (ix2 r j) = Net.mix (fun (r : Fin 4096) (c : Fin 4096) => (val_main_v118 x1 x2 x3 x4 x5 x6 x7 x8 x9 x10 x11) (ix2 r c)) (fun (c : Fin 4096) (j : Fin 128) => (val_main_v105 x1 x2 x3 x4 x5 x6 x7 x8 x9 x10 x11) (ix2 c j)) r j := by
  rw [val_main_v119_apply]
  simp only [Net.mix]
  refine Finset.sum_congr rfl fun k _ => ?_
  rw [show lidx_main_v119 (ix2 r j) k = ix2 r k from idx2_eq _ _ _ rfl rfl,
    show ridx_main_v119 (ix2 r j) k = ix2 k j from idx2_eq _ _ _ rfl rfl]

/-- The output projection of the mixed rows. -/
theorem aff128 (r : Fin 4096) (o : Fin 128) :
    (val_main_v128 x1 x2 x3 x4 x5 x6 x7 x8 x9 x10 x11) (ix2 r o) = Net.affine (fun (r : Fin 4096) (k : Fin 128) => (val_main_v119 x1 x2 x3 x4 x5 x6 x7 x8 x9 x10 x11) (ix2 r k)) (fun (o k : Fin 128) => x8 (ix3 (1 : Fin 2) o k)) (fun (o : Fin 128) => x9 (ix2 (1 : Fin 2) o)) r o := by
  rw [val_main_v128_apply, val_main_v125_apply, bs127]
  simp only [Ideal.addf_def, Net.affine]
  refine congrArg (· + _) (Finset.sum_congr rfl fun k _ => ?_)
  rw [show lidx_main_v125 (ix2 r o) k = ix2 r k from idx2_eq _ _ _ rfl rfl,
    show ridx_main_v125 (ix2 r o) k = ix2 k o from idx2_eq _ _ _ rfl rfl, wt124]

/-- The query rows, as a function of row and column. -/
theorem Qf87 :
    (fun (r : Fin 4096) (k : Fin 128) => (val_main_v87 x1 x2 x3 x4 x5 x6 x7 x8 x9 x10 x11) (ix2 r k))
      = (Net.affine (fun (r : Fin 4096) (k : Fin 128) => (val_main_v78 x1 x2 x3 x4 x5 x6 x7 x8 x9 x10 x11) (ix2 r k)) (fun (o k : Fin 128) => x2 (ix3 (1 : Fin 2) o k)) (fun (o : Fin 128) => x3 (ix2 (1 : Fin 2) o))) := by
  funext r k
  rw [aff87]

/-- The key rows, as a function of row and column. -/
theorem Kf96 :
    (fun (c : Fin 4096) (k : Fin 128) => (val_main_v96 x1 x2 x3 x4 x5 x6 x7 x8 x9 x10 x11) (ix2 c k))
      = (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))) := by
  funext r k
  rw [aff96]

/-- The value rows, as a function of row and column. -/
theorem Vf105 :
    (fun (c : Fin 4096) (j : Fin 128) => (val_main_v105 x1 x2 x3 x4 x5 x6 x7 x8 x9 x10 x11) (ix2 c j))
      = (Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o))) := by
  funext r k
  rw [aff105]

/-- The score matrix, as a function. -/
theorem Sf107 :
    (fun (r : Fin 4096) (c : Fin 4096) => (val_main_v107 x1 x2 x3 x4 x5 x6 x7 x8 x9 x10 x11) (ix2 r c))
      = (Net.scores (Net.affine (fun (r : Fin 4096) (k : Fin 128) => (val_main_v78 x1 x2 x3 x4 x5 x6 x7 x8 x9 x10 x11) (ix2 r k)) (fun (o k : Fin 128) => x2 (ix3 (1 : Fin 2) o k)) (fun (o : Fin 128) => x3 (ix2 (1 : Fin 2) o))) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o)))) := by
  funext r c
  rw [sc107, Qf87, Kf96]

/-- The softmax weights, as a function. -/
theorem Pf118 :
    (fun (r : Fin 4096) (c : Fin 4096) => (val_main_v118 x1 x2 x3 x4 x5 x6 x7 x8 x9 x10 x11) (ix2 r c))
      = (Net.softmax (Net.scores (Net.affine (fun (r : Fin 4096) (k : Fin 128) => (val_main_v78 x1 x2 x3 x4 x5 x6 x7 x8 x9 x10 x11) (ix2 r k)) (fun (o k : Fin 128) => x2 (ix3 (1 : Fin 2) o k)) (fun (o : Fin 128) => x3 (ix2 (1 : Fin 2) o))) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))))) := by
  funext r c
  rw [sm118, Sf107]

/-- The mixed rows, as a function. -/
theorem Mf119 :
    (fun (r : Fin 4096) (k : Fin 128) => (val_main_v119 x1 x2 x3 x4 x5 x6 x7 x8 x9 x10 x11) (ix2 r k))
      = (Net.mix (Net.softmax (Net.scores (Net.affine (fun (r : Fin 4096) (k : Fin 128) => (val_main_v78 x1 x2 x3 x4 x5 x6 x7 x8 x9 x10 x11) (ix2 r k)) (fun (o k : Fin 128) => x2 (ix3 (1 : Fin 2) o k)) (fun (o : Fin 128) => x3 (ix2 (1 : Fin 2) o))) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))))) (Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o)))) := by
  funext r k
  rw [mi119, Pf118, Vf105]

/-- The row before normalization: the projected attention plus the input row. -/
theorem pre129 (r : Fin 4096) (j : Fin 128) :
    (val_main_v129 x1 x2 x3 x4 x5 x6 x7 x8 x9 x10 x11) (ix2 r j)
      = (Net.preNorm (fun (r : Fin 4096) (k : Fin 128) => (val_main_v78 x1 x2 x3 x4 x5 x6 x7 x8 x9 x10 x11) (ix2 r k)) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))) (Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o))) (fun (o k : Fin 128) => x2 (ix3 (1 : Fin 2) o k)) (fun (o k : Fin 128) => x8 (ix3 (1 : Fin 2) o k)) (fun (o : Fin 128) => x3 (ix2 (1 : Fin 2) o)) (fun (o : Fin 128) => x9 (ix2 (1 : Fin 2) o))) r j := by
  rw [val_main_v129_apply, aff128, Mf119]
  simp only [Ideal.addf_def, Net.preNorm]

/-- The row mean: the sum from a zero initial value, divided by the literal 128. -/
theorem mean137 (r : Fin 4096) : (val_main_v137 x1 x2 x3 x4 x5 x6 x7 x8 x9 x10 x11) (ix2 r (0 : Fin 1)) = Net.mean (Ideal.ofBits .f32 0x43000000#32) (fun (r : Fin 4096) (j : Fin 128) => (val_main_v129 x1 x2 x3 x4 x5 x6 x7 x8 x9 x10 x11) (ix2 r j)) r := by
  rw [val_main_v137_apply, val_main_v135_apply, val_main_v134_apply, val_main_v136_apply,
    val_main_cst_10_apply, val_main_cst_11_apply]
  simp only [Ideal.hostDivf_def, Ideal.ofBits_def, Ideal.ofBits_zero_f32, zero_add, Net.mean]
  refine congrArg (Ideal.div · _) (Finset.sum_congr rfl fun k _ => ?_)
  rw [show idx_main_v134 (idx_main_v135 (ix2 r (0 : Fin 1))) k = ix2 r k from idx2_eq _ _ _ rfl rfl]

/-- The centred row. -/
theorem cen139 (r : Fin 4096) (j : Fin 128) : (val_main_v139 x1 x2 x3 x4 x5 x6 x7 x8 x9 x10 x11) (ix2 r j) = Net.centered (Ideal.ofBits .f32 0x43000000#32) (fun (r : Fin 4096) (j : Fin 128) => (val_main_v129 x1 x2 x3 x4 x5 x6 x7 x8 x9 x10 x11) (ix2 r j)) r j := by
  rw [val_main_v139_apply, val_main_v138_apply,
    show idx_main_v138 (ix2 r j) = ix2 r (0 : Fin 1) from idx2_eq _ _ _ rfl rfl, mean137]
  simp only [Ideal.subf_def, Net.centered]

/-- The centred row. -/
theorem cen146 (r : Fin 4096) (j : Fin 128) : (val_main_v146 x1 x2 x3 x4 x5 x6 x7 x8 x9 x10 x11) (ix2 r j) = Net.centered (Ideal.ofBits .f32 0x43000000#32) (fun (r : Fin 4096) (j : Fin 128) => (val_main_v129 x1 x2 x3 x4 x5 x6 x7 x8 x9 x10 x11) (ix2 r j)) r j := by
  rw [val_main_v146_apply, val_main_v145_apply,
    show idx_main_v145 (ix2 r j) = ix2 r (0 : Fin 1) from idx2_eq _ _ _ rfl rfl, mean137]
  simp only [Ideal.subf_def, Net.centered]

/-- The row variance: the sum of the centred squares, divided by the literal 128. -/
theorem var144 (r : Fin 4096) : (val_main_v144 x1 x2 x3 x4 x5 x6 x7 x8 x9 x10 x11) (ix2 r (0 : Fin 1)) = Net.variance (Ideal.ofBits .f32 0x43000000#32) (fun (r : Fin 4096) (j : Fin 128) => (val_main_v129 x1 x2 x3 x4 x5 x6 x7 x8 x9 x10 x11) (ix2 r j)) r := by
  rw [val_main_v144_apply, val_main_v142_apply, val_main_v141_apply, val_main_v143_apply,
    val_main_cst_12_apply, val_main_cst_13_apply]
  simp only [Ideal.hostDivf_def, Ideal.ofBits_def, Ideal.ofBits_zero_f32, zero_add, Net.variance]
  refine congrArg (Ideal.div · _) (Finset.sum_congr rfl fun k _ => ?_)
  rw [show idx_main_v141 (idx_main_v142 (ix2 r (0 : Fin 1))) k = ix2 r k from idx2_eq _ _ _ rfl rfl,
    val_main_v140_apply, cen139]
  simp only [Ideal.mulf_def]

/-- The normalized row: centred, divided by the root of the variance plus the literal, scaled and shifted. -/
theorem nrm157 (r : Fin 4096) (j : Fin 128) :
    (val_main_v157 x1 x2 x3 x4 x5 x6 x7 x8 x9 x10 x11) (ix2 r j) = Net.normDiv (Ideal.ofBits .f32 0x43000000#32) (Ideal.ofBits .f32 0x3727C5AC#32) (fun (r : Fin 4096) (j : Fin 128) => (val_main_v129 x1 x2 x3 x4 x5 x6 x7 x8 x9 x10 x11) (ix2 r j)) (fun (o : Fin 128) => x10 (ix2 (1 : Fin 2) o)) (fun (o : Fin 128) => x11 (ix2 (1 : Fin 2) o)) r j := by
  rw [val_main_v157_apply, val_main_v154_apply, val_main_v151_apply, cen146, val_main_v150_apply,
    show idx_main_v150 (ix2 r j) = ix2 r (0 : Fin 1) from idx2_eq _ _ _ rfl rfl,
    val_main_v149_apply, val_main_v148_apply, var144, val_main_v147_apply, val_main_cst_14_apply,
    bs153, bs156]
  simp only [Ideal.addf_def, Ideal.mulf_def, Ideal.hostDivf_def, Ideal.hostUnary_sqrt_def, Ideal.ofBits_def, Net.normDiv]

/-- Layer 2 of the reference is the network's attention block with the normalization by division. -/
theorem layer2 (r : Fin 4096) (j : Fin 128) :
    (val_main_v157 x1 x2 x3 x4 x5 x6 x7 x8 x9 x10 x11) (ix2 r j)
      = Net.normDiv (Ideal.ofBits .f32 0x43000000#32) (Ideal.ofBits .f32 0x3727C5AC#32)
          (Net.preNorm (fun (r : Fin 4096) (k : Fin 128) => (val_main_v78 x1 x2 x3 x4 x5 x6 x7 x8 x9 x10 x11) (ix2 r k)) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))) (Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o))) (fun (o k : Fin 128) => x2 (ix3 (1 : Fin 2) o k)) (fun (o k : Fin 128) => x8 (ix3 (1 : Fin 2) o k)) (fun (o : Fin 128) => x3 (ix2 (1 : Fin 2) o)) (fun (o : Fin 128) => x9 (ix2 (1 : Fin 2) o)))
          (fun (o : Fin 128) => x10 (ix2 (1 : Fin 2) o)) (fun (o : Fin 128) => x11 (ix2 (1 : Fin 2) o)) r j := by
  rw [nrm157, show (fun (r : Fin 4096) (j : Fin 128) => (val_main_v129 x1 x2 x3 x4 x5 x6 x7 x8 x9 x10 x11) (ix2 r j)) = (Net.preNorm (fun (r : Fin 4096) (k : Fin 128) => (val_main_v78 x1 x2 x3 x4 x5 x6 x7 x8 x9 x10 x11) (ix2 r k)) (Net.affine (fun (r : Fin 4096) (k : Fin 128) => (val_main_v78 x1 x2 x3 x4 x5 x6 x7 x8 x9 x10 x11) (ix2 r k)) (fun (o k : Fin 128) => x4 (ix3 (1 : Fin 2) o k)) (fun (o : Fin 128) => x5 (ix2 (1 : Fin 2) o))) (Net.affine (fun (r : Fin 4096) (k : Fin 128) => (val_main_v78 x1 x2 x3 x4 x5 x6 x7 x8 x9 x10 x11) (ix2 r k)) (fun (o k : Fin 128) => x6 (ix3 (1 : Fin 2) o k)) (fun (o : Fin 128) => x7 (ix2 (1 : Fin 2) o))) (fun (o k : Fin 128) => x2 (ix3 (1 : Fin 2) o k)) (fun (o k : Fin 128) => x8 (ix3 (1 : Fin 2) o k)) (fun (o : Fin 128) => x3 (ix2 (1 : Fin 2) o)) (fun (o : Fin 128) => x9 (ix2 (1 : Fin 2) o))) from by funext r j; rw [pre129]]

end Layer2

end Cert.RefNet

end
-- ==== Proof.HostSame.lean ====
/-
  The host stretches the two programs share.

  The gathering of the edge features — the two index columns cut from the index argument, wrapped into range, the two
  row gathers from the second layer's array, their concatenation — and the closing operations — the softmax of the
  logits, the two marginal sums, their scatter onto the nodes and the division by the counts — are the same host
  functions in the two programs, so each buffer of the one equals the stage of the other once the values going in agree.
-/
import proofs.«173113_j3470333575730_2_alg».proof.Proof.Gen.KernelIdeal.Frame
import proofs.«173113_j3470333575730_2_alg».proof.Proof.RefRead
import Idealize.ShloMosaic.Lib.StableHlo.Run

set_option maxRecDepth 16384

noncomputable section

namespace Cert.HostSame

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)
abbrev a19 (c : Dev nD) := m ((c : Thread nD τ).loc main_arg19)
abbrev a20 (c : Dev nD) := m ((c : Thread nD τ).loc main_arg20)
abbrev a21 (c : Dev nD) := m ((c : Thread nD τ).loc main_arg21)

/-! ## The edge features: the same host operations of the second layer's array and the index argument -/

/-- The index argument where the third host stretch reads it: nothing before writes it. -/
theorem w6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first index column, as the reference's stage. -/
theorem idx_i (c : Dev nD) : W8 m ρ c (Proc.devRef .tc main_v65) = Cert.ReferenceIdeal.ReadP.val_main_v159 (F := Ideal) (a0 m c) := by
  rw [W8_of_ne m ρ c main_v65 (by decide)]
  show StableHlo.after hostOps4 (W6 m ρ c) (Proc.devRef .tc main_v65) = _
  after_results
  rw [w6_arg0 m ρ c]
  rfl

/-- The second index column. -/
theorem idx_j (c : Dev nD) : W8 m ρ c (Proc.devRef .tc main_v67) = Cert.ReferenceIdeal.ReadP.val_main_v161 (F := Ideal) (a0 m c) := by
  rw [W8_of_ne m ρ c main_v67 (by decide)]
  show StableHlo.after hostOps4 (W6 m ρ c) (Proc.devRef .tc main_v67) = _
  after_results
  rw [w6_arg0 m ρ c]
  rfl

-- reading a buffer after some thirty host operations rewrites once per operation passed, on a growing term
set_option maxHeartbeats 4000000 in
/-- The gathered, concatenated edge features are the reference's stage, once the second layer's array is. -/
theorem feat_of (c : Dev nD)
    (h : W6 m ρ c (Proc.devRef .tc main_v63) = Cert.ReferenceIdeal.ReadP.val_main_v157 (F := Ideal) (a1 m c) (a2 m c) (a3 m c) (a4 m c) (a5 m c) (a6 m c) (a7 m c) (a8 m c) (a9 m c) (a10 m c) (a11 m c)) :
    (V7 m ρ c main_v82 : S8064x256.Idx → EReal) = Cert.ReferenceIdeal.ReadP.val_main_v176 (F := Ideal) (a0 m c) (a1 m c) (a2 m c) (a3 m c) (a4 m c) (a5 m c) (a6 m c) (a7 m c) (a8 m c) (a9 m c) (a10 m c) (a11 m c) := by
  show StableHlo.after hostOps4 (W6 m ρ c) (Proc.devRef .tc main_v82) = _
  after_results
  rw [w6_arg0 m ρ c, h]
  rfl

/-! ## The closing host operations: the same functions of the logits and the two index columns -/

set_option maxHeartbeats 16000000 in
/-- THE SECOND RESULT, the pairwise marginals: the softmax of the logits, reshaped. -/
theorem out1_of (c : Dev nD)
    (h : W8 m ρ c (Proc.devRef .tc main_v93) = Cert.ReferenceIdeal.ReadP.val_main_v207 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) :
    W9 m ρ c (Proc.devRef .tc main_v105) = Cert.ReferenceIdeal.ReadP.val_main_v219 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) := by
  show StableHlo.after hostOps5 (W8 m ρ c) (Proc.devRef .tc main_v105) = _
  after_results
  rw [h]
  rfl

set_option maxHeartbeats 32000000 in
/-- THE FIRST RESULT, the node marginals: the two marginal sums scattered onto the nodes, divided by the counts. -/
theorem out0_of (c : Dev nD)
    (h : W8 m ρ c (Proc.devRef .tc main_v93) = Cert.ReferenceIdeal.ReadP.val_main_v207 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c)) :
    W9 m ρ c (Proc.devRef .tc main_v121) = Cert.ReferenceIdeal.ReadP.val_main_v235 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) := by
  show StableHlo.after hostOps5 (W8 m ρ c) (Proc.devRef .tc main_v121) = _
  after_results
  rw [h, idx_i m ρ c, idx_j m ρ c]
  rfl

end Cert.HostSame

end
-- ==== Proof.Whole.lean ====
/-
  The idealized kernel's two results are the reference's, as functions of the arguments.

  Layer by layer: the first attention layer's array is the reference's stage after its first normalization (the
  layer as one function, its two normalizations identified); the second layer's likewise, reading the first layer's
  array where the first read the node embeddings; the gathered and concatenated edge features are the same host
  operations of that array and of the index argument on both sides; the edge network's logits are the reference's;
  and the closing host operations — the softmax of the logits, the two marginal sums, the scatter-mean over the
  nodes — are the same functions of the logits and of the two index columns on both sides.
-/
import proofs.«173113_j3470333575730_2_alg».proof.Proof.Gen.KernelIdeal.Frame
import proofs.«173113_j3470333575730_2_alg».proof.Proof.Chain1
import proofs.«173113_j3470333575730_2_alg».proof.Proof.Chain2
import proofs.«173113_j3470333575730_2_alg».proof.Proof.ChainEdge
import proofs.«173113_j3470333575730_2_alg».proof.Proof.RefNet
import proofs.«173113_j3470333575730_2_alg».proof.Proof.HostSame
import Idealize.ShloMosaic.Lib.StableHlo.Run

set_option maxRecDepth 16384

noncomputable section

namespace Cert.Whole

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)
abbrev a19 (c : Dev nD) := m ((c : Thread nD τ).loc main_arg19)
abbrev a20 (c : Dev nD) := m ((c : Thread nD τ).loc main_arg20)
abbrev a21 (c : Dev nD) := m ((c : Thread nD τ).loc main_arg21)

/-! ## The two attention layers -/

/-- The first layer's array is the reference's stage. -/
theorem x1_eq (c : Dev nD) : (V3 m ρ c main_v31 : S4096x128.Idx → EReal)
    = Cert.ReferenceIdeal.ReadP.val_main_v78 (F := Ideal) (a1 m c) (a2 m c) (a3 m c) (a4 m c) (a5 m c) (a6 m c) (a7 m c) (a8 m c) (a9 m c) (a10 m c) (a11 m c) := by
  funext i
  obtain ⟨r, j, rfl⟩ : ∃ (r : Fin 4096) (j : Fin 128), i = ix2 r j := ⟨i 0, i 1, eq_ix2 i⟩
  rw [Chain1.layer_eq m ρ c r j, Layer.mul_eq_div]
  exact (Cert.RefNet.layer1 (a1 m c) (a2 m c) (a3 m c) (a4 m c) (a5 m c) (a6 m c) (a7 m c) (a8 m c) (a9 m c) (a10 m c) (a11 m c) r j).symm

/-- The second layer's array is the reference's stage. -/
theorem x2_eq (c : Dev nD) : (V6 m ρ c main_v63 : S4096x128.Idx → EReal)
    = Cert.ReferenceIdeal.ReadP.val_main_v157 (F := Ideal) (a1 m c) (a2 m c) (a3 m c) (a4 m c) (a5 m c) (a6 m c) (a7 m c) (a8 m c) (a9 m c) (a10 m c) (a11 m c) := by
  funext i
  obtain ⟨r, j, rfl⟩ : ∃ (r : Fin 4096) (j : Fin 128), i = ix2 r j := ⟨i 0, i 1, eq_ix2 i⟩
  rw [Chain2.layer_eq m ρ c r j, Layer.mul_eq_div]
  have hX : Chain2.X m ρ c = fun r k => Cert.ReferenceIdeal.ReadP.val_main_v78 (F := Ideal) (a1 m c) (a2 m c) (a3 m c) (a4 m c) (a5 m c) (a6 m c) (a7 m c) (a8 m c) (a9 m c) (a10 m c) (a11 m c) (ix2 r k) := by
    funext r k
    show (V3 m ρ c main_v31 : S4096x128.Idx → EReal) (ix2 r k) = _
    rw [x1_eq m ρ c]
  rw [hX]
  exact (Cert.RefNet.layer2 (a1 m c) (a2 m c) (a3 m c) (a4 m c) (a5 m c) (a6 m c) (a7 m c) (a8 m c) (a9 m c) (a10 m c) (a11 m c) r j).symm

/-! ## The edge features -/

/-- The gathered, concatenated features are the reference's stage: the same host operations of the second layer's
    array and the index argument. -/
theorem feat_eq (c : Dev nD) : (V7 m ρ c main_v82 : S8064x256.Idx → EReal)
    = Cert.ReferenceIdeal.ReadP.val_main_v176 (F := Ideal) (a0 m c) (a1 m c) (a2 m c) (a3 m c) (a4 m c) (a5 m c) (a6 m c) (a7 m c) (a8 m c) (a9 m c) (a10 m c) (a11 m c) :=
  Cert.HostSame.feat_of m ρ c (x2_eq m ρ c)

/-! ## The logits -/

theorem logits_eq (c : Dev nD) : (V8 m ρ c main_v93 : S8064x4.Idx → EReal)
    = Cert.ReferenceIdeal.ReadP.val_main_v207 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) := by
  funext i
  obtain ⟨e, o, rfl⟩ : ∃ (e : Fin 8064) (o : Fin 4), i = ix2 e o := ⟨i 0, i 1, eq_ix2 i⟩
  rw [ChainEdge.logits_eq m ρ c, feat_eq m ρ c]
  exact (Cert.RefNet.mlp (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) e o).symm

/-! ## The closing host operations -/

/-- THE FIRST RESULT, the unary marginals. -/
theorem out0_eq (c : Dev nD) : W9 m ρ c (Proc.devRef .tc main_v121) = Cert.ReferenceIdeal.ReadP.val_main_v235 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) :=
  Cert.HostSame.out0_of m ρ c (logits_eq m ρ c)

/-- THE SECOND RESULT, the binary marginals. -/
theorem out1_eq (c : Dev nD) : W9 m ρ c (Proc.devRef .tc main_v105) = Cert.ReferenceIdeal.ReadP.val_main_v219 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) :=
  Cert.HostSame.out1_of m ρ c (logits_eq m ρ c)

end Cert.Whole

end
-- ==== Proof.lean ====
/-
  A two-layer attention network over 4096 nodes followed by an edge network, computed by five pipelined regions among
  host operations, against its plain array reference: every weakly fair execution of each program terminates without a
  fault and leaves the arguments as launched, and on the extended reals the two programs return the same two arrays.

  The idealization rewrote nothing, so that conjunct is trivial.  Each attention layer's array is one function of the
  layer's input and the stacked parameters — the kernel normalizes with a reciprocal root where the reference divides
  by the root, the same function because the variance plus a positive constant is positive —; the kernel's transposed
  keys, its blocks of query rows and its narrowing to a shorter float format change nothing on the extended reals; the
  gathered edge features, the edge network and the closing softmax and scatter-mean are the same functions on both
  sides.
-/
import proofs.«173113_j3470333575730_2_alg».proof.Defs
import proofs.«173113_j3470333575730_2_alg».proof.Proof.Gen.Kernel
import proofs.«173113_j3470333575730_2_alg».proof.Proof.Gen.Kernel.Frame
import proofs.«173113_j3470333575730_2_alg».proof.Proof.Gen.KernelIdeal
import proofs.«173113_j3470333575730_2_alg».proof.Proof.Gen.KernelIdeal.Frame
import proofs.«173113_j3470333575730_2_alg».proof.Proof.Gen.ReferenceIdeal
import proofs.«173113_j3470333575730_2_alg».proof.Proof.Gen.Pre_finite_inputs
import proofs.«173113_j3470333575730_2_alg».proof.Proof.KernelRun
import proofs.«173113_j3470333575730_2_alg».proof.Proof.RefBridge
import proofs.«173113_j3470333575730_2_alg».proof.Proof.Whole
import Idealize.ShloMosaic.Adequacy
import Idealize.ShloMosaic.Init

noncomputable section

namespace Cert.Proof

open Idealize.ShloMosaic Idealize.SL.Sem

/-- The kernel as printed terminates and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference terminates and keeps its arguments: its run, the results dropped. -/
theorem frame_reference : Cert.frame_ReferenceIdeal := fun m ρ _ =>
  (θ_run Cert.ReferenceIdeal.defs _ _).mono (fun _ h c => (h c).2.2) (Cert.RefBridge.ref_run m ρ)

/-- From memories agreeing on the arguments both programs run, and their two results are equal arrays. -/
theorem algebraic : Cert.algebraic_KernelIdeal_ReferenceIdeal := by
  intro m ρ m' ρ' _ hagree
  refine ⟨fun c => Cert.KernelIdeal.Gen.W9 m ρ c (Proc.devRef .tc Cert.KernelIdeal.main_v121),
    fun c => Cert.KernelIdeal.Gen.W9 m ρ c (Proc.devRef .tc Cert.KernelIdeal.main_v105),
    Cert.KernelRun.run (F := Ideal) m ρ, ?_⟩
  refine (θ_run Cert.ReferenceIdeal.defs _ _).mono (fun _ h c => ⟨(h c).1.trans ?_, (h c).2.1.trans ?_, (h c).2.2⟩)
    (Cert.RefBridge.ref_run m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    exact (Cert.Whole.out0_eq m ρ c).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    exact (Cert.Whole.out1_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
